-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x524288 : Shape := ⟨2, ![2, 524288]⟩
abbrev S524288 : Shape := ⟨1, ![524288]⟩
abbrev S128x128 : Shape := ⟨2, ![128, 128]⟩
abbrev S_ : Shape := ⟨0, ![]⟩
abbrev S1x524288 : Shape := ⟨2, ![1, 524288]⟩
abbrev S16384x16384 : Shape := ⟨2, ![16384, 16384]⟩
abbrev S524288x1 : Shape := ⟨2, ![524288, 1]⟩
abbrev S524288x2 : Shape := ⟨2, ![524288, 2]⟩
abbrev S16384 : Shape := ⟨1, ![16384]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S524288 : S_.BroadcastsInDim S524288 (![] : Fin 0 → Fin S524288.rank)
  reducesTo_S524288_S_d0 : S524288.ReducesTo [0] S_
  bcast_S_S128x128 : S_.BroadcastsInDim S128x128 (![] : Fin 0 → Fin S128x128.rank)
  reducesTo_S128x128_S_d0_1 : S128x128.ReducesTo [0, 1] S_
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x16384 : S_.BroadcastsInDim S16384x16384 (![] : Fin 0 → Fin S16384x16384.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  reducesTo_S16384x16384_S16384_d0 : S16384x16384.ReducesTo [0] S16384
  bcast_S_S16384 : S_.BroadcastsInDim S16384 (![] : Fin 0 → Fin S16384.rank)
  reducesTo_S16384_S_d0 : S16384.ReducesTo [0] S_
  scatter_S16384x16384_S524288x2_S524288_n_01_01_1_wf : ScatterDims.WF S16384x16384 S524288x2 S524288 [] [0, 1] [0, 1] 1

variable [Facts]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def fn_part2 {F : FTy → Type} [FloatOps F] (main_v13 : IVec S_ 1) (main_v32 : FVec F S16384x16384 .f32) (main_v33 : IVec S16384x16384 32) (main_v34 : IVec S16384x16384 32) (main_v35 : IVec S16384x16384 32) : IVec S_ 1 :=
  let main_v36 : IVec S16384x16384 32 := addi main_v33 main_v35
  let main_v37 : IVec S16384x16384 1 := cmpi .eq main_v36 main_v34
  let main_v38 : FVec F S16384x16384 .f32 := uitofp .f32 main_v37
  let main_v39 : FVec F S16384x16384 .f32 := addf main_v32 main_v38
  let main_cst_10 : FVec F S_ .f32 := constant S_ .f32 0x00000000#32
  let main_v40 : FVec F S16384 .f32 := (fun x v => Host.reduceAdd x v reducesTo_S16384x16384_S16384_d0 h_S_) main_v39 main_cst_10
  let main_cst_11 : FVec F S_ .f32 := constant S_ .f32 0x00000000#32
  let main_v41 : FVec F S16384 .f32 := broadcastInDim S16384 ![] bcast_S_S16384 main_cst_11
  let main_v42 : IVec S16384 1 := cmpf .ogt main_v40 main_v41
  let main_c_12 : IVec S_ 1 := constantI S_ 1 1#1
  let main_v43 : IVec S_ 1 := (fun x v => Host.reduce IntOp.andi x v reducesTo_S16384_S_d0 h_S_) main_v42 main_c_12
  let main_v44 : IVec S_ 1 := andi main_v13 main_v43
  main_v44

def fn_part1 {F : FTy → Type} [FloatOps F] (main_arg2 : FVec F S524288 .f32) (main_v13 : IVec S_ 1) (main_v15 : IVec S524288 32) (main_v17 : IVec S524288 32) : IVec S_ 1 :=
  let main_cst_4 : FVec F S_ .f32 := constant S_ .f32 0x00000000#32
  let main_v18 : FVec F S16384x16384 .f32 := broadcastInDim S16384x16384 ![] bcast_S_S16384x16384 main_cst_4
  let main_c_5 : IVec S_ 32 := constantI S_ 32 0#32
  let main_v19 : IVec S524288 32 := broadcastInDim S524288 ![] bcast_S_S524288 main_c_5
  let main_v20 : IVec S524288 1 := cmpi .slt main_v15 main_v19
  let main_c_6 : IVec S_ 32 := constantI S_ 32 16384#32
  let main_v21 : IVec S524288 32 := broadcastInDim S524288 ![] bcast_S_S524288 main_c_6
  let main_v22 : IVec S524288 32 := addi main_v15 main_v21
  let main_v23 : IVec S524288 32 := select main_v20 main_v22 main_v15
  let main_c_7 : IVec S_ 32 := constantI S_ 32 0#32
  let main_v24 : IVec S524288 32 := broadcastInDim S524288 ![] bcast_S_S524288 main_c_7
  let main_v25 : IVec S524288 1 := cmpi .slt main_v17 main_v24
  let main_c_8 : IVec S_ 32 := constantI S_ 32 16384#32
  let main_v26 : IVec S524288 32 := broadcastInDim S524288 ![] bcast_S_S524288 main_c_8
  let main_v27 : IVec S524288 32 := addi main_v17 main_v26
  let main_v28 : IVec S524288 32 := select main_v25 main_v27 main_v17
  let main_v29 : IVec S524288x1 32 := broadcastInDim S524288x1 ![0] bcast_S524288_S524288x1_0 main_v23
  let main_v30 : IVec S524288x1 32 := broadcastInDim S524288x1 ![0] bcast_S524288_S524288x1_0 main_v28
  let main_v31 : IVec S524288x2 32 := (fun a b => concatenate S524288x2 1 [⟨S524288x1, a⟩, ⟨S524288x1, b⟩] concatenates_S524288x1_S524288x1_S524288x2_d1) main_v29 main_v30
  let main_v32 : FVec F S16384x16384 .f32 := (fun x i u => Host.scatter scatter_S16384x16384_S524288x2_S524288_n_01_01_1 (fun _ b => b) x i u) main_v18 main_v31 main_arg2
  let main_v33 : IVec S16384x16384 32 := iotaInDim S16384x16384 32 0
  let main_v34 : IVec S16384x16384 32 := iotaInDim S16384x16384 32 1
  let main_c_9 : IVec S_ 32 := constantI S_ 32 0#32
  let main_v35 : IVec S16384x16384 32 := broadcastInDim S16384x16384 ![] bcast_S_S16384x16384 main_c_9
  fn_part2 (F := F) main_v13 main_v32 main_v33 main_v34 main_v35

def fn {F : FTy → Type} [FloatOps F] (main_arg0 : FVec F S16384x128 .f32) (main_arg1 : IVec S2x524288 32) (main_arg2 : FVec F S524288 .f32) (main_arg3 : FVec F S128x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S524288 .f32 := Host.absf main_arg2
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : IVec S1x524288 32 := (extractStridedSlice S1x524288 ![0, 0] · slices_S2x524288_S1x524288_0_0) main_arg1
  let main_v15 : IVec S524288 32 := shapeCast S524288 main_v14 shapeCasts_S1x524288_S524288
  let main_v16 : IVec S1x524288 32 := (extractStridedSlice S1x524288 ![1, 0] · slices_S2x524288_S1x524288_1_0) main_arg1
  let main_v17 : IVec S524288 32 := shapeCast S524288 main_v16 shapeCasts_S1x524288_S524288
  fn_part1 (F := F) main_arg2 main_v13 main_v15 main_v17
-- ==== Kernel.lean ====
abbrev S16384x128 : Shape := ⟨2, ![16384, 128]⟩
abbrev S2x524288 : Shape := ⟨2, ![2, 524288]⟩
abbrev S524288 : Shape := ⟨1, ![524288]⟩
abbrev S128x128 : Shape := ⟨2, ![128, 128]⟩
abbrev S1x524288 : Shape := ⟨2, ![1, 524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S1x16384 : Shape := ⟨2, ![1, 16384]⟩
abbrev S2048x2048 : Shape := ⟨2, ![2048, 2048]⟩
abbrev S1x2048 : Shape := ⟨2, ![1, 2048]⟩
abbrev S2048 : Shape := ⟨1, ![2048]⟩
abbrev S16384x1 : Shape := ⟨2, ![16384, 1]⟩
abbrev S4096x128 : Shape := ⟨2, ![4096, 128]⟩
abbrev S4096x1 : Shape := ⟨2, ![4096, 1]⟩
abbrev S2048x128 : Shape := ⟨2, ![2048, 128]⟩
abbrev S2048x1 : Shape := ⟨2, ![2048, 1]⟩

abbrev nBuf : Space → Nat
  | .hbm => 32
  | .vmem => 22
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S524288, .f32⟩
  | .hbm, ⟨3, _⟩ => ⟨S128x128, .f32⟩
  | .hbm, ⟨4, _⟩ => ⟨S1x524288, .i32⟩
  | .hbm, ⟨5, _⟩ => ⟨S524288, .i32⟩
  | .hbm, ⟨6, _⟩ => ⟨S1x524288, .i32⟩
  | .hbm, ⟨7, _⟩ => ⟨S524288, .i32⟩
  | .hbm, ⟨8, _⟩ => ⟨S_, .f32⟩
  | .hbm, ⟨9, _⟩ => ⟨S16384x16384, .f32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S524288x1, .i32⟩
  | .hbm, ⟨26, _⟩ => ⟨S524288x2, .i32⟩
  | .hbm, ⟨27, _⟩ => ⟨S16384x16384, .f32⟩
  | .hbm, ⟨28, _⟩ => ⟨S1x16384, .f32⟩
  | .hbm, ⟨29, _⟩ => ⟨S16384x1, .f32⟩
  | .hbm, ⟨30, _⟩ => ⟨S16384x128, .bf16⟩
  | .hbm, ⟨31, _⟩ => ⟨S16384x128, .f32⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S1x2048, .f32⟩
  | .local _ .vmem, ⟨4, _⟩ => ⟨S4096x128, .f32⟩
  | .local _ .vmem, ⟨5, _⟩ => ⟨S4096x128, .f32⟩
  | .local _ .vmem, ⟨6, _⟩ => ⟨S128x128, .f32⟩
  | .local _ .vmem, ⟨7, _⟩ => ⟨S4096x1, .f32⟩
  | .local _ .vmem, ⟨8, _⟩ => ⟨S4096x1, .f32⟩
  | .local _ .vmem, ⟨9, _⟩ => ⟨S4096x128, .bf16⟩
  | .local _ .vmem, ⟨10, _⟩ => ⟨S4096x128, .bf16⟩
  | .local _ .vmem, ⟨11, _⟩ => ⟨S2048x2048, .f32⟩
  | .local _ .vmem, ⟨12, _⟩ => ⟨S2048x2048, .f32⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x1, .f32⟩
  | .local _ .vmem, ⟨18, _⟩ => ⟨S2048x1, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S2048x2048_S2048 : S2048x2048.Reduces [0] S2048
  shapeCasts_S2048_S1x2048 : S2048.ShapeCasts S1x2048
  transposes_S1x16384_S16384x1_1_0 : S1x16384.Transposes [1, 0] S16384x1
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  packedbf16_S4096x128_S4096x128_0_0 : (Rect.unit (s := S4096x128) ![0, 0] S4096x128.size inb_S4096x128_S4096x128_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  scatter_S16384x16384_S524288x2_S524288_n_01_01_1_wf : ScatterDims.WF S16384x16384 S524288x2 S524288 [] [0, 1] [0, 1] 1
  dot_S4096x128_S128x128_S4096x128_1_0_0_1_n_n_wf : DotDims.WF S4096x128 S128x128 S4096x128 [1] [0] [0] [1] [] []
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S16384x128.size a
  hwx1_0 : ∀ i : grid1.Coords, EltTy.bits .f32 = 32 ∨ (Rect.block (s := S16384x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S16384x1.size a
  hwx1_2 : ∀ i : grid1.Coords, EltTy.bits .f32 = 32 ∨ (Rect.block (s := S16384x1) S4096x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S16384x128.size a
  hwx1_3 : ∀ i : grid1.Coords, EltTy.bits .bf16 = 32 ∨ (Rect.block (s := S16384x128) S4096x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S16384x16384.size a
  hwx2_0 : ∀ i : grid2.Coords, EltTy.bits .f32 = 32 ∨ (Rect.block (s := S16384x16384) S2048x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .bf16 = 32 ∨ (Rect.block (s := S16384x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S16384x128.size a
  hwx2_2 : ∀ i : grid2.Coords, EltTy.bits .bf16 = 32 ∨ (Rect.block (s := S16384x128) S2048x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S16384x1.size a
  hwx2_3 : ∀ i : grid2.Coords, EltTy.bits .f32 = 32 ∨ (Rect.block (s := S16384x1) S2048x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x128.size a ≤ S16384x128.size a
  hwx2_4 : ∀ i : grid2.Coords, EltTy.bits .f32 = 32 ∨ (Rect.block (s := S16384x128) S2048x128.size (cc2_transform_4 i) (hinb2_4 i)).WholeWords (EltTy.packing .f32)

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_v18) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22) S2048x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S2x524288 : Shape := ⟨2, ![2, 524288]⟩
abbrev S524288 : Shape := ⟨1, ![524288]⟩
abbrev S128x128 : Shape := ⟨2, ![128, 128]⟩
abbrev S1x524288 : Shape := ⟨2, ![1, 524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S16384 : Shape := ⟨1, ![16384]⟩
abbrev S1x16384 : Shape := ⟨2, ![1, 16384]⟩
abbrev S16384x1 : Shape := ⟨2, ![16384, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S524288, .f32⟩
  | .hbm, ⟨3, _⟩ => ⟨S128x128, .f32⟩
  | .hbm, ⟨4, _⟩ => ⟨S1x524288, .i32⟩
  | .hbm, ⟨5, _⟩ => ⟨S524288, .i32⟩
  | .hbm, ⟨6, _⟩ => ⟨S1x524288, .i32⟩
  | .hbm, ⟨7, _⟩ => ⟨S524288, .i32⟩
  | .hbm, ⟨8, _⟩ => ⟨S_, .f32⟩
  | .hbm, ⟨9, _⟩ => ⟨S16384x16384, .f32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S524288x1, .i32⟩
  | .hbm, ⟨26, _⟩ => ⟨S524288x2, .i32⟩
  | .hbm, ⟨27, _⟩ => ⟨S16384x16384, .f32⟩
  | .hbm, ⟨28, _⟩ => ⟨S16384x16384, .i32⟩
  | .hbm, ⟨29, _⟩ => ⟨S16384x16384, .i32⟩
  | .hbm, ⟨30, _⟩ => ⟨S_, .i32⟩
  | .hbm, ⟨31, _⟩ => ⟨S16384x16384, .i32⟩
  | .hbm, ⟨32, _⟩ => ⟨S16384x16384, .i32⟩
  | .hbm, ⟨33, _⟩ => ⟨S16384x16384, .i1⟩
  | .hbm, ⟨34, _⟩ => ⟨S16384x16384, .f32⟩
  | .hbm, ⟨35, _⟩ => ⟨S16384x16384, .f32⟩
  | .hbm, ⟨36, _⟩ => ⟨S_, .f32⟩
  | .hbm, ⟨37, _⟩ => ⟨S16384, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S1x16384, .f32⟩
  | .hbm, ⟨42, _⟩ => ⟨S16384x16384, .f32⟩
  | .hbm, ⟨43, _⟩ => ⟨S16384x16384, .f32⟩
  | .hbm, ⟨44, _⟩ => ⟨S16384x1, .f32⟩
  | .hbm, ⟨45, _⟩ => ⟨S16384x16384, .f32⟩
  | .hbm, ⟨46, _⟩ => ⟨S16384x16384, .f32⟩
  | .hbm, ⟨47, _⟩ => ⟨S16384x128, .f32⟩
  | .hbm, ⟨48, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  reducesTo_S16384x16384_S16384_d0 : S16384x16384.ReducesTo [0] S16384
  h_S_ : 0 < S_.numel
  bcast_S_S16384 : S_.BroadcastsInDim S16384 (![] : Fin 0 → Fin S16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  scatter_S16384x16384_S524288x2_S524288_n_01_01_1_wf : ScatterDims.WF S16384x16384 S524288x2 S524288 [] [0, 1] [0, 1] 1
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.KiRegion0Runs.lean ====
/-
  The first kernel region: column sums of the adjacency, then the inverse square root of the degree.

  The grid is 8 column blocks by 8 row blocks, the row block moving fastest. The output window — one row of 2048
  entries, the column block's — keeps its staging buffer over the 8 row blocks of a column block and is written back
  after the last. At the first row block the buffer is set to zero and the block's column sums are added; at the
  next six the block's column sums are added to what the point before left; at the last, after adding, every entry
  `s` is replaced by `rsqrt (s + 1)`. So what the buffer holds after a point is given by recursion on the point.
-/
import proofs.«112075_j62397284876370_2_alg».proof.Proof.Gen.KernelIdeal.Launch
import proofs.«112075_j62397284876370_2_alg».proof.Proof.Gen.KernelIdeal.Skeleton
import proofs.«112075_j62397284876370_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions: the first and the last row block -/

/-- The row block is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The row block is the last. -/
abbrev cond0_1 (i : grid0.Coords) : Prop := (Scalar.cmpi .ne (Scalar.extui (Scalar.cmpi .eq (BitVec.ofNat 32 (i 1).val) 7#32)) 0#32) = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## The staging buffers the body is called with -/

/-- One staging buffer of the output window, through which its contents are stated. -/
abbrev VO0_1 : View sig .tc .vmem S1x2048 .f32 := (Memref.whole cc0_stg1_0 : Memref sig .tc .vmem S1x2048 .f32).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)

/-! ## The body's triple, case by case: the stores the run finds -/

set_option maxHeartbeats 1000000 in
/-- First row block: the buffer is zeroed, then the block's column sums are added. -/
noncomputable def kernelRun0_A (c : Dev nD) (i : grid0.Coords) (arg2 : Memref sig .tc .vmem S2048x2048 .f32) (harg2 : arg2.IsWhole) (arg3 : Memref sig .tc .vmem S1x2048 .f32) (harg3 : arg3.IsWhole) (hc0 : cond0_0 i) (hc1 : ¬cond0_1 i)
    (x0 : Vec F S2048x2048 .f32) :
    { L1 : List (View.Piece (Elt F) S1x2048 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__degree_kernel i arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

set_option maxHeartbeats 1000000 in
/-- A middle row block: the block's column sums are added to what the buffer held. -/
noncomputable def kernelRun0_B (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : ¬cond0_1 i)
    (x0 : Vec F S2048x2048 .f32) (xo1 : Vec F S1x2048 .f32) :
    { L1 : List (View.Piece (Elt F) S1x2048 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__degree_kernel i arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

set_option maxHeartbeats 1000000 in
/-- Last row block: the block's column sums are added, then every entry `s` becomes `rsqrt (s + 1)`. -/
noncomputable def kernelRun0_C (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : cond0_1 i)
    (x0 : Vec F S2048x2048 .f32) (xo1 : Vec F S1x2048 .f32) :
    { L1 : List (View.Piece (Elt F) S1x2048 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__degree_kernel i arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.KernelIdeal.Hand

end
-- ==== Proof.KiRegion0.lean ====
/-
  The first kernel region, continued: what the output window's staging buffer holds after every grid point, the
  region's proof data and the body obligation.
-/
import proofs.«112075_j62397284876370_2_alg».proof.Proof.KiRegion0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves in the output window's buffer -/

theorem cover0_A_1 (c : Dev nD) (i : grid0.Coords) (arg2 : Memref sig .tc .vmem S2048x2048 .f32) (harg2 : arg2.IsWhole) (arg3 : Memref sig .tc .vmem S1x2048 .f32) (harg3 : arg3.IsWhole) (hc0 : cond0_0 i) (hc1 : ¬cond0_1 i)
    (x0 : Vec F S2048x2048 .f32) (y : S1x2048.Idx) :
    ∃ pc ∈ (kernelRun0_A c i arg2 harg2 arg3 harg3 hc0 hc1 x0).1, y ∈ pc.1.set :=
  View.cover_of_tiledL (kernelRun0_A c i arg2 harg2 arg3 harg3 hc0 hc1 x0).1 S1x2048.size (by sl_kernel_rfl) y

/-- First row block: the stores read back. -/
def out0_A_1 (c : Dev nD) (i : grid0.Coords) (arg2 : Memref sig .tc .vmem S2048x2048 .f32) (harg2 : arg2.IsWhole) (arg3 : Memref sig .tc .vmem S1x2048 .f32) (harg3 : arg3.IsWhole) (hc0 : cond0_0 i) (hc1 : ¬cond0_1 i)
    (x0 : Vec F S2048x2048 .f32) : Vec F S1x2048 .f32 :=
  VO0_1.read (Elt F) (VO0_1.writes (Elt F) VO0_1.junk (kernelRun0_A c i arg2 harg2 arg3 harg3 hc0 hc1 x0).1)

theorem cover0_B_1 (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : ¬cond0_1 i)
    (x0 : Vec F S2048x2048 .f32) (xo1 : Vec F S1x2048 .f32) (y : S1x2048.Idx) :
    ∃ pc ∈ (kernelRun0_B c i arg2 harg2 arg3 harg3 hc0 hc1 x0 xo1).1, y ∈ pc.1.set :=
  View.cover_of_tiledL (kernelRun0_B c i arg2 harg2 arg3 harg3 hc0 hc1 x0 xo1).1 S1x2048.size (by sl_kernel_rfl) y

/-- A middle row block: the stores read back. -/
def out0_B_1 (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : ¬cond0_1 i)
    (x0 : Vec F S2048x2048 .f32) (xo1 : Vec F S1x2048 .f32) : Vec F S1x2048 .f32 :=
  VO0_1.read (Elt F) (VO0_1.writes (Elt F) VO0_1.junk (kernelRun0_B c i arg2 harg2 arg3 harg3 hc0 hc1 x0 xo1).1)

theorem cover0_C_1 (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : cond0_1 i)
    (x0 : Vec F S2048x2048 .f32) (xo1 : Vec F S1x2048 .f32) (y : S1x2048.Idx) :
    ∃ pc ∈ (kernelRun0_C c i arg2 harg2 arg3 harg3 hc0 hc1 x0 xo1).1, y ∈ pc.1.set :=
  View.cover_of_tiledL (kernelRun0_C c i arg2 harg2 arg3 harg3 hc0 hc1 x0 xo1).1 S1x2048.size (by sl_kernel_rfl) y

/-- Last row block: the stores read back. -/
def out0_C_1 (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : cond0_1 i)
    (x0 : Vec F S2048x2048 .f32) (xo1 : Vec F S1x2048 .f32) : Vec F S1x2048 .f32 :=
  VO0_1.read (Elt F) (VO0_1.writes (Elt F) VO0_1.junk (kernelRun0_C c i arg2 harg2 arg3 harg3 hc0 hc1 x0 xo1).1)

/-! ## What the output window's buffer holds after each point -/

/-- The accumulation, by recursion on the point's position: the case the position's row block selects, run on the
    point's adjacency block and, after the first row block, on what the point before left. -/
def outsAt0 (c : Dev nD) : (n : ℕ) → n < cfg0.N → Vec F S1x2048 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (fun h => (fun h => by (try dsimp only at h); omega) ((hcond0_1 ⟨0, hn⟩).mp h)) (iblk0 V c 0 ⟨0, hn⟩)
  | n + 1, hn =>
    if h0 : (n + 1) % 8 = 0 then
      if h1 : (n + 1) % 8 = 7 then
        False.elim (by omega)
      else
        out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (fun h => h1 ((hcond0_1 ⟨n + 1, hn⟩).mp h)) (iblk0 V c 0 ⟨n + 1, hn⟩)
    else
      if h1 : (n + 1) % 8 = 7 then
        out0_C_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) ((hcond0_1 ⟨n + 1, hn⟩).mpr h1) (iblk0 V c 0 ⟨n + 1, hn⟩) (outsAt0 c n (Nat.lt_of_succ_lt hn))
      else
        out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn))

theorem outsAt0_A (c : Dev nD) (t : Fin cfg0.N) (h0 : t.val % 8 = 0) (h1 : ¬t.val % 8 = 7) :
    outsAt0 V c t.val t.isLt = out0_A_1 c (grid0.coords t) (ms0_0 t) (hs0_0 t) (ms0_1 t) (hs0_1 t) ((hcond0_0 t).mpr h0) (fun h => h1 ((hcond0_1 t).mp h)) (iblk0 V c 0 t) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = out0_B_1 c (grid0.coords t) (ms0_0 t) (hs0_0 t) (ms0_1 t) (hs0_1 t) (fun h => h0 ((hcond0_0 t).mp h)) (fun h => h1 ((hcond0_1 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = out0_C_1 c (grid0.coords t) (ms0_0 t) (hs0_0 t) (ms0_1 t) (hs0_1 t) (fun h => h0 ((hcond0_0 t).mp h)) ((hcond0_1 t).mpr h1) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the region on core `c`: the arrays as the region finds them; after the body at point `t` the
    input's buffer at its block and the output's at `outsAt0`; the invariant the scoped rest and the generator
    register; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- After the first row block of a column block the output's buffer holds what the point before left: it was not
    written back in between. -/
theorem before0_1_pos (c : Dev nD) (t : Fin cfg0.N) (h0 : ¬t.val % 8 = 0) (d) :
    (dat0 V c).before 1 t d = outsAt0 V c (t.val - 1) (Nat.lt_of_le_of_lt (Nat.sub_le _ _) t.isLt) := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 1600000 in
/-- The body at any point: the row block says which case the point is in; after the first row block the output's
    buffer holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 64 := lt_of_lt_of_eq t.isLt (show cfg0.N = 64 from N_0)
  by_cases h0 : t.val % 8 = 0
  · by_cases h1 : t.val % 8 = 7
    · exfalso; omega
    · rw [outsAt0_A V c t h0 h1]
      unfold out0_A_1
      iintro ⟨HΦ, Ho, ⟨%d0, H0⟩, ⟨%d1, H1⟩⟩
      iapply ((kernelRun0_A c (grid0.coords t) _ _ _ _ ((hcond0_0 t).mpr h0) (fun h => h1 ((hcond0_1 t).mp h)) (iblk0 V c 0 t)).2 Set.univ _)
      isplitl [H0]; · iexact H0
      isplitl [H1]; · iexists _; iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_A_1 c _ _ _ _ _ _ _ _)
  · by_cases h1 : t.val % 8 = 7
    · rw [outsAt0_C V c t h0 h1]
      simp only [before0_1_pos V c t h0]
      unfold out0_C_1
      iintro ⟨HΦ, Ho, ⟨%d0, H0⟩, ⟨%d1, H1⟩⟩
      iapply ((kernelRun0_C c (grid0.coords t) _ _ _ _ (fun h => h0 ((hcond0_0 t).mp h)) ((hcond0_1 t).mpr h1) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_C_1 c _ _ _ _ _ _ _ _ _)
    · rw [outsAt0_B V c t h0 h1]
      simp only [before0_1_pos V c t h0]
      unfold out0_B_1
      iintro ⟨HΦ, Ho, ⟨%d0, H0⟩, ⟨%d1, H1⟩⟩
      iapply ((kernelRun0_B c (grid0.coords t) _ _ _ _ (fun h => h0 ((hcond0_0 t).mp h)) (fun h => h1 ((hcond0_1 t).mp h)) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_B_1 c _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1.lean ====
/-
  The second kernel region: rows of x·w scaled by a column.

  One grid point stages a block of 4096 rows of x, the whole of w and the matching 4096 entries of the scaling
  column, and stores the block (x_blk · w) ∘ column into the output's staging buffer in one store over the whole
  buffer. Nothing is kept between points: what the output's buffer holds after a point is a function of that point's
  three input blocks alone.
-/
import proofs.«112075_j62397284876370_2_alg».proof.Proof.Gen.KernelIdeal.Launch
import proofs.«112075_j62397284876370_2_alg».proof.Proof.Gen.KernelIdeal.Skeleton
import proofs.«112075_j62397284876370_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S4096x128 := Rect.unit (s := S4096x128) ![0, 0] S4096x128.size inb_S4096x128_S4096x128_0_0
abbrev r1_1 : Rect S128x128 := Rect.unit (s := S128x128) ![0, 0] S128x128.size inb_S128x128_S128x128_0_0
abbrev r1_2 : Rect S4096x1 := Rect.unit (s := S4096x1) ![0, 0] S4096x1.size inb_S4096x1_S4096x1_0_0

/-- The output's staging buffer after the body, from the three input blocks: the one store, over the whole buffer. -/
def out1_3 (x0 : Vec F S4096x128 .f32) (x1 : Vec F S128x128 .f32) (x2 : Vec F S4096x1 .f32) : Vec F S4096x128 .bf16 :=
  View.canon [⟨r1_0, k1_pay1 (View.ld x0 r1_0) (View.ld x1 r1_1) (View.ld x2 r1_2)⟩]

/-- The store covers the buffer. -/
theorem cover1_3 (p0 : Vec F S4096x128 .bf16) (y : S4096x128.Idx) :
    ∃ pc ∈ ([⟨r1_0, p0⟩] : List (View.Piece (Elt F) S4096x128 .bf16)), y ∈ pc.1.set :=
  View.cover_of_tiled [⟨r1_0, p0⟩] S4096x128.size (by rfl) y

/-! ## The body's triple -/

set_option maxHeartbeats 1000000 in
/-- The body on whole staging buffers, the inputs' at contents `x0 x1 x2` and the output's at anything, runs to the
    continuation holding the inputs' as they were and the output's at `out1_3` of them. -/
theorem sound_kernel1 (c : Dev nD) (E : Set ℕ) (i : grid1.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S4096x128 .bf16) (harg4 : arg4.IsWhole)
    (x0 : Vec F S4096x128 .f32) (x1 : Vec F S128x128 .f32) (x2 : Vec F S4096x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__support_kernel i arg1 harg1 arg2 harg2 arg3 harg3 arg4 harg4) K := by
  simp only [cc1__support_kernel_eq_skeleton]; unfold cc1__support_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them; after the body at point `t` each
    input's buffer at its block and the output's at `out1_3` of the blocks; the invariant the scoped rest and the
    generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRegion2Runs.lean ====
/-
  The third kernel region: the adjacency times the support, accumulated over the column blocks, then the
  self term added and the rows scaled.

  The grid is 8 row blocks by 8 column blocks of the adjacency, the column block k moving fastest. A scratch
  buffer of 2048 x 128 entries carries the running sum over k: at k = 0 it is set to zero; at every k the product
  of the adjacency block with the k-th block of the support is added to it; at k = 7 the output's staging buffer
  receives (sum + the row block of the support) scaled row by row by the degree column. At the other points the
  body stores nothing into the output's buffer. This file fixes the two conditions in closed form, the memrefs
  the body is called with, and the body's triple in each of the three cases.
-/
import proofs.«112075_j62397284876370_2_alg».proof.Proof.Gen.KernelIdeal.Launch
import proofs.«112075_j62397284876370_2_alg».proof.Proof.Gen.KernelIdeal.Skeleton
import proofs.«112075_j62397284876370_2_alg».proof.Proof.Gen.KernelIdeal.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two conditions: the first and the last column block -/

/-- The column block is the first. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The column block is the last. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
/-- Off the last column block the output is idle and is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last column block the output is live. -/
theorem liveAt2_4 : ∀ t : Fin cfg2.N, cond2_1 (grid2.coords t) → cfg2.idle 4 (grid2.coords t) = false := by decide +kernel

/-! ## The memrefs the body is called with -/

/-- One staging buffer of the output window, through which its contents are stated. -/
abbrev VO2_4 : View sig .tc .vmem S2048x128 .f32 := (Memref.whole cc2_stg4_0 : Memref sig .tc .vmem S2048x128 .f32).view
abbrev ms2_0 (t : Fin cfg2.N) : Memref sig .tc .vmem S2048x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x128 .f32 := win2_4.stage (cfg2.slots t 4)
abbrev hs2_4 (t : Fin cfg2.N) : (ms2_4 t).IsWhole := hstage2_4 ((cfg2.slots t 4).cast nbuf2_4)
/-- The scratch buffer holding the running sum, whole, and its view. -/
abbrev scM2_0 : Memref sig .tc .vmem S2048x128 .f32 := Memref.whole cc2_scratch0
abbrev VS2_0 : View sig .tc .vmem S2048x128 .f32 := scM2_0.view

/-! ## The body's triple, case by case: the stores the run finds -/

set_option maxHeartbeats 1000000 in
/-- First column block: the scratch, whatever it held, is zeroed and the block product added; the output's buffer,
    at contents `xi4`, is handed back as found. -/
noncomputable def kernelRun2_A (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : cond2_0 i) (hc1 : ¬cond2_1 i)
    (x0 : Vec F S2048x2048 .f32) (x1 : Vec F S2048x128 .bf16) (x2 : Vec F S2048x128 .bf16) (x3 : Vec F S2048x1 .f32) :
    { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_kernel i arg2 harg2 arg3 harg3 arg4 harg4 arg5 harg5 arg6 harg6 arg7 harg7) K } := by
  refine ⟨?_, fun xi4 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A middle column block: the block product is added to what the scratch held, `xs0`; the output's buffer is
    handed back as found. -/
noncomputable def kernelRun2_B (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : ¬cond2_1 i)
    (x0 : Vec F S2048x2048 .f32) (x1 : Vec F S2048x128 .bf16) (x2 : Vec F S2048x128 .bf16) (x3 : Vec F S2048x1 .f32) (xs0 : Vec F S2048x128 .f32) :
    { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_kernel i arg2 harg2 arg3 harg3 arg4 harg4 arg5 harg5 arg6 harg6 arg7 harg7) K } := by
  refine ⟨?_, fun xi4 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- Last column block: the block product is added to what the scratch held, `xs0`; then the output's buffer,
    whatever it held, receives the sum with the self term added and the rows scaled. -/
noncomputable def kernelRun2_C (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) :
    Σ' (L4 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_kernel i arg2 harg2 arg3 harg3 arg4 harg4 arg5 harg5 arg6 harg6 arg7 harg7) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.LibWholeBuffer.lean ====
/-
  Whole-buffer stores and loads.

  A kernel body that stores a value over a whole buffer (the rectangle of the buffer's own extents at offset zero)
  leaves exactly that value there, whatever the buffer held before; a load through the same rectangle of a buffer
  whose contents read `X` reads `X`; and a load of what one such store left reads the stored value.
-/
import Idealize.ShloMosaic.Lib.Pipeline.FrameBody
import Idealize.ShloMosaic.Lib.Pipeline.Value

noncomputable section

namespace Cert.LibWholeBuffer

open Idealize.ShloMosaic

variable {Val : EltTy → Type} [∀ e, Nonempty (Val e)] {sig : RefSig} {κ : Kind} {sp : Space} {S : Shape} {e : EltTy}

/-- The zero offset of a rank-2 rectangle, however it is spelt. -/
theorem zero2 : (![0, 0] : Fin 2 → ℕ) = fun _ => 0 := by
  funext a
  match a with
  | ⟨0, _⟩ => rfl
  | ⟨1, _⟩ => rfl

/-- One store over the whole buffer, read back through the buffer's view, is the stored value. -/
theorem read_store_whole (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load over the whole of a whole buffer whose contents read `X` reads `X`. -/
theorem load_whole {m : Memref sig κ sp S e} (hm : m.IsWhole) (X : S.Idx → Val e) {off : Fin S.rank → Nat}
    (h : off = fun _ => 0) (inb : ∀ a, off a + S.size a ≤ S.size a) :
    m.view.readAt Val (Rect.unit off S.size inb).toLoadRect (hm.unread X) = X := by
  rw [View.readAt_eq_ld, hm.read_unread, View.ld_unit_zero h]

end Cert.LibWholeBuffer

end
-- ==== Proof.LibWholeStores.lean ====
/-
  Several stores over a whole buffer, and loads of the whole buffer.

  When a body stores over the whole of a buffer more than once, the buffer reads the value stored last, whatever was
  stored before and whatever it held at the start; and a load through the rectangle of the buffer's own extents at
  offset zero reads the buffer's contents as they then stand.
-/
import Idealize.ShloMosaic.Lib.Pipeline.FrameBody
import Idealize.ShloMosaic.Lib.Pipeline.Value

noncomputable section

namespace Cert.LibWholeStores

open Idealize.ShloMosaic

variable {Val : EltTy → Type} [∀ e, Nonempty (Val e)] {sig : RefSig} {κ : Kind} {sp : Space} {S : Shape} {e : EltTy}

/-- The last of several stores over the whole buffer is what the buffer reads. -/
theorem read_store_last (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons.mpr (Or.inl rfl), View.mem_set_unit_zero h inb y⟩),
    View.canon_cons_unit_zero h]

/-- A load over the whole buffer reads the buffer's contents. -/
theorem load_all (v : View sig κ sp S e) (g : v.ty.Contents Val) {off : Fin S.rank → Nat} (h : off = fun _ => 0)
    (inb : ∀ a, off a + S.size a ≤ S.size a) :
    v.readAt Val (Rect.unit off S.size inb).toLoadRect g = v.read Val g := by
  rw [View.readAt_eq_ld, View.ld_unit_zero h]

end Cert.LibWholeStores

end
-- ==== Proof.KiRegion2.lean ====
/-
  The third kernel region: its proof data and body obligation.

  What the scratch and the output's staging buffer hold after each grid point is given by recursion on the point
  (`outsAt2`): the three cases of the body, each run at the point's memrefs and input blocks over what the point
  before left in the scratch. The region's invariant names the scratch's contents between points; the output window
  is idle except at the last column block of each row block, where its buffer receives the finished rows and is
  written back.
-/
import proofs.«112075_j62397284876370_2_alg».proof.Proof.KiRegion2Runs
import proofs.«112075_j62397284876370_2_alg».proof.Proof.LibWholeBuffer
import proofs.«112075_j62397284876370_2_alg».proof.Proof.LibWholeStores

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the scratch and in the output's buffer -/

/-- The stores of the first column block cover the scratch. -/
theorem scover2_A (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : cond2_0 i) (hc1 : ¬cond2_1 i)
    (x0 : Vec F S2048x2048 .f32) (x1 : Vec F S2048x128 .bf16) (x2 : Vec F S2048x128 .bf16) (x3 : Vec F S2048x1 .f32) (y : S2048x128.Idx) :
    ∃ pc ∈ (kernelRun2_A c i arg2 harg2 arg3 harg3 arg4 harg4 arg5 harg5 arg6 harg6 arg7 harg7 hc0 hc1 x0 x1 x2 x3).1, y ∈ pc.1.set :=
  View.cover_of_tiledL (kernelRun2_A c i arg2 harg2 arg3 harg3 arg4 harg4 arg5 harg5 arg6 harg6 arg7 harg7 hc0 hc1 x0 x1 x2 x3).1 S2048x128.size (by sl_kernel_rfl) y

/-- What the first column block leaves in the scratch: its stores read back. -/
def sout2_A (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : cond2_0 i) (hc1 : ¬cond2_1 i)
    (x0 : Vec F S2048x2048 .f32) (x1 : Vec F S2048x128 .bf16) (x2 : Vec F S2048x128 .bf16) (x3 : Vec F S2048x1 .f32) : Vec F S2048x128 .f32 :=
  VS2_0.read (Elt F) (VS2_0.writes (Elt F) VS2_0.junk (kernelRun2_A c i arg2 harg2 arg3 harg3 arg4 harg4 arg5 harg5 arg6 harg6 arg7 harg7 hc0 hc1 x0 x1 x2 x3).1)

/-- The store of a middle column block covers the scratch. -/
theorem scover2_B (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : ¬cond2_1 i)
    (x0 : Vec F S2048x2048 .f32) (x1 : Vec F S2048x128 .bf16) (x2 : Vec F S2048x128 .bf16) (x3 : Vec F S2048x1 .f32) (xs0 : Vec F S2048x128 .f32) (y : S2048x128.Idx) :
    ∃ pc ∈ (kernelRun2_B c i arg2 harg2 arg3 harg3 arg4 harg4 arg5 harg5 arg6 harg6 arg7 harg7 hc0 hc1 x0 x1 x2 x3 xs0).1, y ∈ pc.1.set :=
  View.cover_of_tiledL (kernelRun2_B c i arg2 harg2 arg3 harg3 arg4 harg4 arg5 harg5 arg6 harg6 arg7 harg7 hc0 hc1 x0 x1 x2 x3 xs0).1 S2048x128.size (by sl_kernel_rfl) y

/-- What a middle column block leaves in the scratch. -/
def sout2_B (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : ¬cond2_1 i)
    (x0 : Vec F S2048x2048 .f32) (x1 : Vec F S2048x128 .bf16) (x2 : Vec F S2048x128 .bf16) (x3 : Vec F S2048x1 .f32) (xs0 : Vec F S2048x128 .f32) : Vec F S2048x128 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).1)

/-- The store of the last column block into the output's buffer covers it. -/
theorem cover2_C_4 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) (y : S2048x128.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S2048x128.size (by sl_kernel_rfl) y

/-- What the last column block leaves in the output's buffer. -/
def out2_C_4 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) : Vec F S2048x128 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

/-- Its store into the scratch covers the scratch. -/
theorem scover2_C (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) (y : S2048x128.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S2048x128.size (by sl_kernel_rfl) y

/-- What the last column block leaves in the scratch. -/
def sout2_C (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) : Vec F S2048x128 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-- The output component where the body stores nothing into the output's buffer: a placeholder nothing reads (the
    window is idle and not written back there). -/
def idleOut2 : Vec F S2048x128 .f32 := View.canon (Val := Elt F) []

/-! ## What the output's buffer and the scratch hold after each point -/

/-- The accumulation: the pair (output's buffer, scratch) after the body at position `n`. At the first column block of
    a row block the scratch is the first block product; at the others the block product added to what the point before
    left; at the last the output's buffer receives the finished rows. -/
def outsAt2 (c : Dev nD) : (n : ℕ) → n < cfg2.N → Vec F S2048x128 .f32 × Vec F S2048x128 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 8 = 0 then
      if h1 : (n + 1) % 8 = 7 then
        False.elim (by omega)
      else
        (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 8 = 7 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- At a first column block. -/
theorem outsAt2_A (c : Dev nD) (t : Fin cfg2.N) (h0 : t.val % 8 = 0) (h1 : ¬t.val % 8 = 7) :
    outsAt2 V c t.val t.isLt = (idleOut2, sout2_A c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- At a middle column block: over what the point before left in the scratch. -/
theorem outsAt2_B (c : Dev nD) (t : Fin cfg2.N) (h0 : ¬t.val % 8 = 0) (h1 : ¬t.val % 8 = 7) :
    outsAt2 V c t.val t.isLt = (idleOut2, sout2_B c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column block: over what the point before left in the scratch. -/
theorem outsAt2_C (c : Dev nD) (t : Fin cfg2.N) (h0 : ¬t.val % 8 = 0) (h1 : t.val % 8 = 7) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the scratch carries the running sum -/

/-- The core's scoped buffers the region neither stages through nor accumulates in, each at some contents. -/
def keep2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f))

/-- What the launch hands the region, with the scratch set apart as a memref owned at some contents. -/
theorem PhiA2_eq (c : Dev nD) :
    (Pipeline.ΦA spec2 c : sProp 𝕄)
      = iprop(iprop(keep2 (F := F) c ∗ (∃ d, owns (c : Thread nD τ) scM2_0 fullShare d)) ∗ (∃ r, prngReg c r)) := by
  unfold Pipeline.ΦA keep2; rw [scopedRest2_eq]; simp only [scM2_0, owns_whole]
  refine BI.equiv_iff.mp ⟨?_, ?_⟩
  · show (_ : sProp 𝕄) ⊢ _
    iintro ⟨⟨R0, R1, R2, R3, R4, R5, R6, R7, R8, R9, R10, HS⟩, Hg⟩
    isplitl [R0 R1 R2 R3 R4 R5 R6 R7 R8 R9 R10 HS]
    · isplitl [R0 R1 R2 R3 R4 R5 R6 R7 R8 R9 R10]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        iexact R10
      iexact HS
    iexact Hg
  · show (_ : sProp 𝕄) ⊢ _
    iintro ⟨⟨⟨R0, R1, R2, R3, R4, R5, R6, R7, R8, R9, R10⟩, HS⟩, Hg⟩
    isplitl [R0 R1 R2 R3 R4 R5 R6 R7 R8 R9 R10 HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact HS
    iexact Hg

/-- The invariant before position `n`: before the first point what the launch hands over (the scratch at anything);
    afterwards the scratch at what the point before left in it. -/
def PhiS2 (c : Dev nD) : (n : ℕ) → n ≤ cfg2.N → sProp 𝕄
  | 0, _ => Pipeline.ΦA spec2 c
  | n + 1, hn => iprop(iprop(keep2 (F := F) c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(keep2 (F := F) c ∗ owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(iprop(keep2 (F := F) c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt2`'s first component; the invariant `PhiS2`; nothing owed;
    the support array, which two windows look at, shared between them, full shares of the others. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' buffers hold their blocks; the closed forms of the two conditions say which
    case the point is in; the invariant hands the body the scratch at what the point before left (at anything before
    the first point) and takes it back at this point's contents; where the output is idle its buffer goes back as it
    came, at the last column block it goes back at what the store left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 8 = 0
  · by_cases h1 : t.val % 8 = 7
    · exfalso; omega
    · rw [Dat.leavesExact_idle (dat2 V c) 4 t (idleAt2_4 t (fun h => h1 ((hcond2_1 t).mp h))) (noFlush2_4 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HR, HS0⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_4 sout2_C; (try dsimp only)
      have hz : t.val ≠ 0 := fun hz => h0 (by rw [hz])
      rw [PhiS2_castSucc V c t, PhiS2_pos V c _ _ hz]
      iintro ⟨⟨⟨HR, HS0⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    · rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B; (try dsimp only)
      have hz : t.val ≠ 0 := fun hz => h0 (by rw [hz])
      rw [PhiS2_castSucc V c t, PhiS2_pos V c _ _ hz]
      iintro ⟨⟨⟨HR, HS0⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: what the scratch holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0⟩, Hg⟩
  isplitl [HR HS0]
  · isplitl [HR]; · iexact HR
    iexists _; iexact HS0
  iexact Hg

theorem hout2 (c : Dev nD) : (dat2 V c).Φ (Fin.last cfg2.N) ⊢ Pipeline.ΦA spec2 c :=
  Phi_out2 V c _ (by rw [Fin.val_last]; have : cfg2.N = 64 := N_2; omega)

open Cert.LibWholeBuffer Cert.LibWholeStores

/-! ## What each case leaves, in terms of the body's payloads -/

/-- A middle column block leaves in the scratch the block product added to what it held. -/
theorem sout2_B_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : ¬cond2_1 i)
    (x0 : Vec F S2048x2048 .f32) (x1 : Vec F S2048x128 .bf16) (x2 : Vec F S2048x128 .bf16) (x3 : Vec F S2048x1 .f32) (xs0 : Vec F S2048x128 .f32) :
    sout2_B c i arg2 harg2 arg3 harg3 arg4 harg4 arg5 harg5 arg6 harg6 arg7 harg7 hc0 hc1 x0 x1 x2 x3 xs0 = k2_pay2 x0 xs0 x1 := by
  unfold sout2_B kernelRun2_B; dsimp only
  rw [read_store_whole VS2_0 _ zero2, load_whole harg2 x0 zero2, load_whole harg7 xs0 zero2, load_whole harg3 x1 zero2]

/-- The first column block leaves in the scratch the block product added to zero. -/
theorem sout2_A_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : cond2_0 i) (hc1 : ¬cond2_1 i)
    (x0 : Vec F S2048x2048 .f32) (x1 : Vec F S2048x128 .bf16) (x2 : Vec F S2048x128 .bf16) (x3 : Vec F S2048x1 .f32) :
    sout2_A c i arg2 harg2 arg3 harg3 arg4 harg4 arg5 harg5 arg6 harg6 arg7 harg7 hc0 hc1 x0 x1 x2 x3 = k2_pay2 x0 (k2_pay1 (F := F)) x1 := by
  unfold sout2_A kernelRun2_A; dsimp only
  rw [read_store_last VS2_0 _ zero2, load_whole harg2 x0 zero2, load_whole harg3 x1 zero2]
  sl_unfold_run_names
  rw [View.readCov_unit_zero arg7.view zero2]

/-- The last column block leaves in the scratch the block product added to what it held, -/
theorem sout2_C_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) :
    sout2_C c i arg2 harg2 arg3 harg3 arg4 harg4 arg5 harg5 arg6 harg6 arg7 harg7 hc0 hc1 x0 x1 x2 x3 xs0 = k2_pay2 x0 xs0 x1 := by
  unfold sout2_C kernelRun2_C; dsimp only
  sl_unfold_run_names
  rw [read_store_whole VS2_0 _ zero2, load_whole harg2 x0 zero2, load_whole harg7 xs0 zero2, load_whole harg3 x1 zero2]

/-- and in the output's buffer that sum with the self term added and the rows scaled. -/
theorem out2_C_4_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) :
    out2_C_4 c i arg2 harg2 arg3 harg3 arg4 harg4 arg5 harg5 arg6 harg6 arg7 harg7 hc0 hc1 x0 x1 x2 x3 xs0 = k2_pay3 (k2_pay2 x0 xs0 x1) x2 x3 := by
  unfold out2_C_4 kernelRun2_C; dsimp only
  rw [read_store_whole VO2_4 _ zero2, load_whole harg4 x2 zero2, load_whole harg5 x3 zero2]
  sl_unfold_run_names
  rw [View.readCov_unit_zero arg7.view zero2, load_whole harg2 x0 zero2, load_whole harg7 xs0 zero2, load_whole harg3 x1 zero2]

end Cert.KernelIdeal.Hand

end
-- ==== Proof.LibRegionShared.lean ====
/-
  A kernel region among the segments of a host program, for a kernel whose INPUT windows may share an array.

  A program of several kernel regions is run segment by segment, the thread state between two segments being
  "every unscoped buffer of the core at a known valuation, and the rest". A region takes the arrays its windows
  look at out of that state when it is entered and puts them back, at what the write-backs left, when it is left.
  When two input windows look at one array the array cannot be handed over once per window at the full share: the
  one buffer behind them is dealt among the windows. This file builds the region's record for such a kernel with
  that one step — dealing the buffers behind the arrays at entry (`hsplit`) and collecting them at exit (`hjoin`) —
  left as hypotheses, and everything else (the unscoped rest riding past the region, the core owing nothing, no
  semaphore of the kernel's own, no prefetched table) discharged once. The invariant's two ends (`hin`, `hout`)
  stay hypotheses too, so that a kernel that carries scratch contents from one grid point to the next is covered
  as well as one whose invariant is the same at every point.
-/
import Idealize.ShloMosaic.Lib.Pipeline.Frame
import Idealize.ShloMosaic.Lib.Pipeline.Regions
import Idealize.ShloMosaic.Lib.Pipeline.RegionsLoop

noncomputable section

namespace Cert.LibRegionShared

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl) (p : P)

/-- The unscoped buffers held at a valuation are the buffers behind the windows' arrays and the unscoped rest,
    whether or not two windows share an array. -/
theorem held_split (hu : ∀ w, (arrRef (pin pcs a p).spec w).isScoped = false) (c : Dev nD) (W : Valuation τ sig Val) :
    (StableHlo.held (c.tc : Thread nD τ) (ucRefs τ sig) W : sProp 𝕄)
      = iprop(arrBufs (pin pcs a p).spec c (fun b => W b) ∗ unscopedRest (pin pcs a p).spec c (fun b => W b)) := by
  rw [← unscopedBufs_held (Ix := Ix) (Name := Name) (U := U) (Lvl := Lvl) c W, unscopedBufs_split₀ (pin pcs a) p hu c]

set_option backward.isDefEq.respectTransparency.types false in
/-- THE REGION'S RECORD. Entered from every unscoped buffer at `Win c`, `X c` and the core owing nothing; left at
    every unscoped buffer at `Wout c`, `Y c` and the core owing nothing. `Wout` differs from `Win` only at the
    windows' arrays (`hrest`). -/
def region
    (hw : WinFacts₀ (pcs p).spec)
    (hne : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hbody : ∀ c, BodyObligationLoose (pdats p c) defs₀ 𝒱₀ ι Set.univ)
    (howed : ∀ c t, (pdats p c).owed t = 0)
    (hrec : ∀ c, (pdats p c).recorded 0 = Set.univ)
    (hnotab : ∀ c, (prefHeld (pcs p).pre c (fun _ => fullShare) (a p).1 : sProp 𝕄) = BI.emp)
    (Win Wout : Dev nD → Valuation τ sig Val)
    (X Y : Dev nD → sProp 𝕄)
    (hsplit : ∀ c, (arrBufs (pin pcs a p).spec c (fun b => Win c b) : sProp 𝕄) ⊢ (pdats p c).arrays ((pdats p c).arrAt · 0))
    (hjoin : ∀ c, (pdats p c).arrays ((pdats p c).arrAt · (pin pcs a p).N) ⊢ (arrBufs (pin pcs a p).spec c (fun b => Wout c b) : sProp 𝕄))
    (hrest : ∀ c (b : Ref sig .tc), b ∉ Finset.univ.image (arrRef (pin pcs a p).spec) → Wout c b = Win c b)
    (hin : ∀ c, iprop(X c ∗ scopedRest (pin pcs a p).spec c) ⊢ (pdats p c).Φ 0)
    (hout : ∀ c, (pdats p c).Φ (Fin.last (pin pcs a p).N) ⊢ iprop(Y c ∗ scopedRest (pin pcs a p).spec c)) :
    RegionSeg pcs a pdats ι defs₀ 𝒱₀ L lv p where
  win := hw
  block_pos := hne
  stage_whole := hstage
  K := PEmpty
  osem k := k.elim
  ho := OwnSemFacts.none _
  hbody := hbody
  hwaits := hwaits_of_owed_zero pcs a pdats ι L lv p howed
  pre c := iprop(StableHlo.held (c.tc : Thread nD τ) (ucRefs τ sig) (Win c) ∗ X c ∗ ∃ W, owes (c.tc : Thread nD τ) (0 : CellTallies nD τ sig Ix) W)
  post c := iprop(StableHlo.held (c.tc : Thread nD τ) (ucRefs τ sig) (Wout c) ∗ Y c ∗ ∃ W, owes (c.tc : Thread nD τ) (0 : CellTallies nD τ sig Ix) W)
  X := X
  Y := Y
  Z c := unscopedRest (pin pcs a p).spec c (fun b => Win c b)
  hentry c := by
    rw [ownSems0_none, held_split pcs a p hw.arr_unscoped c (Win c)]
    iintro ⟨⟨⟨Ha, Hrest⟩, HX, HO⟩, -, -⟩
    ihave Ha' := (hsplit c) $$ Ha
    imodintro
    isplitl [Ha']; · iexact Ha'
    isplitr; · rw [hnotab c]; iempintro
    isplitl [HO]
    · unfold Dat.owesAt owesWithin
      icases HO with ⟨%W, HO⟩; iexists W
      isplitr; · ipureintro; unfold Dat.bound; rw [hrec c]; exact fun _ _ => Or.inl trivial
      rw [howed c 0]; iexact HO
    isplitl [HX]; · iexact HX
    iexact Hrest
  hin c := by
    rw [hnotab c]
    iintro ⟨HX, -, Hr⟩
    iapply (hin c)
    isplitl [HX] <;> iassumption
  hout c := by
    rw [ownSems0_none]
    refine (hout c).trans ?_
    iintro ⟨HY, Hr⟩
    isplitl [HY]; · iexact HY
    isplitr; · iempintro
    iexact Hr
  hexit c := by
    rw [held_split pcs a p hw.arr_unscoped c (Wout c)]
    have e : (unscopedRest (pin pcs a p).spec c (fun b => Win c b) : sProp 𝕄) = unscopedRest (pin pcs a p).spec c (fun b => Wout c b) := by
      unfold unscopedRest
      exact bigSep_congr fun b hb => by beta_reduce; rw [hrest c b (Finset.mem_sdiff.mp hb).2]
    iintro ⟨Ha, HO, HY, Hrest⟩
    ihave Ha' := (hjoin c) $$ Ha
    imodintro
    isplitl [Ha' Hrest]
    · rw [← e]; isplitl [Ha'] <;> iassumption
    isplitl [HY]; · iexact HY
    unfold Dat.owesAt owesWithin
    icases HO with ⟨%W, -, HO⟩; iexists W
    rw [howed c] at *; iexact HO

end Cert.LibRegionShared

end
-- ==== Proof.KiSegs.lean ====
/-
  The program as host stretches and kernel regions.

  Between two items a core holds every unscoped buffer at a known valuation: the launch contents, then what the
  host operations before the first kernel compute, then — after each kernel region — the same with the region's
  output array at what the region's write-backs leave (`Dat.arrAt … N`), and the transposition between the first
  two kernels applied. Each region takes the buffers behind its windows' arrays out of that state and puts them
  back; the second and third windows of the last region look at one array, whose share is dealt between them.
-/
import proofs.«112075_j62397284876370_2_alg».proof.Proof.KiRegion0
import proofs.«112075_j62397284876370_2_alg».proof.Proof.KiRegion1
import proofs.«112075_j62397284876370_2_alg».proof.Proof.KiRegion2
import proofs.«112075_j62397284876370_2_alg».proof.Proof.Gen.KernelIdeal.Regions
import proofs.«112075_j62397284876370_2_alg».proof.Proof.LibRegionShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between items -/

/-- A valuation read at the TensorCore's references. -/
abbrev atTc (W : Dev nD → Valuation τ sig (Elt F)) : (c : Dev nD) → (b : Ref sig .tc) → Buf (Elt F) ((c : Thread nD τ).loc b) :=
  fun c b => W c b

/-- After the host operations before the first kernel: the adjacency is scattered. -/
abbrev Z1 (c : Dev nD) : Valuation τ sig (Elt F) := Gen.V1 m c
/-- What the first kernel leaves in its output array. -/
def o2 (c : Dev nD) : Buf (Elt F) ((c : Thread nD τ).loc main_v19) := (dat0 (atTc (Z1 m)) c).arrAt 1 cfg0.N
/-- After the first kernel. -/
def Z2 (c : Dev nD) : Valuation τ sig (Elt F) := Function.update (Z1 m c) main_v19 (o2 m c)
/-- After the transposition. -/
def Z3 (c : Dev nD) : Valuation τ sig (Elt F) := StableHlo.after hostOps1 (Z2 m c)
/-- What the second kernel leaves in its output array. -/
def o4 (c : Dev nD) : Buf (Elt F) ((c : Thread nD τ).loc main_v21) := (dat1 (atTc (Z3 m)) c).arrAt 3 cfg1.N
/-- After the second kernel. -/
def Z4 (c : Dev nD) : Valuation τ sig (Elt F) := Function.update (Z3 m c) main_v21 (o4 m c)
/-- What the third kernel leaves in its output array. -/
def o5 (c : Dev nD) : Buf (Elt F) ((c : Thread nD τ).loc main_v22) := (dat2 (atTc (Z4 m)) c).arrAt 4 cfg2.N
/-- After the third kernel. -/
def Z5 (c : Dev nD) : Valuation τ sig (Elt F) := Function.update (Z4 m c) main_v22 (o5 m c)

/-- What the regions leave, as the unknowns the generated valuations are written over. -/
def outs : Gen.Outs (F := F) := fun J r c =>
  match J with
  | 2 => Z2 m c r
  | 4 => Z4 m c r
  | 5 => Z5 m c r
  | _ => Gen.V0 m c r

theorem V2_eq (c : Dev nD) : Gen.V2 m (outs m) c = Z2 m c := by
  show Function.update (Gen.V1 m c) main_v19 (Z2 m c main_v19) = Z2 m c
  unfold Z2; rw [Function.update_self]
theorem V3_eq (c : Dev nD) : Gen.V3 m (outs m) c = Z3 m c := by
  show StableHlo.after hostOps1 (Gen.V2 m (outs m) c) = Z3 m c
  rw [V2_eq]; rfl
theorem V4_eq (c : Dev nD) : Gen.V4 m (outs m) c = Z4 m c := by
  show Function.update (Gen.V3 m (outs m) c) main_v21 (Z4 m c main_v21) = Z4 m c
  rw [V3_eq]; unfold Z4; rw [Function.update_self]
theorem V5_eq (c : Dev nD) : Gen.V5 m (outs m) c = Z5 m c := by
  show Function.update (Gen.V4 m (outs m) c) main_v22 (Z5 m c main_v22) = Z5 m c
  rw [V4_eq]; unfold Z5; rw [Function.update_self]

/-! ## The proof data family -/

def pdats : (p : Fin 3) → (c : Dev nD) → Dat τ (Elt F) Unit ℕ (Pipeline.UD sig nD τ) ℕ (cfgs p) c
  | ⟨0, _⟩ => fun c => dat0 (atTc (Z1 m)) c
  | ⟨1, _⟩ => fun c => dat1 (atTc (Z3 m)) c
  | ⟨2, _⟩ => fun c => dat2 (atTc (Z4 m)) c

abbrev 𝒱₀ : Variants := Variants.none
abbrev L : GSem nD τ sig → Finset Unit := fun _ => ∅
abbrev lv : GSem nD τ sig → Unit → ℕ := fun _ _ => 0

/-- What rides beside the buffers through every item: the generator register at some state, and the core owing nothing. -/
abbrev X (c : Dev nD) : sProp 𝕄 := iprop(∃ r, prngReg c r)
abbrev Rest (c : Dev nD) : sProp 𝕄 := iprop(X (F := F) c ∗ ∃ W, owes (c : Thread nD τ) (0 : CellTallies nD τ sig Unit) W)

/-! ## The buffers behind a region's arrays and the region's arrays -/

omit [FloatOps F] in
/-- For windows on distinct arrays, each held at the full share, the buffers behind the arrays at a valuation are the
    region's arrays at the same contents. -/
theorem arrBufs_eq_arrays {cfg : Cfg sig Λ₀} {c : Dev nD} (dat : Dat τ (Elt F) Unit ℕ (Pipeline.UD sig nD τ) ℕ cfg c)
    (hinj : Function.Injective (Pipeline.arrRef cfg.spec)) (harr : ∀ w, (cfg.spec w).arr.IsWhole)
    (hshare : ∀ w, dat.share w = fullShare) (V : (b : Ref sig .tc) → Buf (Elt F) ((c.tc : Thread nD τ).loc b))
    (G : (w : Fin cfg.W) → Buf (Elt F) ((cfg.win w).arr.view.loc (c.tc : Thread nD τ))) (hG : ∀ w, G w = V (Pipeline.arrRef cfg.spec w)) :
    (Pipeline.arrBufs cfg.spec c V : sProp 𝕄) = dat.arrays G := by
  classical
  unfold Dat.arrays Pipeline.arrBufs
  rw [show Finset.univ.image (Pipeline.arrRef cfg.spec) = Finset.univ.map ⟨Pipeline.arrRef cfg.spec, hinj⟩ from (Finset.map_eq_image ⟨Pipeline.arrRef cfg.spec, hinj⟩ Finset.univ).symm,
    bigSep_map]
  exact bigSep_congr fun w _ => by rw [(harr w).set_eq_univ, hshare, hG]; rfl

/-! ## What the valuations hold at the references the regions touch -/

theorem Z2_v18 (c : Dev nD) : Z2 m c (Proc.devRef .tc main_v18) = Z1 m c (Proc.devRef .tc main_v18) := by
  unfold Z2; exact Function.update_of_ne (StableHlo.devRef_ne_of_ne (by decide)) _ _
theorem Z2_v19 (c : Dev nD) : Z2 m c (Proc.devRef .tc main_v19) = o2 m c := by
  unfold Z2; exact Function.update_self _ _ _
theorem Z2_of_ne (c : Dev nD) (b : Ref sig .tc) (hb : b ≠ main_v19) : Z2 m c (Proc.devRef .tc b) = Z1 m c (Proc.devRef .tc b) := by
  unfold Z2; exact Function.update_of_ne (StableHlo.devRef_ne_of_ne hb) _ _

/-! ## The regions as segments -/

/-- No region has a prefetched table. -/
theorem notab (p : Fin 3) (c : Dev nD) :
    (Pipeline.prefHeld (pcfgs (F := F) p).pre c (fun _ => fullShare) (Gen.adm p).1 : sProp 𝕄) = BI.emp := by
  unfold Pipeline.prefHeld; rw [show (Finset.univ : Finset (Fin 0)) = ∅ from rfl, BI.bigSep_empty]

/-- At the first region's exit each of its arrays holds what the write-backs leave. -/
theorem hG0 (c : Dev nD) (w : Fin cfg0.W) : (dat0 (atTc (Z1 m)) c).arrAt w cfg0.N = Z2 m c (Proc.devRef .tc (Pipeline.arrRef spec0 w)) := by
  match w with
  | ⟨0, _⟩ => exact ((dat0 (atTc (Z1 m)) c).arrAt_in 0 rfl _).trans ((A_eq0 (atTc (Z1 m)) c 0).trans (Z2_v18 m c).symm)
  | ⟨1, _⟩ => exact (Z2_v19 m c).symm

set_option backward.isDefEq.respectTransparency.types false in
/-- THE FIRST REGION: entered from the valuation after the scatter, left at the same with the degree row written. -/
def reg0 : RegionSeg (pcfgs (F := F)) Gen.adm (pdats m) () defs₀ 𝒱₀ L lv 0 :=
  Cert.LibRegionShared.region (pcfgs (F := F)) Gen.adm (pdats m) () defs₀ 𝒱₀ L lv 0
    launch0.win.to₀ launch0.block_pos launch0.stage_whole
    (fun c => (body_obligation0 (atTc (Z1 m)) c).loose) (fun _ _ => rfl) (fun _ => rfl) (notab 0)
    (fun c => Z1 m c) (fun c => Z2 m c) X X
    (fun c => Entails.of_eq (arrBufs_eq_arrays (dat0 (atTc (Z1 m)) c) launch0.win.arr_inj launch0.arr_whole
      ((dat0 (atTc (Z1 m)) c).share_full fun _ => rfl) _ _ (fun w => A_eq0 (atTc (Z1 m)) c w)))
    (fun c => Entails.of_eq (arrBufs_eq_arrays (dat0 (atTc (Z1 m)) c) launch0.win.arr_inj launch0.arr_whole
      ((dat0 (atTc (Z1 m)) c).share_full fun _ => rfl) (fun b => Z2 m c b) _ (hG0 m c)).symm)
    (fun c b hb => Z2_of_ne m c b (fun e => hb (Finset.mem_image.mpr ⟨1, Finset.mem_univ _, e.symm⟩)))
    (fun c => by
      rw [show (pdats m 0 c).Φ 0 = Pipeline.ΦA spec0 c from rfl]; unfold Pipeline.ΦA
      iintro ⟨Hp, Hr⟩
      isplitl [Hr]; · iexact Hr
      iexact Hp)
    (fun c => by
      rw [show (pdats m 0 c).Φ (Fin.last _) = Pipeline.ΦA spec0 c from rfl]; unfold Pipeline.ΦA
      iintro ⟨Hr, Hp⟩
      isplitl [Hp]; · iexact Hp
      iexact Hr)

theorem Z4_of_ne (c : Dev nD) (b : Ref sig .tc) (hb : b ≠ main_v21) : Z4 m c (Proc.devRef .tc b) = Z3 m c (Proc.devRef .tc b) := by
  unfold Z4; exact Function.update_of_ne (StableHlo.devRef_ne_of_ne hb) _ _
theorem Z4_v21 (c : Dev nD) : Z4 m c (Proc.devRef .tc main_v21) = o4 m c := by
  unfold Z4; exact Function.update_self _ _ _

/-- At the second region's exit each of its arrays holds what the write-backs leave. -/
theorem hG1 (c : Dev nD) (w : Fin cfg1.W) : (dat1 (atTc (Z3 m)) c).arrAt w cfg1.N = Z4 m c (Proc.devRef .tc (Pipeline.arrRef spec1 w)) := by
  match w with
  | ⟨0, _⟩ => exact ((dat1 (atTc (Z3 m)) c).arrAt_in 0 rfl _).trans ((A_eq1 (atTc (Z3 m)) c 0).trans (Z4_of_ne m c main_arg0 (by decide)).symm)
  | ⟨1, _⟩ => exact ((dat1 (atTc (Z3 m)) c).arrAt_in 1 rfl _).trans ((A_eq1 (atTc (Z3 m)) c 1).trans (Z4_of_ne m c main_arg3 (by decide)).symm)
  | ⟨2, _⟩ => exact ((dat1 (atTc (Z3 m)) c).arrAt_in 2 rfl _).trans ((A_eq1 (atTc (Z3 m)) c 2).trans (Z4_of_ne m c main_v20 (by decide)).symm)
  | ⟨3, _⟩ => exact (Z4_v21 m c).symm

set_option backward.isDefEq.respectTransparency.types false in
/-- THE SECOND REGION: entered after the transposition, left with the scaled support written. -/
def reg1 : RegionSeg (pcfgs (F := F)) Gen.adm (pdats m) () defs₀ 𝒱₀ L lv 1 :=
  Cert.LibRegionShared.region (pcfgs (F := F)) Gen.adm (pdats m) () defs₀ 𝒱₀ L lv 1
    launch1.win.to₀ launch1.block_pos launch1.stage_whole
    (fun c => (body_obligation1 (atTc (Z3 m)) c).loose) (fun _ _ => rfl) (fun _ => rfl) (notab 1)
    (fun c => Z3 m c) (fun c => Z4 m c) X X
    (fun c => Entails.of_eq (arrBufs_eq_arrays (dat1 (atTc (Z3 m)) c) launch1.win.arr_inj launch1.arr_whole
      ((dat1 (atTc (Z3 m)) c).share_full fun _ => rfl) _ _ (fun w => A_eq1 (atTc (Z3 m)) c w)))
    (fun c => Entails.of_eq (arrBufs_eq_arrays (dat1 (atTc (Z3 m)) c) launch1.win.arr_inj launch1.arr_whole
      ((dat1 (atTc (Z3 m)) c).share_full fun _ => rfl) (fun b => Z4 m c b) _ (hG1 m c)).symm)
    (fun c b hb => Z4_of_ne m c b (fun e => hb (Finset.mem_image.mpr ⟨3, Finset.mem_univ _, e.symm⟩)))
    (fun c => by
      rw [show (pdats m 1 c).Φ 0 = Pipeline.ΦA spec1 c from rfl]; unfold Pipeline.ΦA
      iintro ⟨Hp, Hr⟩
      isplitl [Hr]; · iexact Hr
      iexact Hp)
    (fun c => by
      rw [show (pdats m 1 c).Φ (Fin.last _) = Pipeline.ΦA spec1 c from rfl]; unfold Pipeline.ΦA
      iintro ⟨Hr, Hp⟩
      isplitl [Hp]; · iexact Hp
      iexact Hr)

theorem Z5_of_ne (c : Dev nD) (b : Ref sig .tc) (hb : b ≠ main_v22) : Z5 m c (Proc.devRef .tc b) = Z4 m c (Proc.devRef .tc b) := by
  unfold Z5; exact Function.update_of_ne (StableHlo.devRef_ne_of_ne hb) _ _
theorem Z5_v22 (c : Dev nD) : Z5 m c (Proc.devRef .tc main_v22) = o5 m c := by
  unfold Z5; exact Function.update_self _ _ _

/-! ## The last region: two windows on one array -/

/-- The distinct arrays behind the last region's five windows. -/
theorem img2 : Finset.univ.image (Pipeline.arrRef spec2) = ({main_v18, main_v21, main_v20, main_v22} : Finset (Ref sig .tc)) := by decide

/-- The buffers behind them, one by one. -/
theorem arrBufs2_eq (c : Dev nD) (W : (b : Ref sig .tc) → Buf (Elt F) ((c.tc : Thread nD τ).loc b)) :
    (Pipeline.arrBufs spec2 c W : sProp 𝕄)
      = iprop((((c.tc : Thread nD τ).loc main_v18) ↦{fullShare} W main_v18) ∗ (((c.tc : Thread nD τ).loc main_v21) ↦{fullShare} W main_v21)
          ∗ (((c.tc : Thread nD τ).loc main_v20) ↦{fullShare} W main_v20) ∗ (((c.tc : Thread nD τ).loc main_v22) ↦{fullShare} W main_v22)) := by
  unfold Pipeline.arrBufs
  rw [img2, bigSep_insert (by decide), bigSep_insert (by decide), bigSep_insert (by decide), bigSep_singleton]
  rfl

/-- The region's arrays, window by window: the support array's share is dealt between the second and third windows. -/
theorem arrays2_eq (Vv : (c : Dev nD) → (b : Ref sig .tc) → Buf (Elt F) ((c : Thread nD τ).loc b)) (c : Dev nD)
    (G : (w : Fin cfg2.W) → Buf (Elt F) ((cfg2.win w).arr.view.loc (c.tc : Thread nD τ))) :
    ((dat2 Vv c).arrays G : sProp 𝕄)
      = iprop((((c.tc : Thread nD τ).loc main_v18) ↦{fullShare} G 0) ∗ (((c.tc : Thread nD τ).loc main_v21) ↦{(fullShare : PosShare TreeShare).left} G 1)
          ∗ (((c.tc : Thread nD τ).loc main_v21) ↦{(fullShare : PosShare TreeShare).right} G 2)
          ∗ (((c.tc : Thread nD τ).loc main_v20) ↦{fullShare} G 3) ∗ (((c.tc : Thread nD τ).loc main_v22) ↦{fullShare} G 4)) := by
  have h0 : (cfg2.win 0).arr.IsWhole := arr_whole2 0
  have h1 : (cfg2.win 1).arr.IsWhole := arr_whole2 1
  have h2 : (cfg2.win 2).arr.IsWhole := arr_whole2 2
  have h3 : (cfg2.win 3).arr.IsWhole := arr_whole2 3
  have h4 : (cfg2.win 4).arr.IsWhole := arr_whole2 4
  unfold Dat.arrays
  rw [bigSep_W2, h0.set_eq_univ, h1.set_eq_univ, h3.set_eq_univ, h4.set_eq_univ]
  rfl

/-- Entry: the support array's buffer, held whole, is dealt to the two windows on it. -/
theorem hsplit2 (c : Dev nD) :
    (Pipeline.arrBufs spec2 c (fun b => Z4 m c b) : sProp 𝕄) ⊢ (dat2 (atTc (Z4 m)) c).arrays ((dat2 (atTc (Z4 m)) c).arrAt · 0) := by
  rw [arrBufs2_eq, arrays2_eq]
  have e0 : (dat2 (atTc (Z4 m)) c).arrAt 0 0 = Z4 m c (Proc.devRef .tc main_v18) := A_eq2 (atTc (Z4 m)) c 0
  have e1 : (dat2 (atTc (Z4 m)) c).arrAt 1 0 = Z4 m c (Proc.devRef .tc main_v21) := A_eq2 (atTc (Z4 m)) c 1
  have e2 : (dat2 (atTc (Z4 m)) c).arrAt 2 0 = Z4 m c (Proc.devRef .tc main_v21) := A_eq2 (atTc (Z4 m)) c 2
  have e3 : (dat2 (atTc (Z4 m)) c).arrAt 3 0 = Z4 m c (Proc.devRef .tc main_v20) := A_eq2 (atTc (Z4 m)) c 3
  have e4 : (dat2 (atTc (Z4 m)) c).arrAt 4 0 = Z4 m c (Proc.devRef .tc main_v22) := A_eq2 (atTc (Z4 m)) c 4
  rw [e0, e1, e2, e3, e4]
  iintro ⟨H18, H21, H20, H22⟩
  ihave H := (pointsTo_share (PosShare.mem_left_op_right fullShare)).1 $$ H21
  icases H with ⟨Hl, Hr⟩
  isplitl [H18]; · iexact H18
  isplitl [Hl]; · iexact Hl
  isplitl [Hr]; · iexact Hr
  isplitl [H20]; · iexact H20
  iexact H22

/-- Exit: the two windows' halves of the support array, unchanged, make the whole again; the output array holds what
    the write-backs left. -/
theorem hjoin2 (c : Dev nD) :
    (dat2 (atTc (Z4 m)) c).arrays ((dat2 (atTc (Z4 m)) c).arrAt · cfg2.N) ⊢ (Pipeline.arrBufs spec2 c (fun b => Z5 m c b) : sProp 𝕄) := by
  rw [arrBufs2_eq, arrays2_eq]
  have e0 : (dat2 (atTc (Z4 m)) c).arrAt 0 cfg2.N = Z5 m c (Proc.devRef .tc main_v18) :=
    ((dat2 (atTc (Z4 m)) c).arrAt_in 0 rfl _).trans ((A_eq2 (atTc (Z4 m)) c 0).trans (Z5_of_ne m c main_v18 (by decide)).symm)
  have e1 : (dat2 (atTc (Z4 m)) c).arrAt 1 cfg2.N = Z5 m c (Proc.devRef .tc main_v21) :=
    ((dat2 (atTc (Z4 m)) c).arrAt_in 1 rfl _).trans ((A_eq2 (atTc (Z4 m)) c 1).trans (Z5_of_ne m c main_v21 (by decide)).symm)
  have e2 : (dat2 (atTc (Z4 m)) c).arrAt 2 cfg2.N = Z5 m c (Proc.devRef .tc main_v21) :=
    ((dat2 (atTc (Z4 m)) c).arrAt_in 2 rfl _).trans ((A_eq2 (atTc (Z4 m)) c 2).trans (Z5_of_ne m c main_v21 (by decide)).symm)
  have e3 : (dat2 (atTc (Z4 m)) c).arrAt 3 cfg2.N = Z5 m c (Proc.devRef .tc main_v20) :=
    ((dat2 (atTc (Z4 m)) c).arrAt_in 3 rfl _).trans ((A_eq2 (atTc (Z4 m)) c 3).trans (Z5_of_ne m c main_v20 (by decide)).symm)
  have e4 : (dat2 (atTc (Z4 m)) c).arrAt 4 cfg2.N = Z5 m c (Proc.devRef .tc main_v22) := (Z5_v22 m c).symm
  rw [e0, e1, e2, e3, e4]
  iintro ⟨H18, Hl, Hr, H20, H22⟩
  isplitl [H18]; · iexact H18
  isplitl [Hl Hr]
  · iapply (pointsTo_share (PosShare.mem_left_op_right fullShare)).2
    isplitl [Hl]; · iexact Hl
    iexact Hr
  isplitl [H20]; · iexact H20
  iexact H22

set_option backward.isDefEq.respectTransparency.types false in
/-- THE THIRD REGION: entered after the second kernel, left with the result written. -/
def reg2 : RegionSeg (pcfgs (F := F)) Gen.adm (pdats m) () defs₀ 𝒱₀ L lv 2 :=
  Cert.LibRegionShared.region (pcfgs (F := F)) Gen.adm (pdats m) () defs₀ 𝒱₀ L lv 2
    winFacts₀2 block_pos2 stage_whole2
    (fun c => (body_obligation2 (atTc (Z4 m)) c).loose) (fun _ _ => rfl) (fun _ => rfl) (notab 2)
    (fun c => Z4 m c) (fun c => Z5 m c) X X
    (hsplit2 m) (hjoin2 m)
    (fun c b hb => Z5_of_ne m c b (fun e => hb (Finset.mem_image.mpr ⟨4, Finset.mem_univ _, e.symm⟩)))
    (fun c => BIBase.Entails.trans (by
      unfold Pipeline.ΦA
      iintro ⟨Hp, Hr⟩
      isplitl [Hr]; · iexact Hr
      iexact Hp) (hin2 (atTc (Z4 m)) c))
    (fun c => by
      refine (hout2 (atTc (Z4 m)) c).trans ?_
      unfold Pipeline.ΦA
      iintro ⟨Hr, Hp⟩
      isplitl [Hp]; · iexact Hp
      iexact Hr)

/-! ## The run -/

abbrev E : Fin 4 → Dev nD → sProp 𝕄 := fun _ c => Rest c

-- the launch theorem's implicit arguments are found by unifying its conclusion with this one
set_option backward.isDefEq.respectTransparency.types false in
/-- THE RUN. From any memory with zero counters every weakly fair execution of the program terminates, nothing
    faulting; the result array ends at what the third region's write-backs leave and every argument as launched. -/
theorem run_main : θ_run defs (onTc (τ := τ) (main (F := F))) ⟨m, fun _ => 0, ρ⟩ (fun r => ∀ c : Dev nD,
      r.2.mem ((c.tc : Thread nD τ).loc main_v22) = o5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj embL defs₀ 𝒱₀ L lv m ρ main
    (Gen.segs m (outs m) 𝒱₀ L lv E () (pdats m) (reg0 m) (reg1 m) (reg2 m))
    (fun c Q => by
      rewrite [main_chain c, Seg.run_eq_chain,
        show (Gen.segs m (outs m) 𝒱₀ L lv E () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()) ] from rfl]
      exact .rfl)
    (fun c => by simp only [Gen.segs, Seg.pipes_host, Seg.pipes_region, Seg.pipes_nil]; decide)
    (O₀ := fun _ => 0) (hL := fun _ _ => rfl) (G := fun _ => (iprop(emp) : sProp 𝕄))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m (outs m) c))
    (hch := fun c => ⟨.rfl, .rfl,
      (by
        show (reg0 m).post c ⊢ iprop(StableHlo.held (c : Thread nD τ) (Pipeline.ucRefs τ sig) (Gen.V2 m (outs m) c) ∗ E 1 c)
        rw [V2_eq]; exact .rfl),
      (by
        show iprop(StableHlo.held (c : Thread nD τ) (Pipeline.ucRefs τ sig) (StableHlo.after hostOps1 (Gen.V2 m (outs m) c)) ∗ E 1 c) ⊢ (reg1 m).pre c
        rw [V2_eq]; exact .rfl),
      .rfl,
      (by
        show (reg2 m).post c ⊢ iprop(StableHlo.held (c : Thread nD τ) (Pipeline.ucRefs τ sig) (Gen.V5 m (outs m) c) ∗ ∃ W, owes (c : Thread nD τ) (0 : CellTallies nD τ sig Unit) W)
        rw [V5_eq]
        show iprop(StableHlo.held (c : Thread nD τ) (Pipeline.ucRefs τ sig) (Z5 m c) ∗ X c ∗ ∃ W, owes (c : Thread nD τ) (0 : CellTallies nD τ sig Unit) W) ⊢ _
        iintro ⟨Hh, -, HO⟩
        isplitl [Hh]; · iexact Hh
        iexact HO)⟩)
    (hinit := ?_) (QY := fun c s => s.mem ((c.tc : Thread nD τ).loc main_v22) = o5 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: every core's unscoped buffers are held at the launch contents; the register and the empty dues ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨(h (Proc.devRef .tc main_v22) (Finset.mem_filter.mpr ⟨StableHlo.devRef_mem_tcRefs main_v22, by decide⟩)).trans ((congrFun (V5_eq m c) _).trans (Z5_v22 m c)),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c)⟩
    · iexact HSI

end Cert.KernelIdeal.Hand

end
-- ==== Proof.KiValue0.lean ====
/-
  The first kernel region, read as values: what each case leaves in the output window's buffer, in terms of the
  body's three computations — the zero row, "row + column sums of the block", and "rsqrt (row + 1)".
-/
import proofs.«112075_j62397284876370_2_alg».proof.Proof.KiRegion0
import proofs.«112075_j62397284876370_2_alg».proof.Proof.LibWholeBuffer

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]

/-- First row block: the column sums of the block added to the zero row. -/
theorem out0_A_eq (c : Dev nD) (i : grid0.Coords) (arg2 : Memref sig .tc .vmem S2048x2048 .f32) (harg2 : arg2.IsWhole) (arg3 : Memref sig .tc .vmem S1x2048 .f32) (harg3 : arg3.IsWhole) (hc0 : cond0_0 i) (hc1 : ¬cond0_1 i)
    (x0 : Vec F S2048x2048 .f32) : out0_A_1 c i arg2 harg2 arg3 harg3 hc0 hc1 x0 = k0_pay2 (k0_pay1 (F := F)) x0 := by
  unfold out0_A_1
  rw [View.read_writes_eq_canon _ _ _ (cover0_A_1 c i arg2 harg2 arg3 harg3 hc0 hc1 x0)]
  unfold kernelRun0_A
  dsimp only
  sl_unfold_words
  rw [View.canon_cons_unit_zero (S := S1x2048) Cert.LibWholeBuffer.zero2, View.readCov_unit_zero (S := S1x2048) _ Cert.LibWholeBuffer.zero2,
    Cert.LibWholeBuffer.load_whole harg2 x0 Cert.LibWholeBuffer.zero2]

/-- A middle row block: the column sums of the block added to what the buffer held. -/
theorem out0_B_eq (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : ¬cond0_1 i)
    (x0 : Vec F S2048x2048 .f32) (xo : Vec F S1x2048 .f32) : out0_B_1 c i arg2 harg2 arg3 harg3 hc0 hc1 x0 xo = k0_pay2 xo x0 := by
  unfold out0_B_1
  rw [View.read_writes_eq_canon _ _ _ (cover0_B_1 c i arg2 harg2 arg3 harg3 hc0 hc1 x0 xo)]
  unfold kernelRun0_B
  dsimp only
  sl_unfold_words
  rw [View.canon_unit_zero (S := S1x2048) Cert.LibWholeBuffer.zero2,
    Cert.LibWholeBuffer.load_whole harg2 x0 Cert.LibWholeBuffer.zero2, Cert.LibWholeBuffer.load_whole harg3 xo Cert.LibWholeBuffer.zero2]

/-- Last row block: after adding the block's column sums, every entry `s` becomes `rsqrt (s + 1)`. -/
theorem out0_C_eq (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : cond0_1 i)
    (x0 : Vec F S2048x2048 .f32) (xo : Vec F S1x2048 .f32) : out0_C_1 c i arg2 harg2 arg3 harg3 hc0 hc1 x0 xo = k0_pay3 (k0_pay2 xo x0) := by
  unfold out0_C_1
  rw [View.read_writes_eq_canon _ _ _ (cover0_C_1 c i arg2 harg2 arg3 harg3 hc0 hc1 x0 xo)]
  unfold kernelRun0_C
  dsimp only
  sl_unfold_words
  rw [View.canon_cons_unit_zero (S := S1x2048) Cert.LibWholeBuffer.zero2, View.readCov_unit_zero (S := S1x2048) _ Cert.LibWholeBuffer.zero2,
    Cert.LibWholeBuffer.load_whole harg2 x0 Cert.LibWholeBuffer.zero2, Cert.LibWholeBuffer.load_whole harg3 xo Cert.LibWholeBuffer.zero2]

variable (V : (c : Dev nD) → (b : Ref sig .tc) → Buf (Elt F) ((c : Thread nD τ).loc b))

/-- The recursion of `outsAt0`, in the body's computations. -/
theorem outsAt0_first (c : Dev nD) (t : Fin cfg0.N) (h0 : t.val % 8 = 0) :
    outsAt0 V c t.val t.isLt = k0_pay2 (k0_pay1 (F := F)) (iblk0 V c 0 t) :=
  (outsAt0_A V c t h0 (by omega)).trans (out0_A_eq ..)
theorem outsAt0_mid (c : Dev nD) (t : Fin cfg0.N) (h0 : ¬t.val % 8 = 0) (h1 : ¬t.val % 8 = 7) :
    outsAt0 V c t.val t.isLt = k0_pay2 (outsAt0 V c (t.val - 1) (Nat.lt_of_le_of_lt (Nat.sub_le _ _) t.isLt)) (iblk0 V c 0 t) :=
  (outsAt0_B V c t h0 h1).trans (out0_B_eq ..)
theorem outsAt0_last (c : Dev nD) (t : Fin cfg0.N) (h1 : t.val % 8 = 7) :
    outsAt0 V c t.val t.isLt = k0_pay3 (k0_pay2 (outsAt0 V c (t.val - 1) (Nat.lt_of_le_of_lt (Nat.sub_le _ _) t.isLt)) (iblk0 V c 0 t)) :=
  (outsAt0_C V c t (by omega) h1).trans (out0_C_eq ..)

end Cert.KernelIdeal.Hand

end
-- ==== Proof.LibColumnSum.lean ====
/-
  Reading a sum down the columns of a matrix, and a sum over the indices of a vector.

  A float sum along the first axis of an `[m, n]` array is an `[n]` vector; read at column `q` it is the sum over the
  `m` rows of the entries of that column: putting the summed coordinate `k` back into the reduced index `q` gives the
  entry `(k, q)`. A vector's indices are the functions from the one axis into `Fin n`; a sum over them is the sum over
  `Fin n` of the summand at the index with that coordinate.
-/
import Idealize.ShloMosaic.Lib.Pipeline.Value
import Idealize.ShloMosaic.Lib.ValueIdx
import Idealize.ShloMosaic.PureOps.Ideal.Laws

noncomputable section

open scoped BigOperators

namespace Cert.LibColumnSum

open Idealize.ShloMosaic Idealize.ShloMosaic.ValueIdx

/-- Putting the summed row number `k` back into the reduced index `q` gives the entry `(k, q)`. -/
theorem lift_rows {m n : ℕ} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

/-- A float sum along the first axis from the zero pattern, read at column `q`, is the sum of that column's entries
    on the extended reals. -/
theorem colSum_apply {m n : ℕ} (src : FVec Ideal ⟨2, ![m, n]⟩ .f32) (h : (⟨2, ![m, n]⟩ : Shape).Reduces [0] (⟨1, ![n]⟩ : Shape))
    (hφ : FKind.Formats .f32) (hacc : (0x00000000#32 : BitVec 32) = 0x00000000#32) (q : Fin n) :
    multiReduction .add [0] (⟨1, ![n]⟩ : Shape) src 0x00000000#32 h hφ hacc (ix1 q) = ∑ k : Fin m, src (ix2 k q) := by
  refine (Ideal.multiReduction_add_single src 0x00000000#32 h hφ hacc (ix1 q)).trans ?_
  exact Finset.sum_congr rfl fun k _ => congrArg src (lift_rows h q k)

/-- The indices of an `[n]` vector are the numbers below `n`. -/
def idxEquiv1 {n : ℕ} : Fin n ≃ (⟨1, ![n]⟩ : Shape).Idx where
  toFun := ix1
  invFun j := j 0
  left_inv _ := rfl
  right_inv j := (eq_ix1 j).symm

/-- A sum over the indices of an `[n]` vector is the sum over `Fin n`. -/
theorem sum_idx1 {M : Type*} [AddCommMonoid M] {n : ℕ} (f : (⟨1, ![n]⟩ : Shape).Idx → M) :
    ∑ j : (⟨1, ![n]⟩ : Shape).Idx, f j = ∑ k : Fin n, f (ix1 k) :=
  (Equiv.sum_comp idxEquiv1 f).symm

end Cert.LibColumnSum

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibColumnLayouts.lean ====
/-
  Two layout operations read at an entry.

  A column `[a, 1]` spread along the rows of `[a, b]` reads, at entry `(p, c)`, the column's entry `(p, 0)`. A vector
  `[n]` viewed as the one-row matrix `[1, n]` reads, at entry `(0, q)`, the vector's entry `q`.
-/
import Idealize.ShloMosaic.Lib.Pipeline.Value
import Idealize.ShloMosaic.Lib.ValueIdx

namespace Cert.KernelIdeal.Pay

open Idealize.ShloMosaic Idealize.ShloMosaic.ValueIdx

/-- A column `[a, 1]` broadcast along the rows of `[a, b]`: entry `(p, c)` reads the column's entry `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[n]` viewed as the one-row matrix `[1, n]`: entry `(0, q)` reads the vector's entry `q`. -/
theorem shapeCast_n_1n_apply {α : Type} {n : ℕ} (v : (⟨1, ![n]⟩ : Shape).Idx → α)
    (h : (⟨1, ![n]⟩ : Shape).ShapeCasts ⟨2, ![1, n]⟩) (q : Fin n) :
    shapeCast ⟨2, ![1, n]⟩ v h (ix2 (0 : Fin 1) q) = v (ix1 q) := by
  refine shapeCast_apply v h (ix2 (0 : Fin 1) q) (ix1 q) ?_
  rewrite [Shape.rowMajor_val_two, Shape.rowMajor_val_one]
  show q.val = 0 * n + q.val
  omega

end Cert.KernelIdeal.Pay
-- ==== Proof.KiPayloads.lean ====
/-
  The kernels' arithmetic, read at an entry.

  Each value a kernel stores is a short chain of vector operations on the blocks it loaded. Read at one entry, on the
  extended reals: a splat of the zero word is 0; the degree kernel adds to its accumulator the column sums of the
  block it loaded and finishes with the inverse square root of the sum plus one; the support kernel multiplies a block
  of features by the weights and scales each row; the aggregation kernel adds to its accumulator the product of a block
  of the adjacency with a block of the scaled rows, and finishes by adding the node's own row and scaling. The
  format changes between the two float widths are the identity on the extended reals, and a shape cast to the same
  shape reads the same entry.
-/
import proofs.«112075_j62397284876370_2_alg».proof.Proof.Gen.KernelIdeal.Skeleton
import proofs.«112075_j62397284876370_2_alg».proof.Proof.LibColumnSum
import proofs.«112075_j62397284876370_2_alg».proof.Proof.LibMatmulPlain
import proofs.«112075_j62397284876370_2_alg».proof.Proof.LibColumnLayouts
import Idealize.ShloMosaic.Lib.Pipeline.Value
import Idealize.ShloMosaic.Lib.ValueLayout
import Idealize.ShloMosaic.Lib.ValueIdx
import Idealize.ShloMosaic.Lib.IdealHost
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The degree kernel -/

/-- The initial value of the degree accumulator is zero. -/
theorem pay0_zero (y : S1x2048.Idx) : k0_pay1 (F := Ideal) y = 0 := by
  unfold k0_pay1
  show Ideal.ofBits .f32 0x00000000#32 = 0
  exact Ideal.ofBits_zero_f32

/-- One step of the degree kernel adds the column sums of the loaded block to the accumulator. -/
theorem pay0_acc (acc : Vec Ideal S1x2048 .f32) (blk : Vec Ideal S2048x2048 .f32) (j : Fin 2048) :
    k0_pay2 (F := Ideal) acc blk (ix2 (0 : Fin 1) j)
      = acc (ix2 (0 : Fin 1) j) + ∑ r : Fin 2048, blk (ix2 r j) := by
  unfold k0_pay2
  have e1 : shapeCast S1x2048 acc shapeCasts_S1x2048_S1x2048 = acc := shapeCast_self acc _
  have e2 : shapeCast S2048x2048 blk shapeCasts_S2048x2048_S2048x2048 = blk := shapeCast_self blk _
  show (shapeCast S1x2048 acc shapeCasts_S1x2048_S1x2048) (ix2 (0 : Fin 1) j)
      + (shapeCast S1x2048 (multiReduction (F := Ideal) .add [0] S2048
          (shapeCast S2048x2048 blk shapeCasts_S2048x2048_S2048x2048) 0x00000000#32 reduces_S2048x2048_S2048
          (.inl rfl) rfl) shapeCasts_S2048_S1x2048) (ix2 (0 : Fin 1) j) = _
  rw [e1, e2]
  refine congrArg (acc (ix2 (0 : Fin 1) j) + ·) ?_
  refine (shapeCast_n_1n_apply _ _ j).trans ?_
  exact Cert.LibColumnSum.colSum_apply blk _ _ _ j

/-- The degree kernel finishes with the inverse square root of the column sum plus one. -/
theorem pay0_fin (v : Vec Ideal S1x2048 .f32) (y : S1x2048.Idx) :
    k0_pay3 (F := Ideal) v y = Ideal.rsqrt (v y + 1) := by
  unfold k0_pay3
  have e1 : shapeCast S1x2048 v shapeCasts_S1x2048_S1x2048 = v := shapeCast_self v _
  show Ideal.rsqrt ((shapeCast S1x2048 v shapeCasts_S1x2048_S1x2048) y + Ideal.ofBits .f32 0x3F800000#32) = _
  rw [e1, Ideal.ofBits_one_f32]

/-! ## The support kernel -/

/-- A block of features times the weights, each row scaled by its node's factor. -/
theorem pay1 (x : Vec Ideal S4096x128 .f32) (w : Vec Ideal S128x128 .f32) (d : Vec Ideal S4096x1 .f32)
    (r : Fin 4096) (f : Fin 128) :
    k1_pay1 (F := Ideal) x w d (ix2 r f)
      = (∑ k : Fin 128, x (ix2 r k) * w (ix2 k f)) * d (ix2 r (0 : Fin 1)) := by
  unfold k1_pay1
  have e1 : shapeCast S4096x1 d shapeCasts_S4096x1_S4096x1 = d := shapeCast_self d _
  show (FloatOps.matmul (F := Ideal) dot_S4096x128_S128x128_S4096x128_1_0_0_1_n_n none
          (truncf .bf16 x bitsLt_bf16_f32) (truncf .bf16 w bitsLt_bf16_f32)
          (constant S4096x128 .f32 0x00000000#32)) (ix2 r f)
      * (broadcastTo S4096x128 (shapeCast S4096x1 d shapeCasts_S4096x1_S4096x1) broadcasts_S4096x1_S4096x128) (ix2 r f)
      = _
  rw [e1]
  refine congrArg₂ (· * ·) ?_ (broadcastTo_a1_ab_apply d _ r f)
  exact Cert.LibMatmulPlain.matmul_zero_apply dot_S4096x128_S128x128_S4096x128_1_0_0_1_n_n rfl rfl rfl rfl rfl rfl
    none (truncf .bf16 x bitsLt_bf16_f32) (truncf .bf16 w bitsLt_bf16_f32) r f

/-! ## The aggregation kernel -/

/-- The initial value of the aggregation accumulator is zero. -/
theorem pay2_zero (y : S2048x128.Idx) : k2_pay1 (F := Ideal) y = 0 := by
  unfold k2_pay1
  have e1 : ∀ v : FVec Ideal S2048x128 .f32, shapeCast S2048x128 v shapeCasts_S2048x128_S2048x128 = v :=
    fun v => shapeCast_self v _
  show (shapeCast S2048x128 (broadcast S2048x128 (Scalar.ofBits (F := Ideal) .f32 0x00000000#32))
      shapeCasts_S2048x128_S2048x128) y = 0
  rw [e1]
  exact Ideal.ofBits_zero_f32

/-- One step of the aggregation adds the product of the adjacency block with the block of scaled rows. -/
theorem pay2_acc (a : Vec Ideal S2048x2048 .f32) (acc : Vec Ideal S2048x128 .f32) (s : Vec Ideal S2048x128 .bf16)
    (r : Fin 2048) (f : Fin 128) :
    k2_pay2 (F := Ideal) a acc s (ix2 r f) = acc (ix2 r f) + ∑ jj : Fin 2048, a (ix2 r jj) * s (ix2 jj f) := by
  unfold k2_pay2
  have e1 : shapeCast S2048x2048 a shapeCasts_S2048x2048_S2048x2048 = a := shapeCast_self a _
  have e2 : shapeCast S2048x128 s shapeCasts_S2048x128_S2048x128 = s := shapeCast_self s _
  have e3 : ∀ v : FVec Ideal S2048x128 .f32, shapeCast S2048x128 v shapeCasts_S2048x128_S2048x128 = v :=
    fun v => shapeCast_self v _
  show (shapeCast S2048x128 (addf acc (FloatOps.matmul (F := Ideal) dot_S2048x2048_S2048x128_S2048x128_1_0_0_1_n_n none
          (truncf .bf16 (shapeCast S2048x2048 a shapeCasts_S2048x2048_S2048x2048) bitsLt_bf16_f32)
          (shapeCast S2048x128 s shapeCasts_S2048x128_S2048x128)
          (constant S2048x128 .f32 0x00000000#32))) shapeCasts_S2048x128_S2048x128) (ix2 r f) = _
  rw [e3, e1, e2]
  refine congrArg (acc (ix2 r f) + ·) ?_
  exact Cert.LibMatmulPlain.matmul_zero_apply dot_S2048x2048_S2048x128_S2048x128_1_0_0_1_n_n rfl rfl rfl rfl rfl rfl
    none (truncf .bf16 a bitsLt_bf16_f32) s r f

/-- The aggregation finishes by adding the node's own scaled row and scaling the sum. -/
theorem pay2_fin (acc : Vec Ideal S2048x128 .f32) (selfs : Vec Ideal S2048x128 .bf16) (d : Vec Ideal S2048x1 .f32)
    (r : Fin 2048) (f : Fin 128) :
    k2_pay3 (F := Ideal) acc selfs d (ix2 r f) = (acc (ix2 r f) + selfs (ix2 r f)) * d (ix2 r (0 : Fin 1)) := by
  unfold k2_pay3
  have e1 : shapeCast S2048x128 selfs shapeCasts_S2048x128_S2048x128 = selfs := shapeCast_self selfs _
  have e2 : shapeCast S2048x1 d shapeCasts_S2048x1_S2048x1 = d := shapeCast_self d _
  show (acc (ix2 r f) + (shapeCast S2048x128 selfs shapeCasts_S2048x128_S2048x128) (ix2 r f))
      * (broadcastTo S2048x128 (shapeCast S2048x1 d shapeCasts_S2048x1_S2048x1) broadcasts_S2048x1_S2048x128) (ix2 r f)
      = _
  rw [e1, e2]
  exact congrArg ((acc (ix2 r f) + selfs (ix2 r f)) * ·) (broadcastTo_a1_ab_apply d _ r f)

end Cert.KernelIdeal.Pay

end
-- ==== Proof.LibBlockSum.lean ====
/-
  A sum over a * b consecutive positions taken block by block.

  The positions 0 .. a*b - 1 fall into a blocks of b consecutive ones: position j lies in block j / b at place j % b,
  and block s holds the positions b*s, b*s + 1, .., b*s + b - 1. In a commutative monoid the sum over all positions is
  therefore the sum over the blocks of each block's own sum. Nothing about the summands is used: the law is the
  regrouping of a finite sum, so it holds on the extended reals with their infinities as well.
-/
import Mathlib.Algebra.BigOperators.Fin
import Mathlib.Logic.Equiv.Fin.Basic
import Mathlib.Data.Fintype.BigOperators

open scoped BigOperators

namespace Cert.LibBlockSum

/-- Place jj of block s is a position below a * b. -/
theorem pos_lt {a b : ℕ} (s : Fin a) (jj : Fin b) : b * s.val + jj.val < a * b := by
  have h1 : s.val + 1 ≤ a := s.isLt
  have h2 : jj.val < b := jj.isLt
  calc b * s.val + jj.val < b * s.val + b := by omega
    _ = b * (s.val + 1) := by rw [Nat.mul_add, Nat.mul_one]
    _ ≤ b * a := Nat.mul_le_mul_left b h1
    _ = a * b := Nat.mul_comm b a

/-- The sum over a * b positions is the sum over the a blocks of the sum over each block's b places. -/
theorem sum_blocks {β : Type*} [AddCommMonoid β] (a b : ℕ) (g : Fin (a * b) → β) :
    ∑ j : Fin (a * b), g j = ∑ s : Fin a, ∑ jj : Fin b, g ⟨b * s.val + jj.val, pos_lt s jj⟩ := by
  rw [← Equiv.sum_comp finProdFinEquiv g, Fintype.sum_prod_type]
  refine Finset.sum_congr rfl fun s _ => Finset.sum_congr rfl fun jj _ => congrArg g (Fin.ext ?_)
  show jj.val + b * s.val = b * s.val + jj.val
  exact Nat.add_comm _ _

/-- The same with the blocks counted by naturals below a, as a fold over a run of points produces them: the summand
    of a block number that is out of range is never used. -/
theorem sum_blocks_range {β : Type*} [AddCommMonoid β] (a b : ℕ) (g : Fin (a * b) → β) (f : ℕ → β)
    (hf : ∀ s : Fin a, f s.val = ∑ jj : Fin b, g ⟨b * s.val + jj.val, pos_lt s jj⟩) :
    ∑ s ∈ Finset.range a, f s = ∑ j : Fin (a * b), g j := by
  rw [sum_blocks a b g, Finset.sum_range]
  exact Finset.sum_congr rfl fun s _ => hf s

end Cert.LibBlockSum
-- ==== Proof.Spec.lean ====
/-
  The graph-convolution layer as one function of the dense adjacency `A`, the features `x` and the weights `w`,
  entry by entry on the extended reals, in the arrangement the tiled computation follows:

    colsum j   = Σ_i A(i,j)                        (column sums of the adjacency without self loops)
    dinv j     = rsqrt (colsum j + 1)              (the self loop adds one to every column sum)
    xw j f     = Σ_k x(j,k) · w(k,f)
    sup j f    = xw j f · dinv j                   (rows of x·w scaled once)
    out i f    = (Σ_j A(i,j) · sup j f + sup i f) · dinv i

  `out` is D^{-1/2} (A + I) D^{-1/2} (x w) with the identity's term taken out of the sum.
-/
import Idealize.ShloMosaic.PureOps.Ideal
import Idealize.ShloMosaic.Lib.ValueIdx

noncomputable section

namespace Cert.Gcn

open Idealize.ShloMosaic Idealize.ShloMosaic.ValueIdx

/-- The shapes of the layer: the adjacency, the features (and the result), the weights. -/
abbrev SA : Shape := ⟨2, ![16384, 16384]⟩
abbrev SX : Shape := ⟨2, ![16384, 128]⟩
abbrev SW : Shape := ⟨2, ![128, 128]⟩

variable (A : SA.Idx → EReal) (x : SX.Idx → EReal) (w : SW.Idx → EReal)

/-- The sum of column `j` of the adjacency. -/
def colsum (j : Fin 16384) : EReal := ∑ i : Fin 16384, A (ix2 i j)

/-- The inverse square root of node `j`'s degree, the self loop counted. -/
def dinv (j : Fin 16384) : EReal := Ideal.rsqrt (colsum A j + 1)

/-- Entry `(j, f)` of the product `x w`. -/
def xw (j : Fin 16384) (f : Fin 128) : EReal := ∑ k : Fin 128, x (ix2 j k) * w (ix2 k f)

/-- Row `j` of `x w` scaled by `dinv j`. -/
def sup (j : Fin 16384) (f : Fin 128) : EReal := xw x w j f * dinv A j

/-- The layer's result at `(i, f)`. -/
def out (i : Fin 16384) (f : Fin 128) : EReal :=
  ((∑ j : Fin 16384, A (ix2 i j) * sup A x w j f) + sup A x w i f) * dinv A i

/-- The result as an array. -/
def outArr : SX.Idx → EReal := fun idx => out A x w (idx 0) (idx 1)

end Cert.Gcn

end
-- ==== Proof.KiValue0Ideal.lean ====
/-
  The first kernel region, read as a value: the row it writes holds, at column J, rsqrt (1 + the sum of column J of
  the adjacency).

  Within a column block the output window's buffer is carried over the eight row blocks: after row block n < 7 it
  holds the sums of the first n + 1 blocks' columns, after the last the inverse square root of the whole column's
  sum plus one. The eight blocks of 2048 rows are the 16384 rows of the column, so the partial sums end at the
  column sum; the eight points that write back tile the row.
-/
import proofs.«112075_j62397284876370_2_alg».proof.Proof.KiValue0
import proofs.«112075_j62397284876370_2_alg».proof.Proof.KiPayloads
import proofs.«112075_j62397284876370_2_alg».proof.Proof.LibBlockSum
import proofs.«112075_j62397284876370_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The adjacency read at natural-number coordinates (zero outside the array: never used there). -/
def adjAt (A : S16384x16384.Idx → EReal) (a b : ℕ) : EReal :=
  if h : a < 16384 ∧ b < 16384 then A (ix2 (⟨a, h.1⟩ : Fin 16384) (⟨b, h.2⟩ : Fin 16384)) else 0

/-- The sum of column b over row block s. -/
def blockCol (A : S16384x16384.Idx → EReal) (s b : ℕ) : EReal := ∑ r : Fin 2048, adjAt A (2048 * s + r.val) b

theorem lt64 (t : Fin cfg0.N) : t.val < 64 := lt_of_lt_of_eq t.isLt (show cfg0.N = 64 from N_0)

/-- The index maps over the grid: the input's block is (row block, column block), the output's (0, column block). -/
theorem idx_facts0 : ∀ t : Fin cfg0.N, win0_0.index t (0 : Fin 2) = t.val % 8 ∧ win0_0.index t (1 : Fin 2) = t.val / 8
    ∧ win0_1.index t (0 : Fin 2) = 0 ∧ win0_1.index t (1 : Fin 2) = t.val / 8 :=
  (by decide +kernel : ∀ t : Fin grid0.N, _)

/-- Entry (r, j) of the point's block of the adjacency. -/
theorem iblk0_apply (c : Dev nD) (t : Fin cfg0.N) (r j : Fin 2048) :
    iblk0 V c 0 t (ix2 r j) = adjAt (V c main_v18) (2048 * (t.val % 8) + r.val) (2048 * (t.val / 8) + j.val) := by
  obtain ⟨e0, e1, -⟩ := idx_facts0 t
  have ht := lt64 t
  unfold adjAt
  rw [dif_pos ⟨by omega, by omega⟩]
  show V c main_v18 (((cfg0.win 0).blk t).view.emb (ix2 r j)) = _
  refine congrArg _ ?_
  funext a; apply Fin.ext
  match a with
  | ⟨0, _⟩ => show win0_0.index t (0 : Fin 2) * 2048 + 1 * r.val = 2048 * (t.val % 8) + r.val; omega
  | ⟨1, _⟩ => show win0_0.index t (1 : Fin 2) * 2048 + 1 * j.val = 2048 * (t.val / 8) + j.val; omega

/-- The column sums of the point's block. -/
theorem block_sum (c : Dev nD) (t : Fin cfg0.N) (j : Fin 2048) (blk : Vec Ideal S2048x2048 .f32) (hblk : blk = iblk0 V c 0 t) :
    ∑ r : Fin 2048, blk (ix2 r j) = blockCol (V c main_v18) (t.val % 8) (2048 * (t.val / 8) + j.val) := by
  unfold blockCol
  exact Finset.sum_congr rfl fun r _ => by rw [hblk]; exact iblk0_apply V c t r j

/-- Before the last row block the buffer holds the partial column sums. -/
theorem partial_sums (c : Dev nD) (j : Fin 2048) : ∀ (n : ℕ) (t : Fin cfg0.N), t.val % 8 = n → n < 7 →
    outsAt0 V c t.val t.isLt (ix2 (0 : Fin 1) j) = ∑ s ∈ Finset.range (n + 1), blockCol (V c main_v18) s (2048 * (t.val / 8) + j.val)
  | 0, t, h, _ => by
    rw [outsAt0_first V c t h]
    refine (Cert.KernelIdeal.Pay.pay0_acc _ _ j).trans ?_
    rw [Cert.KernelIdeal.Pay.pay0_zero, zero_add, block_sum V c t j _ rfl, h, Finset.sum_range_one]
  | n + 1, t, h, hn => by
    have ht := lt64 t
    have h0 : ¬t.val % 8 = 0 := by omega
    have h7 : ¬t.val % 8 = 7 := by omega
    rw [outsAt0_mid V c t h0 h7]
    refine (Cert.KernelIdeal.Pay.pay0_acc _ _ j).trans ?_
    have ih := partial_sums c j n ⟨t.val - 1, Nat.lt_of_le_of_lt (Nat.sub_le _ _) t.isLt⟩ (by show (t.val - 1) % 8 = n; omega) (by omega)
    rw [show outsAt0 V c (t.val - 1) _ = outsAt0 V c (⟨t.val - 1, Nat.lt_of_le_of_lt (Nat.sub_le _ _) t.isLt⟩ : Fin cfg0.N).val (⟨t.val - 1, Nat.lt_of_le_of_lt (Nat.sub_le _ _) t.isLt⟩ : Fin cfg0.N).isLt from rfl, ih,
      block_sum V c t j _ rfl, h, Finset.sum_range_succ _ (n + 1)]
    show _ + blockCol _ _ _ = _ + blockCol _ _ _
    rw [show (t.val - 1) / 8 = t.val / 8 from by omega]

/-- The eight row blocks are the column. -/
theorem blocks_are_column (A : S16384x16384.Idx → EReal) (J : Fin 16384) :
    ∑ s ∈ Finset.range 8, blockCol A s J.val = Cert.Gcn.colsum A J := by
  unfold Cert.Gcn.colsum
  refine Cert.LibBlockSum.sum_blocks_range 8 2048 (fun i : Fin (8 * 2048) => A (ix2 (⟨i.val, i.isLt⟩ : Fin 16384) J)) _ fun s => ?_
  unfold blockCol
  refine Finset.sum_congr rfl fun r _ => ?_
  unfold adjAt
  have hs := s.isLt
  have hr := r.isLt
  rw [dif_pos ⟨by omega, J.isLt⟩]

/-- After the last row block the buffer holds the inverse square root of the degree. -/
theorem last_value (c : Dev nD) (t : Fin cfg0.N) (h7 : t.val % 8 = 7) (j : Fin 2048) :
    outsAt0 V c t.val t.isLt (ix2 (0 : Fin 1) j)
      = Cert.Gcn.dinv (V c main_v18) (⟨2048 * (t.val / 8) + j.val, by have := lt64 t; omega⟩ : Fin 16384) := by
  have ht := lt64 t
  rw [outsAt0_last V c t h7]
  refine (Cert.KernelIdeal.Pay.pay0_fin _ _).trans ?_
  unfold Cert.Gcn.dinv
  refine congrArg (fun z => Ideal.rsqrt (z + 1)) ?_
  refine (Cert.KernelIdeal.Pay.pay0_acc _ _ j).trans ?_
  have ih := partial_sums V c j 6 ⟨t.val - 1, Nat.lt_of_le_of_lt (Nat.sub_le _ _) t.isLt⟩ (by show (t.val - 1) % 8 = 6; omega) (by omega)
  rw [show outsAt0 V c (t.val - 1) _ = outsAt0 V c (⟨t.val - 1, Nat.lt_of_le_of_lt (Nat.sub_le _ _) t.isLt⟩ : Fin cfg0.N).val (⟨t.val - 1, Nat.lt_of_le_of_lt (Nat.sub_le _ _) t.isLt⟩ : Fin cfg0.N).isLt from rfl, ih,
    block_sum V c t j _ rfl, h7, ← blocks_are_column, Finset.sum_range_succ _ 7]
  show _ + blockCol _ _ _ = _ + blockCol _ _ _
  rw [show (t.val - 1) / 8 = t.val / 8 from by omega]

/-- The degree row as one function of the adjacency. -/
def G0 (A : S16384x16384.Idx → EReal) : S1x16384.Idx → EReal := fun i => Cert.Gcn.dinv A (i 1)

set_option maxRecDepth 200000 in
/-- What a point that writes back writes is its block of G0. -/
theorem flushed0_eq (c : Dev nD) (t : Fin cfg0.N) (hf : (cfg0.win 1).flush t = true) :
    (dat0 V c).flushed 1 t = ((cfg0.win 1).blk t).view.read (Elt Ideal) (G0 (V c main_v18)) := by
  have h7 : t.val % 8 = 7 := (flush0_1 t).mp hf
  have ht := lt64 t
  obtain ⟨-, -, e2, e3⟩ := idx_facts0 t
  show (cfg0.win 1).cut (grid0.coords t) ((dat0 V c).after 1 t) = _
  rw [after0_1]
  funext y
  obtain ⟨z, j, rfl⟩ : ∃ (z : Fin 1) (j : Fin 2048), y = ix2 z j := ⟨y 0, y 1, eq_ix2 y⟩
  obtain rfl : z = 0 := Subsingleton.elim _ _
  refine (last_value V c t h7 j).trans ?_
  rw [View.read_apply]
  show _ = G0 (V c main_v18) (((cfg0.win 1).blk t).view.emb (ix2 (0 : Fin 1) j))
  have hemb : ((cfg0.win 1).blk t).view.emb (ix2 (0 : Fin 1) j) = ix2 (0 : Fin 1) (⟨2048 * (t.val / 8) + j.val, by omega⟩ : Fin 16384) := by
    funext a; apply Fin.ext
    match a with
    | ⟨0, _⟩ => show win0_1.index t (0 : Fin 2) * 1 + 1 * 0 = 0; omega
    | ⟨1, _⟩ => show win0_1.index t (1 : Fin 2) * 2048 + 1 * j.val = 2048 * (t.val / 8) + j.val; omega
  rw [hemb]
  rfl

theorem mem_blk0 (t : Fin cfg0.N) (i : S1x16384.Idx) :
    i ∈ ((cfg0.win 1).blk t).view.set ↔ ∀ a : Fin 2, win0_1.index t a * S1x2048.size a ≤ (i a).val ∧ (i a).val < win0_1.index t a * S1x2048.size a + S1x2048.size a := by
  show i ∈ ((View.whole main_v19).slice (win0_1.rect t)).set ↔ _
  rw [View.set_slice_whole, Rect.mem_set_unit]
  exact Iff.rfl

/-- The row the region writes ends holding G0 of the adjacency. -/
theorem final0 (c : Dev nD) : (dat0 V c).arrAt 1 cfg0.N = G0 (V c main_v18) :=
  (dat0 V c).arrAt_eq_of_cover 1 _ (fun t hf => flushed0_eq V c t hf) fun i => by
    have hi0 : (i 0).val < 1 := (i 0).isLt
    have hi1 : (i 1).val < 16384 := (i 1).isLt
    have hb : 8 * ((i 1).val / 2048) + 7 < cfg0.N := by rw [show cfg0.N = 64 from N_0]; omega
    refine ⟨⟨8 * ((i 1).val / 2048) + 7, hb⟩, (flush0_1 _).mpr (by show (8 * ((i 1).val / 2048) + 7) % 8 = 7; omega), ?_⟩
    rw [mem_blk0]
    obtain ⟨-, -, e2, e3⟩ := idx_facts0 ⟨8 * ((i 1).val / 2048) + 7, hb⟩
    dsimp only at e3
    intro a
    match a with
    | ⟨0, _⟩ => show win0_1.index _ (0 : Fin 2) * 1 ≤ (i 0).val ∧ (i 0).val < win0_1.index _ (0 : Fin 2) * 1 + 1; omega
    | ⟨1, _⟩ => show win0_1.index _ (1 : Fin 2) * 2048 ≤ (i 1).val ∧ (i 1).val < win0_1.index _ (1 : Fin 2) * 2048 + 2048; omega

end Cert.KernelIdeal.Hand

end
-- ==== Proof.KiValue1.lean ====
/-
  The second kernel region, read as a value: the array it writes is, entry by entry, the product x·w scaled row by
  row by the column it is handed.

  Point t stages rows 4096 t … 4096 t + 4095 of x and of the column and the whole of w; what it writes back is the
  block of those rows of the one function G1 of the three arrays, and the four blocks tile the output array.
-/
import proofs.«112075_j62397284876370_2_alg».proof.Proof.KiRegion1
import proofs.«112075_j62397284876370_2_alg».proof.Proof.KiPayloads
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry (r, f) of x·w, row r scaled by the column's entry r. -/
def G1c (X : S16384x128.Idx → EReal) (W : S128x128.Idx → EReal) (D : S16384x1.Idx → EReal) (r : Fin 16384) (f : Fin 128) : EReal :=
  (∑ k : Fin 128, X (ix2 r k) * W (ix2 k f)) * D (ix2 r (0 : Fin 1))
/-- The same as an array. -/
def G1 (X : S16384x128.Idx → EReal) (W : S128x128.Idx → EReal) (D : S16384x1.Idx → EReal) : S16384x128.Idx → EReal :=
  fun i => G1c X W D (i 0) (i 1)

/-- The index maps over the four points: the row block is the point, every other block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem lt4 (t : Fin cfg1.N) : t.val < 4 := lt_of_lt_of_eq t.isLt (show cfg1.N = 4 from N_1)

/-- Row r of the point's block of x is row 4096 t + r of x. -/
theorem iblk1_0_apply (c : Dev nD) (t : Fin cfg1.N) (r : Fin 4096) (k : Fin 128) :
    iblk1 V c 0 t (ix2 r k) = V c main_arg0 (ix2 (⟨4096 * t.val + r.val, by have := lt4 t; omega⟩ : Fin 16384) k) := by
  obtain ⟨e0, e1, -⟩ := idx_facts1 t
  show V c main_arg0 (((cfg1.win 0).blk t).view.emb (ix2 r k)) = _
  refine congrArg _ ?_
  funext a; apply Fin.ext
  match a with
  | ⟨0, _⟩ => show win1_0.index t (0 : Fin 2) * 4096 + 1 * r.val = 4096 * t.val + r.val; omega
  | ⟨1, _⟩ => show win1_0.index t (1 : Fin 2) * 128 + 1 * k.val = k.val; omega

/-- The point's block of w is w. -/
theorem iblk1_1_apply (c : Dev nD) (t : Fin cfg1.N) (k : Fin 128) (f : Fin 128) :
    iblk1 V c 1 t (ix2 k f) = V c main_arg3 (ix2 k f) := by
  obtain ⟨-, -, e2, e3, -⟩ := idx_facts1 t
  show V c main_arg3 (((cfg1.win 1).blk t).view.emb (ix2 k f)) = _
  refine congrArg _ ?_
  funext a; apply Fin.ext
  match a with
  | ⟨0, _⟩ => show win1_1.index t (0 : Fin 2) * 128 + 1 * k.val = k.val; omega
  | ⟨1, _⟩ => show win1_1.index t (1 : Fin 2) * 128 + 1 * f.val = f.val; omega

/-- Entry r of the point's block of the column is entry 4096 t + r of the column. -/
theorem iblk1_2_apply (c : Dev nD) (t : Fin cfg1.N) (r : Fin 4096) :
    iblk1 V c 2 t (ix2 r (0 : Fin 1)) = V c main_v20 (ix2 (⟨4096 * t.val + r.val, by have := lt4 t; omega⟩ : Fin 16384) (0 : Fin 1)) := by
  obtain ⟨-, -, -, -, e4, e5, -⟩ := idx_facts1 t
  show V c main_v20 (((cfg1.win 2).blk t).view.emb (ix2 r (0 : Fin 1))) = _
  refine congrArg _ ?_
  funext a; apply Fin.ext
  match a with
  | ⟨0, _⟩ => show win1_2.index t (0 : Fin 2) * 4096 + 1 * r.val = 4096 * t.val + r.val; omega
  | ⟨1, _⟩ => show win1_2.index t (1 : Fin 2) * 1 + 1 * 0 = 0; omega

/-- What point t writes back is block t of G1 of the arrays as the region finds them. -/
theorem flushed1_eq (c : Dev nD) (t : Fin cfg1.N) :
    (dat1 V c).flushed 3 t = ((cfg1.win 3).blk t).view.read (Elt Ideal) (G1 (V c main_arg0) (V c main_arg3) (V c main_v20)) := by
  show (cfg1.win 3).cut (grid1.coords t) ((dat1 V c).after 3 t) = _
  rw [after1_3]
  unfold out1_3
  rw [View.canon_unit_zero hz]
  simp only [View.ld_unit_zero (S := S4096x128) hz, View.ld_unit_zero (S := S128x128) hz, View.ld_unit_zero (S := S4096x1) hz]
  obtain ⟨-, -, -, -, -, -, e6, e7⟩ := idx_facts1 t
  funext j
  obtain ⟨r, f, rfl⟩ : ∃ (r : Fin 4096) (f : Fin 128), j = ix2 r f := ⟨j 0, j 1, eq_ix2 j⟩
  refine (Cert.KernelIdeal.Pay.pay1 _ _ _ r f).trans ?_
  simp only [iblk1_0_apply, iblk1_1_apply, iblk1_2_apply]
  show _ = G1 (V c main_arg0) (V c main_arg3) (V c main_v20) (((cfg1.win 3).blk t).view.emb (ix2 r f))
  have hemb : ((cfg1.win 3).blk t).view.emb (ix2 r f) = ix2 (⟨4096 * t.val + r.val, by have := lt4 t; omega⟩ : Fin 16384) f := by
    funext a; apply Fin.ext
    match a with
    | ⟨0, _⟩ => show win1_3.index t (0 : Fin 2) * 4096 + 1 * r.val = 4096 * t.val + r.val; omega
    | ⟨1, _⟩ => show win1_3.index t (1 : Fin 2) * 128 + 1 * f.val = f.val; omega
  rw [hemb]
  rfl

theorem mem_blk1 (t : Fin cfg1.N) (i : S16384x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v21).slice (win1_3.rect t)).set ↔ _
  rw [View.set_slice_whole, Rect.mem_set_unit]
  exact Iff.rfl

/-- The array the region writes ends holding G1 of the arrays it read. -/
theorem final1 (c : Dev nD) : (dat1 V c).arrAt 3 cfg1.N = G1 (V c main_arg0) (V c main_arg3) (V c main_v20) :=
  (dat1 V c).arrAt_eq_of_cover 3 _ (fun t _ => flushed1_eq V c t) fun i => by
    have hi0 : (i 0).val < 16384 := (i 0).isLt
    have hi1 : (i 1).val < 128 := (i 1).isLt
    refine ⟨⟨(i 0).val / 4096, by rw [show cfg1.N = 4 from N_1]; omega⟩, flush1_3 _, ?_⟩
    rw [mem_blk1]
    obtain ⟨-, -, -, -, -, -, e6, e7⟩ := idx_facts1 ⟨(i 0).val / 4096, by rw [show cfg1.N = 4 from N_1]; omega⟩
    intro a
    match a with
    | ⟨0, _⟩ => show win1_3.index _ (0 : Fin 2) * 4096 ≤ (i 0).val ∧ (i 0).val < win1_3.index _ (0 : Fin 2) * 4096 + 4096; dsimp only at e6; omega
    | ⟨1, _⟩ => show win1_3.index _ (1 : Fin 2) * 128 ≤ (i 1).val ∧ (i 1).val < win1_3.index _ (1 : Fin 2) * 128 + 128; omega

end Cert.KernelIdeal.Hand

end
-- ==== Proof.KiRegion2Points.lean ====
/-
  The third kernel region, point by point: what the scratch and the output's staging buffer hold after a grid point,
  in terms of the body's payloads and the point's input blocks.

  After the first column block of a row block the scratch holds the block product added to zero; after any other
  column block the block product added to what the point before left; after the last column block the output's
  buffer holds that sum with the row block of the support added and every row scaled by its degree entry.
-/
import proofs.«112075_j62397284876370_2_alg».proof.Proof.KiRegion2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- After a first column block the scratch holds the block product added to zero. -/
theorem outsAt2_snd_first (c : Dev nD) (t : Fin cfg2.N) (h0 : t.val % 8 = 0) :
    (outsAt2 V c t.val t.isLt).2 = k2_pay2 (iblk2 V c 0 t) (k2_pay1 (F := F)) (iblk2 V c 1 t) := by
  have h1 : ¬t.val % 8 = 7 := by rw [h0]; decide
  rw [outsAt2_A V c t h0 h1]; dsimp only
  exact sout2_A_eq c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)

/-- After any other column block it holds the block product added to what the point before left. -/
theorem outsAt2_snd_next (c : Dev nD) (t : Fin cfg2.N) (h0 : ¬t.val % 8 = 0) :
    (outsAt2 V c t.val t.isLt).2 = k2_pay2 (iblk2 V c 0 t) (outsAt2 V c (t.val - 1) (Nat.lt_of_le_of_lt (Nat.sub_le _ _) t.isLt)).2 (iblk2 V c 1 t) := by
  by_cases h1 : t.val % 8 = 7
  · rw [outsAt2_C V c t h0 h1]; dsimp only
    exact sout2_C_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2
  · rw [outsAt2_B V c t h0 h1]; dsimp only
    exact sout2_B_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2

/-- After a last column block the output's buffer holds the finished sum with the self term added, the rows scaled. -/
theorem outsAt2_fst_last (c : Dev nD) (t : Fin cfg2.N) (h1 : t.val % 8 = 7) :
    (outsAt2 V c t.val t.isLt).1 = k2_pay3 (k2_pay2 (iblk2 V c 0 t) (outsAt2 V c (t.val - 1) (Nat.lt_of_le_of_lt (Nat.sub_le _ _) t.isLt)).2 (iblk2 V c 1 t)) (iblk2 V c 2 t) (iblk2 V c 3 t) := by
  have h0 : ¬t.val % 8 = 0 := by rw [h1]; decide
  rw [outsAt2_C V c t h0 h1]; dsimp only
  exact out2_C_4_eq c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2

/-- So what the body leaves in the output window at a last column block, in the proof data's words. -/
theorem after2_4_last (c : Dev nD) (t : Fin cfg2.N) (h1 : t.val % 8 = 7) :
    (dat2 V c).after 4 t = k2_pay3 (k2_pay2 (iblk2 V c 0 t) (outsAt2 V c (t.val - 1) (Nat.lt_of_le_of_lt (Nat.sub_le _ _) t.isLt)).2 (iblk2 V c 1 t)) (iblk2 V c 2 t) (iblk2 V c 3 t) :=
  (after2_4 V c t).trans (outsAt2_fst_last V c t h1)

end Cert.KernelIdeal.Hand

end
-- ==== Proof.LibChainSum.lean ====
/-
  A running sum.

  An accumulator that starts from zero plus the first term and adds one term at each later step holds, after step `n`,
  the sum of the terms `0 .. n`. It is the regrouping of a finite sum in a commutative monoid: nothing about the
  summands is used, so it holds on the extended reals with their infinities.
-/
import Idealize.ShloMosaic.PureOps.Ideal
import Mathlib.Algebra.BigOperators.Fin

open scoped BigOperators

namespace Cert.Gcn.Alg

/-- A running sum: from `0 + b 0`, adding `b (n + 1)` at step `n + 1`, the value after step `n` is `∑ s ≤ n, b s`. -/
theorem chain_sum (b : ℕ → EReal) (P : ℕ → EReal) (h0 : P 0 = 0 + b 0) (hs : ∀ n, P (n + 1) = P n + b (n + 1))
    (n : ℕ) : P n = ∑ s ∈ Finset.range (n + 1), b s := by
  induction n with
  | zero => rw [h0, zero_add, Finset.sum_range_one]
  | succ n ih => rw [hs, ih, Finset.sum_range_succ _ (n + 1)]

end Cert.Gcn.Alg
-- ==== Proof.AlgSums.lean ====
/-
  Sums taken block by block.

  A sum over 16384 positions is the sum over 8 blocks of the sum over each block's 2048 consecutive positions: a
  regrouping of a finite sum in a commutative monoid, so it holds on the extended reals with their infinities. (The
  running sum that produces the blocks one by one is imported beside it.)
-/
import proofs.«112075_j62397284876370_2_alg».proof.Proof.LibBlockSum
import proofs.«112075_j62397284876370_2_alg».proof.Proof.LibChainSum
import Idealize.ShloMosaic.PureOps.Ideal

open scoped BigOperators

namespace Cert.Gcn.Alg

/-- The sum over 16384 positions, taken as 8 blocks of 2048. -/
theorem sum_8_blocks (g : Fin 16384 → EReal) :
    ∑ i : Fin 16384, g i
      = ∑ s : Fin 8, ∑ r : Fin 2048, g ⟨2048 * s.val + r.val, by have := s.isLt; have := r.isLt; omega⟩ :=
  Cert.LibBlockSum.sum_blocks 8 2048 g

/-- The same with the blocks counted by the naturals below 8; a block number out of range is never used. -/
theorem sum_8_blocks_range (g : Fin 16384 → EReal) :
    ∑ i : Fin 16384, g i
      = ∑ s ∈ Finset.range 8,
          if h : s < 8 then ∑ r : Fin 2048, g ⟨2048 * s + r.val, by have := r.isLt; omega⟩ else 0 := by
  rw [sum_8_blocks g, Finset.sum_range]
  refine Finset.sum_congr rfl fun s _ => ?_
  rw [dif_pos s.isLt]

/-- The same against any function of the block number that agrees with the block sums on the 8 blocks. -/
theorem sum_8_blocks_of (g : Fin 16384 → EReal) (f : ℕ → EReal)
    (hf : ∀ s : Fin 8, f s.val
      = ∑ r : Fin 2048, g ⟨2048 * s.val + r.val, by have := s.isLt; have := r.isLt; omega⟩) :
    ∑ s ∈ Finset.range 8, f s = ∑ i : Fin 16384, g i :=
  Cert.LibBlockSum.sum_blocks_range 8 2048 g f hf

end Cert.Gcn.Alg
-- ==== Proof.KiValue2Ideal.lean ====
/-
  The third kernel region, read as a value: the array it writes holds, at (I, f), the row I of the adjacency times
  column f of the scaled rows, plus the node's own scaled row, the whole scaled by the node's factor.

  Within a row block the scratch is carried over the eight column blocks: after column block n < 7 it holds the
  products of the first n + 1 blocks of the row with the matching blocks of scaled rows, summed; at the last block
  the output's buffer receives that sum over all eight blocks plus the self term, scaled. The eight blocks of 2048
  columns are the 16384 columns of the row, so the partial sums end at the full row product; the eight points that
  write back tile the output.
-/
import proofs.«112075_j62397284876370_2_alg».proof.Proof.KiRegion2Points
import proofs.«112075_j62397284876370_2_alg».proof.Proof.KiPayloads
import proofs.«112075_j62397284876370_2_alg».proof.Proof.AlgSums
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The result as one function of the three arrays -/

/-- Entry (i, f): row i of the adjacency against column f of the scaled rows, plus the node's own scaled row, scaled. -/
def G2c (A : S16384x16384.Idx → EReal) (S : S16384x128.Idx → EReal) (D : S16384x1.Idx → EReal) (i : Fin 16384)
    (f : Fin 128) : EReal :=
  ((∑ j : Fin 16384, A (ix2 i j) * S (ix2 j f)) + S (ix2 i f)) * D (ix2 i (0 : Fin 1))

/-- The same as an array. -/
def G2 (A : S16384x16384.Idx → EReal) (S : S16384x128.Idx → EReal) (D : S16384x1.Idx → EReal) :
    S16384x128.Idx → EReal :=
  fun idx => G2c A S D (idx 0) (idx 1)

/-! ## The arrays at natural-number coordinates, and one block's product -/

/-- The adjacency read at natural-number coordinates (zero outside the array: never used there). -/
def adjAt2 (A : S16384x16384.Idx → EReal) (a b : ℕ) : EReal :=
  if h : a < 16384 ∧ b < 16384 then A (ix2 (⟨a, h.1⟩ : Fin 16384) (⟨b, h.2⟩ : Fin 16384)) else 0

/-- The scaled rows read at a natural-number row (zero outside the array: never used there). -/
def supAt2 (S : S16384x128.Idx → EReal) (a : ℕ) (f : Fin 128) : EReal :=
  if h : a < 16384 then S (ix2 (⟨a, h⟩ : Fin 16384) f) else 0

/-- Row R of the adjacency, restricted to column block s, against the matching block of column f of the scaled rows. -/
def blockDot2 (A : S16384x16384.Idx → EReal) (S : S16384x128.Idx → EReal) (R : ℕ) (f : Fin 128) (s : ℕ) : EReal :=
  ∑ jj : Fin 2048, adjAt2 A R (2048 * s + jj.val) * supAt2 S (2048 * s + jj.val) f

theorem lt64_2 (t : Fin cfg2.N) : t.val < 64 := lt_of_lt_of_eq t.isLt (show cfg2.N = 64 from N_2)

/-- The index maps over the grid: the adjacency's block is (row block, column block), the scaled rows' block the
    column block, and the self rows', the factors' and the output's the row block. -/
theorem idx_facts2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0
    ∧ win2_4.index t (0 : Fin 2) = t.val / 8 ∧ win2_4.index t (1 : Fin 2) = 0 :=
  (by decide +kernel : ∀ t : Fin grid2.N, _)

/-! ## The blocks a point reads -/

/-- Entry (r, jj) of the point's block of the adjacency. -/
theorem iblk2_0_apply (c : Dev nD) (t : Fin cfg2.N) (r jj : Fin 2048) :
    iblk2 V c 0 t (ix2 r jj)
      = adjAt2 (V c main_v18) (2048 * (t.val / 8) + r.val) (2048 * (t.val % 8) + jj.val) := by
  obtain ⟨e0, e1, -⟩ := idx_facts2 t
  have ht := lt64_2 t
  unfold adjAt2
  rw [dif_pos ⟨by omega, by omega⟩]
  show V c main_v18 (((cfg2.win 0).blk t).view.emb (ix2 r jj)) = _
  refine congrArg _ ?_
  funext a; apply Fin.ext
  match a with
  | ⟨0, _⟩ => show win2_0.index t (0 : Fin 2) * 2048 + 1 * r.val = 2048 * (t.val / 8) + r.val; omega
  | ⟨1, _⟩ => show win2_0.index t (1 : Fin 2) * 2048 + 1 * jj.val = 2048 * (t.val % 8) + jj.val; omega

/-- Entry (jj, f) of the point's block of the scaled rows. -/
theorem iblk2_1_apply (c : Dev nD) (t : Fin cfg2.N) (jj : Fin 2048) (f : Fin 128) :
    iblk2 V c 1 t (ix2 jj f) = supAt2 (V c main_v21) (2048 * (t.val % 8) + jj.val) f := by
  obtain ⟨-, -, e2, e3, -⟩ := idx_facts2 t
  have ht := lt64_2 t
  unfold supAt2
  rw [dif_pos (by omega)]
  show V c main_v21 (((cfg2.win 1).blk t).view.emb (ix2 jj f)) = _
  refine congrArg _ ?_
  funext a; apply Fin.ext
  match a with
  | ⟨0, _⟩ => show win2_1.index t (0 : Fin 2) * 2048 + 1 * jj.val = 2048 * (t.val % 8) + jj.val; omega
  | ⟨1, _⟩ => show win2_1.index t (1 : Fin 2) * 128 + 1 * f.val = f.val; omega

/-- Entry (r, f) of the point's block of the self rows. -/
theorem iblk2_2_apply (c : Dev nD) (t : Fin cfg2.N) (r : Fin 2048) (f : Fin 128) :
    iblk2 V c 2 t (ix2 r f)
      = V c main_v21 (ix2 (⟨2048 * (t.val / 8) + r.val, by have := lt64_2 t; omega⟩ : Fin 16384) f) := by
  obtain ⟨-, -, -, -, e4, e5, -⟩ := idx_facts2 t
  show V c main_v21 (((cfg2.win 2).blk t).view.emb (ix2 r f)) = _
  refine congrArg _ ?_
  funext a; apply Fin.ext
  match a with
  | ⟨0, _⟩ => show win2_2.index t (0 : Fin 2) * 2048 + 1 * r.val = 2048 * (t.val / 8) + r.val; omega
  | ⟨1, _⟩ => show win2_2.index t (1 : Fin 2) * 128 + 1 * f.val = f.val; omega

/-- Entry r of the point's block of the factors. -/
theorem iblk2_3_apply (c : Dev nD) (t : Fin cfg2.N) (r : Fin 2048) :
    iblk2 V c 3 t (ix2 r (0 : Fin 1))
      = V c main_v20 (ix2 (⟨2048 * (t.val / 8) + r.val, by have := lt64_2 t; omega⟩ : Fin 16384) (0 : Fin 1)) := by
  obtain ⟨-, -, -, -, -, -, e6, e7, -⟩ := idx_facts2 t
  show V c main_v20 (((cfg2.win 3).blk t).view.emb (ix2 r (0 : Fin 1))) = _
  refine congrArg _ ?_
  funext a; apply Fin.ext
  match a with
  | ⟨0, _⟩ => show win2_3.index t (0 : Fin 2) * 2048 + 1 * r.val = 2048 * (t.val / 8) + r.val; omega
  | ⟨1, _⟩ => show win2_3.index t (1 : Fin 2) * 1 + 1 * 0 = 0; omega

/-- The product of the point's adjacency block with its block of scaled rows, at (r, f). -/
theorem block_dot2 (c : Dev nD) (t : Fin cfg2.N) (r : Fin 2048) (f : Fin 128)
    (a : Vec Ideal S2048x2048 .f32) (s : Vec Ideal S2048x128 .bf16)
    (ha : a = iblk2 V c 0 t) (hs : s = iblk2 V c 1 t) :
    ∑ jj : Fin 2048, a (ix2 r jj) * s (ix2 jj f)
      = blockDot2 (V c main_v18) (V c main_v21) (2048 * (t.val / 8) + r.val) f (t.val % 8) := by
  unfold blockDot2
  refine Finset.sum_congr rfl fun jj _ => ?_
  rw [ha, hs]
  exact congrArg₂ (· * ·) (iblk2_0_apply V c t r jj) (iblk2_1_apply V c t jj f)

/-! ## The scratch holds the partial row products -/

/-- Before the last column block the scratch holds the sum of the first blocks' products. -/
theorem partial_sums2 (c : Dev nD) (r : Fin 2048) (f : Fin 128) : ∀ (n : ℕ) (t : Fin cfg2.N), t.val % 8 = n → n < 7 →
    (outsAt2 V c t.val t.isLt).2 (ix2 r f)
      = ∑ s ∈ Finset.range (n + 1), blockDot2 (V c main_v18) (V c main_v21) (2048 * (t.val / 8) + r.val) f s
  | 0, t, h, _ => by
    rw [outsAt2_snd_first V c t h]
    refine (Cert.KernelIdeal.Pay.pay2_acc _ _ _ r f).trans ?_
    rw [Cert.KernelIdeal.Pay.pay2_zero, zero_add, block_dot2 V c t r f _ _ rfl rfl, h, Finset.sum_range_one]
  | n + 1, t, h, hn => by
    have ht := lt64_2 t
    have h0 : ¬t.val % 8 = 0 := by omega
    have h7 : ¬t.val % 8 = 7 := by omega
    rw [outsAt2_snd_next V c t h0]
    refine (Cert.KernelIdeal.Pay.pay2_acc _ _ _ r f).trans ?_
    have ih : (outsAt2 V c (t.val - 1) (Nat.lt_of_le_of_lt (Nat.sub_le _ _) t.isLt)).2 (ix2 r f)
        = ∑ s ∈ Finset.range (n + 1),
            blockDot2 (V c main_v18) (V c main_v21) (2048 * ((t.val - 1) / 8) + r.val) f s :=
      partial_sums2 c r f n ⟨t.val - 1, Nat.lt_of_le_of_lt (Nat.sub_le _ _) t.isLt⟩
        (by show (t.val - 1) % 8 = n; omega) (by omega)
    rw [ih, block_dot2 V c t r f _ _ rfl rfl, h, Finset.sum_range_succ _ (n + 1),
      show (t.val - 1) / 8 = t.val / 8 from by omega]

/-- The eight column blocks are the row. -/
theorem blocks_are_row2 (A : S16384x16384.Idx → EReal) (S : S16384x128.Idx → EReal) (I : Fin 16384) (f : Fin 128) :
    ∑ s ∈ Finset.range 8, blockDot2 A S I.val f s = ∑ j : Fin 16384, A (ix2 I j) * S (ix2 j f) := by
  refine Cert.Gcn.Alg.sum_8_blocks_of (fun j : Fin 16384 => A (ix2 I j) * S (ix2 j f)) _ fun s => ?_
  unfold blockDot2
  refine Finset.sum_congr rfl fun jj _ => ?_
  unfold adjAt2 supAt2
  have hs := s.isLt
  have hj := jj.isLt
  rw [dif_pos ⟨I.isLt, by omega⟩, dif_pos (by omega)]

/-- After the last column block the output's buffer holds the finished rows. -/
theorem last_value2 (c : Dev nD) (t : Fin cfg2.N) (h7 : t.val % 8 = 7) (r : Fin 2048) (f : Fin 128) :
    (outsAt2 V c t.val t.isLt).1 (ix2 r f)
      = G2c (V c main_v18) (V c main_v21) (V c main_v20)
          (⟨2048 * (t.val / 8) + r.val, by have := lt64_2 t; omega⟩ : Fin 16384) f := by
  have ht := lt64_2 t
  rw [outsAt2_fst_last V c t h7]
  refine (Cert.KernelIdeal.Pay.pay2_fin _ _ _ r f).trans ?_
  unfold G2c
  rw [iblk2_2_apply V c t r f, iblk2_3_apply V c t r]
  refine congrArg (fun z => (z + _) * _) ?_
  refine (Cert.KernelIdeal.Pay.pay2_acc _ _ _ r f).trans ?_
  have ih : (outsAt2 V c (t.val - 1) (Nat.lt_of_le_of_lt (Nat.sub_le _ _) t.isLt)).2 (ix2 r f)
      = ∑ s ∈ Finset.range (6 + 1),
          blockDot2 (V c main_v18) (V c main_v21) (2048 * ((t.val - 1) / 8) + r.val) f s :=
    partial_sums2 V c r f 6 ⟨t.val - 1, Nat.lt_of_le_of_lt (Nat.sub_le _ _) t.isLt⟩
      (by show (t.val - 1) % 8 = 6; omega) (by omega)
  rw [ih, block_dot2 V c t r f _ _ rfl rfl, h7, show (t.val - 1) / 8 = t.val / 8 from by omega,
    ← Finset.sum_range_succ _ 7]
  exact blocks_are_row2 _ _ (⟨2048 * (t.val / 8) + r.val, by omega⟩ : Fin 16384) f

/-! ## From the blocks to the array -/

/-- What a point that writes back writes is its block of G2. -/
theorem flushed2_eq (c : Dev nD) (t : Fin cfg2.N) (hf : (cfg2.win 4).flush t = true) :
    (dat2 V c).flushed 4 t
      = ((cfg2.win 4).blk t).view.read (Elt Ideal) (G2 (V c main_v18) (V c main_v21) (V c main_v20)) := by
  have h7 : t.val % 8 = 7 := (flush2_4 t).mp hf
  have ht := lt64_2 t
  obtain ⟨-, -, -, -, -, -, -, -, e8, e9⟩ := idx_facts2 t
  show (cfg2.win 4).cut (grid2.coords t) ((dat2 V c).after 4 t) = _
  rw [after2_4]
  funext y
  obtain ⟨r, f, rfl⟩ : ∃ (r : Fin 2048) (f : Fin 128), y = ix2 r f := ⟨y 0, y 1, eq_ix2 y⟩
  refine (last_value2 V c t h7 r f).trans ?_
  rw [View.read_apply]
  show _ = G2 (V c main_v18) (V c main_v21) (V c main_v20) (((cfg2.win 4).blk t).view.emb (ix2 r f))
  have hemb : ((cfg2.win 4).blk t).view.emb (ix2 r f)
      = ix2 (⟨2048 * (t.val / 8) + r.val, by omega⟩ : Fin 16384) f := by
    funext a; apply Fin.ext
    match a with
    | ⟨0, _⟩ => show win2_4.index t (0 : Fin 2) * 2048 + 1 * r.val = 2048 * (t.val / 8) + r.val; omega
    | ⟨1, _⟩ => show win2_4.index t (1 : Fin 2) * 128 + 1 * f.val = f.val; omega
  rw [hemb]
  rfl

theorem mem_blk2 (t : Fin cfg2.N) (i : S16384x128.Idx) :
    i ∈ ((cfg2.win 4).blk t).view.set ↔ ∀ a : Fin 2, win2_4.index t a * S2048x128.size a ≤ (i a).val
      ∧ (i a).val < win2_4.index t a * S2048x128.size a + S2048x128.size a := by
  show i ∈ ((View.whole main_v22).slice (win2_4.rect t)).set ↔ _
  rw [View.set_slice_whole, Rect.mem_set_unit]
  exact Iff.rfl

/-- The array the region writes ends holding G2 of the arrays it read. -/
theorem final2 (c : Dev nD) : (dat2 V c).arrAt 4 cfg2.N = G2 (V c main_v18) (V c main_v21) (V c main_v20) :=
  (dat2 V c).arrAt_eq_of_cover 4 _ (fun t hf => flushed2_eq V c t hf) fun i => by
    have hi0 : (i 0).val < 16384 := (i 0).isLt
    have hi1 : (i 1).val < 128 := (i 1).isLt
    have hb : 8 * ((i 0).val / 2048) + 7 < cfg2.N := by rw [show cfg2.N = 64 from N_2]; omega
    refine ⟨⟨8 * ((i 0).val / 2048) + 7, hb⟩,
      (flush2_4 _).mpr (by show (8 * ((i 0).val / 2048) + 7) % 8 = 7; omega), ?_⟩
    rw [mem_blk2]
    obtain ⟨-, -, -, -, -, -, -, -, e8, e9⟩ := idx_facts2 ⟨8 * ((i 0).val / 2048) + 7, hb⟩
    dsimp only at e8
    intro a
    match a with
    | ⟨0, _⟩ =>
      show win2_4.index _ (0 : Fin 2) * 2048 ≤ (i 0).val ∧ (i 0).val < win2_4.index _ (0 : Fin 2) * 2048 + 2048
      omega
    | ⟨1, _⟩ =>
      show win2_4.index _ (1 : Fin 2) * 128 ≤ (i 1).val ∧ (i 1).val < win2_4.index _ (1 : Fin 2) * 128 + 128
      omega

end Cert.KernelIdeal.Hand

end
-- ==== Proof.KiResult.lean ====
/-
  The program's result as one function of its arguments.

  The three regions' closed forms compose: the first writes the row dinv of inverse square roots of the degrees, the
  host turns it into a column, the second writes sup = (x·w) scaled row by row by that column, the third writes
  (A·sup + sup) scaled row by row by the same column — entry by entry the layer `Cert.Gcn.out` of the scattered
  adjacency A, the features x and the weights w.
-/
import proofs.«112075_j62397284876370_2_alg».proof.Proof.KiSegs
import proofs.«112075_j62397284876370_2_alg».proof.Proof.KiValue0Ideal
import proofs.«112075_j62397284876370_2_alg».proof.Proof.KiValue1
import proofs.«112075_j62397284876370_2_alg».proof.Proof.KiValue2Ideal
import proofs.«112075_j62397284876370_2_alg».proof.Proof.Spec
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ)

/-- The scattered adjacency, as the first region finds it. -/
abbrev adjOf (c : Dev nD) : S16384x16384.Idx → EReal := Z1 m c (Proc.devRef .tc main_v18)

/-! ## What the valuations hold at the references the regions read -/

theorem Z3_of (c : Dev nD) (b : Ref sig .tc) (h : b ∉ Gen.hostOps1_W) : Z3 m c (Proc.devRef .tc b) = Z2 m c (Proc.devRef .tc b) :=
  StableHlo.after_of_writes_sub hostOps1 _ Gen.hostOps1_writes h

theorem Z1_arg0 (c : Dev nD) : Z1 m c (Proc.devRef .tc main_arg0) = m ((c.tc : Thread nD τ).loc main_arg0) := Gen.V1_of m c main_arg0 (by decide)
theorem Z1_arg3 (c : Dev nD) : Z1 m c (Proc.devRef .tc main_arg3) = m ((c.tc : Thread nD τ).loc main_arg3) := Gen.V1_of m c main_arg3 (by decide)

theorem Z3_arg0 (c : Dev nD) : Z3 m c (Proc.devRef .tc main_arg0) = m ((c.tc : Thread nD τ).loc main_arg0) :=
  (Z3_of m c main_arg0 (by decide)).trans ((Z2_of_ne m c main_arg0 (by decide)).trans (Z1_arg0 m c))
theorem Z3_arg3 (c : Dev nD) : Z3 m c (Proc.devRef .tc main_arg3) = m ((c.tc : Thread nD τ).loc main_arg3) :=
  (Z3_of m c main_arg3 (by decide)).trans ((Z2_of_ne m c main_arg3 (by decide)).trans (Z1_arg3 m c))
theorem Z3_v18 (c : Dev nD) : Z3 m c (Proc.devRef .tc main_v18) = adjOf m c :=
  (Z3_of m c main_v18 (by decide)).trans (Z2_of_ne m c main_v18 (by decide))

/-- The degree row the first region leaves. -/
theorem o2_eq (c : Dev nD) : o2 m c = G0 (adjOf m c) := final0 (atTc (Z1 m)) c

/-- The transposition turns the row into a column: entry i of the column is dinv at i. -/
theorem Z3_v20 (c : Dev nD) (i : Fin 16384) :
    (Z3 m c (Proc.devRef .tc main_v20) : S16384x1.Idx → EReal) (ix2 i (0 : Fin 1)) = Cert.Gcn.dinv (adjOf m c) i := by
  have e : (Z3 m c (Proc.devRef .tc main_v20) : S16384x1.Idx → EReal)
      = transpose S16384x1 [1, 0] (Z2 m c (Proc.devRef .tc main_v19) : S1x16384.Idx → EReal) transposes_S1x16384_S16384x1_1_0 := by
    show StableHlo.after hostOps1 (Z2 m c) (Proc.devRef .tc main_v20) = _
    after_results
  rw [e, transpose_ix2_apply, Z2_v19, o2_eq]
  rfl

/-- The scaled support the second region leaves. -/
theorem o4_eq (c : Dev nD) : o4 m c = G1 (m ((c.tc : Thread nD τ).loc main_arg0)) (m ((c.tc : Thread nD τ).loc main_arg3)) (Z3 m c (Proc.devRef .tc main_v20)) := by
  refine (final1 (atTc (Z3 m)) c).trans ?_
  show G1 (Z3 m c (Proc.devRef .tc main_arg0)) (Z3 m c (Proc.devRef .tc main_arg3)) (Z3 m c (Proc.devRef .tc main_v20)) = _
  rw [Z3_arg0, Z3_arg3]

/-- Entry (j, f) of the scaled support is the layer's `sup`. -/
theorem o4_apply (c : Dev nD) (j : Fin 16384) (f : Fin 128) :
    (o4 m c : S16384x128.Idx → EReal) (ix2 j f) = Cert.Gcn.sup (adjOf m c) (m ((c.tc : Thread nD τ).loc main_arg0)) (m ((c.tc : Thread nD τ).loc main_arg3)) j f := by
  rw [o4_eq]
  show G1c _ _ _ j f = _
  unfold G1c Cert.Gcn.sup Cert.Gcn.xw
  rw [Z3_v20]

theorem Z4_v18 (c : Dev nD) : Z4 m c (Proc.devRef .tc main_v18) = adjOf m c :=
  (Z4_of_ne m c main_v18 (by decide)).trans (Z3_v18 m c)
theorem Z4_v20 (c : Dev nD) : Z4 m c (Proc.devRef .tc main_v20) = Z3 m c (Proc.devRef .tc main_v20) :=
  Z4_of_ne m c main_v20 (by decide)

/-- THE RESULT: what the third region leaves is the layer of the scattered adjacency, the features and the weights. -/
theorem o5_eq (c : Dev nD) :
    (o5 m c : S16384x128.Idx → EReal) = Cert.Gcn.outArr (adjOf m c) (m ((c.tc : Thread nD τ).loc main_arg0)) (m ((c.tc : Thread nD τ).loc main_arg3)) := by
  refine (final2 (atTc (Z4 m)) c).trans ?_
  show G2 (Z4 m c (Proc.devRef .tc main_v18)) (Z4 m c (Proc.devRef .tc main_v21)) (Z4 m c (Proc.devRef .tc main_v20)) = _
  rw [Z4_v18, Z4_v21, Z4_v20]
  funext idx
  obtain ⟨i, f, rfl⟩ : ∃ (i : Fin 16384) (f : Fin 128), idx = ix2 i f := ⟨idx 0, idx 1, eq_ix2 idx⟩
  show G2c _ _ _ i f = Cert.Gcn.out _ _ _ i f
  unfold G2c Cert.Gcn.out
  simp only [o4_apply]
  rw [show Z3 m c (Proc.devRef .tc main_v20) (ix2 i (0 : Fin 1)) = Cert.Gcn.dinv (adjOf m c) i from Z3_v20 m c i]

end Cert.KernelIdeal.Hand

end
-- ==== Proof.KRegion0Runs.lean ====
/-
  The first kernel region: column sums of the adjacency, then the inverse square root of the degree.

  The grid is 8 column blocks by 8 row blocks, the row block moving fastest. The output window — one row of 2048
  entries, the column block's — keeps its staging buffer over the 8 row blocks of a column block and is written back
  after the last. At the first row block the buffer is set to zero and the block's column sums are added; at the
  next six the block's column sums are added to what the point before left; at the last, after adding, every entry
  `s` is replaced by `rsqrt (s + 1)`. So what the buffer holds after a point is given by recursion on the point.
-/
import proofs.«112075_j62397284876370_2_alg».proof.Proof.Gen.Kernel.Launch
import proofs.«112075_j62397284876370_2_alg».proof.Proof.Gen.Kernel.Skeleton
import proofs.«112075_j62397284876370_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions: the first and the last row block -/

/-- The row block is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The row block is the last. -/
abbrev cond0_1 (i : grid0.Coords) : Prop := (Scalar.cmpi .ne (Scalar.extui (Scalar.cmpi .eq (BitVec.ofNat 32 (i 1).val) 7#32)) 0#32) = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## The staging buffers the body is called with -/

/-- One staging buffer of the output window, through which its contents are stated. -/
abbrev VO0_1 : View sig .tc .vmem S1x2048 .f32 := (Memref.whole cc0_stg1_0 : Memref sig .tc .vmem S1x2048 .f32).view
abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)

/-! ## The body's triple, case by case: the stores the run finds -/

set_option maxHeartbeats 1000000 in
/-- First row block: the buffer is zeroed, then the block's column sums are added. -/
noncomputable def kernelRun0_A (c : Dev nD) (i : grid0.Coords) (arg2 : Memref sig .tc .vmem S2048x2048 .f32) (harg2 : arg2.IsWhole) (arg3 : Memref sig .tc .vmem S1x2048 .f32) (harg3 : arg3.IsWhole) (hc0 : cond0_0 i) (hc1 : ¬cond0_1 i)
    (x0 : Vec F S2048x2048 .f32) :
    { L1 : List (View.Piece (Elt F) S1x2048 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__degree_kernel i arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

set_option maxHeartbeats 1000000 in
/-- A middle row block: the block's column sums are added to what the buffer held. -/
noncomputable def kernelRun0_B (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : ¬cond0_1 i)
    (x0 : Vec F S2048x2048 .f32) (xo1 : Vec F S1x2048 .f32) :
    { L1 : List (View.Piece (Elt F) S1x2048 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__degree_kernel i arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

set_option maxHeartbeats 1000000 in
/-- Last row block: the block's column sums are added, then every entry `s` becomes `rsqrt (s + 1)`. -/
noncomputable def kernelRun0_C (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : cond0_1 i)
    (x0 : Vec F S2048x2048 .f32) (xo1 : Vec F S1x2048 .f32) :
    { L1 : List (View.Piece (Elt F) S1x2048 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__degree_kernel i arg2 harg2 arg3 harg3) K } := by
  refine ⟨?_, fun E K => ?run⟩
  case run =>
    simp only [cc0__degree_kernel_eq_skeleton]; unfold cc0__degree_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.Kernel.Hand

end
-- ==== Proof.KRegion0.lean ====
/-
  The first kernel region, continued: what the output window's staging buffer holds after every grid point, the
  region's proof data and the body obligation.
-/
import proofs.«112075_j62397284876370_2_alg».proof.Proof.KRegion0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves in the output window's buffer -/

theorem cover0_A_1 (c : Dev nD) (i : grid0.Coords) (arg2 : Memref sig .tc .vmem S2048x2048 .f32) (harg2 : arg2.IsWhole) (arg3 : Memref sig .tc .vmem S1x2048 .f32) (harg3 : arg3.IsWhole) (hc0 : cond0_0 i) (hc1 : ¬cond0_1 i)
    (x0 : Vec F S2048x2048 .f32) (y : S1x2048.Idx) :
    ∃ pc ∈ (kernelRun0_A c i arg2 harg2 arg3 harg3 hc0 hc1 x0).1, y ∈ pc.1.set :=
  View.cover_of_tiledL (kernelRun0_A c i arg2 harg2 arg3 harg3 hc0 hc1 x0).1 S1x2048.size (by sl_kernel_rfl) y

/-- First row block: the stores read back. -/
def out0_A_1 (c : Dev nD) (i : grid0.Coords) (arg2 : Memref sig .tc .vmem S2048x2048 .f32) (harg2 : arg2.IsWhole) (arg3 : Memref sig .tc .vmem S1x2048 .f32) (harg3 : arg3.IsWhole) (hc0 : cond0_0 i) (hc1 : ¬cond0_1 i)
    (x0 : Vec F S2048x2048 .f32) : Vec F S1x2048 .f32 :=
  VO0_1.read (Elt F) (VO0_1.writes (Elt F) VO0_1.junk (kernelRun0_A c i arg2 harg2 arg3 harg3 hc0 hc1 x0).1)

theorem cover0_B_1 (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : ¬cond0_1 i)
    (x0 : Vec F S2048x2048 .f32) (xo1 : Vec F S1x2048 .f32) (y : S1x2048.Idx) :
    ∃ pc ∈ (kernelRun0_B c i arg2 harg2 arg3 harg3 hc0 hc1 x0 xo1).1, y ∈ pc.1.set :=
  View.cover_of_tiledL (kernelRun0_B c i arg2 harg2 arg3 harg3 hc0 hc1 x0 xo1).1 S1x2048.size (by sl_kernel_rfl) y

/-- A middle row block: the stores read back. -/
def out0_B_1 (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : ¬cond0_1 i)
    (x0 : Vec F S2048x2048 .f32) (xo1 : Vec F S1x2048 .f32) : Vec F S1x2048 .f32 :=
  VO0_1.read (Elt F) (VO0_1.writes (Elt F) VO0_1.junk (kernelRun0_B c i arg2 harg2 arg3 harg3 hc0 hc1 x0 xo1).1)

theorem cover0_C_1 (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : cond0_1 i)
    (x0 : Vec F S2048x2048 .f32) (xo1 : Vec F S1x2048 .f32) (y : S1x2048.Idx) :
    ∃ pc ∈ (kernelRun0_C c i arg2 harg2 arg3 harg3 hc0 hc1 x0 xo1).1, y ∈ pc.1.set :=
  View.cover_of_tiledL (kernelRun0_C c i arg2 harg2 arg3 harg3 hc0 hc1 x0 xo1).1 S1x2048.size (by sl_kernel_rfl) y

/-- Last row block: the stores read back. -/
def out0_C_1 (c : Dev nD) (i : grid0.Coords) (arg2 : Memref sig .tc .vmem S2048x2048 .f32) (harg2 : arg2.IsWhole) (arg3 : Memref sig .tc .vmem S1x2048 .f32) (harg3 : arg3.IsWhole) (hc0 : ¬cond0_0 i) (hc1 : cond0_1 i)
    (x0 : Vec F S2048x2048 .f32) (xo1 : Vec F S1x2048 .f32) : Vec F S1x2048 .f32 :=
  VO0_1.read (Elt F) (VO0_1.writes (Elt F) VO0_1.junk (kernelRun0_C c i arg2 harg2 arg3 harg3 hc0 hc1 x0 xo1).1)

/-! ## What the output window's buffer holds after each point -/

/-- The accumulation, by recursion on the point's position: the case the position's row block selects, run on the
    point's adjacency block and, after the first row block, on what the point before left. -/
def outsAt0 (c : Dev nD) : (n : ℕ) → n < cfg0.N → Vec F S1x2048 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (fun h => (fun h => by (try dsimp only at h); omega) ((hcond0_1 ⟨0, hn⟩).mp h)) (iblk0 V c 0 ⟨0, hn⟩)
  | n + 1, hn =>
    if h0 : (n + 1) % 8 = 0 then
      if h1 : (n + 1) % 8 = 7 then
        False.elim (by omega)
      else
        out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (fun h => h1 ((hcond0_1 ⟨n + 1, hn⟩).mp h)) (iblk0 V c 0 ⟨n + 1, hn⟩)
    else
      if h1 : (n + 1) % 8 = 7 then
        out0_C_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) ((hcond0_1 ⟨n + 1, hn⟩).mpr h1) (iblk0 V c 0 ⟨n + 1, hn⟩) (outsAt0 c n (Nat.lt_of_succ_lt hn))
      else
        out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn))

theorem outsAt0_A (c : Dev nD) (t : Fin cfg0.N) (h0 : t.val % 8 = 0) (h1 : ¬t.val % 8 = 7) :
    outsAt0 V c t.val t.isLt = out0_A_1 c (grid0.coords t) (ms0_0 t) (hs0_0 t) (ms0_1 t) (hs0_1 t) ((hcond0_0 t).mpr h0) (fun h => h1 ((hcond0_1 t).mp h)) (iblk0 V c 0 t) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = out0_B_1 c (grid0.coords t) (ms0_0 t) (hs0_0 t) (ms0_1 t) (hs0_1 t) (fun h => h0 ((hcond0_0 t).mp h)) (fun h => h1 ((hcond0_1 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = out0_C_1 c (grid0.coords t) (ms0_0 t) (hs0_0 t) (ms0_1 t) (hs0_1 t) (fun h => h0 ((hcond0_0 t).mp h)) ((hcond0_1 t).mpr h1) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the region on core `c`: the arrays as the region finds them; after the body at point `t` the
    input's buffer at its block and the output's at `outsAt0`; the invariant the scoped rest and the generator
    register; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- After the first row block of a column block the output's buffer holds what the point before left: it was not
    written back in between. -/
theorem before0_1_pos (c : Dev nD) (t : Fin cfg0.N) (h0 : ¬t.val % 8 = 0) (d) :
    (dat0 V c).before 1 t d = outsAt0 V c (t.val - 1) (Nat.lt_of_le_of_lt (Nat.sub_le _ _) t.isLt) := by
  have hN : t.val < 64 := lt_of_lt_of_eq t.isLt (show cfg0.N = 64 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 1600000 in
/-- The body at any point: the row block says which case the point is in; after the first row block the output's
    buffer holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 64 := lt_of_lt_of_eq t.isLt (show cfg0.N = 64 from N_0)
  by_cases h0 : t.val % 8 = 0
  · by_cases h1 : t.val % 8 = 7
    · exfalso; omega
    · rw [outsAt0_A V c t h0 h1]
      unfold out0_A_1
      iintro ⟨HΦ, Ho, ⟨%d0, H0⟩, ⟨%d1, H1⟩⟩
      iapply ((kernelRun0_A c (grid0.coords t) _ _ _ _ ((hcond0_0 t).mpr h0) (fun h => h1 ((hcond0_1 t).mp h)) (iblk0 V c 0 t)).2 Set.univ _)
      isplitl [H0]; · iexact H0
      isplitl [H1]; · iexists _; iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_A_1 c _ _ _ _ _ _ _ _)
  · by_cases h1 : t.val % 8 = 7
    · rw [outsAt0_C V c t h0 h1]
      simp only [before0_1_pos V c t h0]
      unfold out0_C_1
      iintro ⟨HΦ, Ho, ⟨%d0, H0⟩, ⟨%d1, H1⟩⟩
      iapply ((kernelRun0_C c (grid0.coords t) _ _ _ _ (fun h => h0 ((hcond0_0 t).mp h)) ((hcond0_1 t).mpr h1) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_C_1 c _ _ _ _ _ _ _ _ _)
    · rw [outsAt0_B V c t h0 h1]
      simp only [before0_1_pos V c t h0]
      unfold out0_B_1
      iintro ⟨HΦ, Ho, ⟨%d0, H0⟩, ⟨%d1, H1⟩⟩
      iapply ((kernelRun0_B c (grid0.coords t) _ _ _ _ (fun h => h0 ((hcond0_0 t).mp h)) (fun h => h1 ((hcond0_1 t).mp h)) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_B_1 c _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The second kernel region: rows of x·w scaled by a column.

  One grid point stages a block of 4096 rows of x, the whole of w and the matching 4096 entries of the scaling
  column, and stores the block (x_blk · w) ∘ column into the output's staging buffer in one store over the whole
  buffer. Nothing is kept between points: what the output's buffer holds after a point is a function of that point's
  three input blocks alone.
-/
import proofs.«112075_j62397284876370_2_alg».proof.Proof.Gen.Kernel.Launch
import proofs.«112075_j62397284876370_2_alg».proof.Proof.Gen.Kernel.Skeleton
import proofs.«112075_j62397284876370_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S4096x128 := Rect.unit (s := S4096x128) ![0, 0] S4096x128.size inb_S4096x128_S4096x128_0_0
abbrev r1_1 : Rect S128x128 := Rect.unit (s := S128x128) ![0, 0] S128x128.size inb_S128x128_S128x128_0_0
abbrev r1_2 : Rect S4096x1 := Rect.unit (s := S4096x1) ![0, 0] S4096x1.size inb_S4096x1_S4096x1_0_0

/-- The output's staging buffer after the body, from the three input blocks: the one store, over the whole buffer. -/
def out1_3 (x0 : Vec F S4096x128 .f32) (x1 : Vec F S128x128 .f32) (x2 : Vec F S4096x1 .f32) : Vec F S4096x128 .bf16 :=
  View.canon [⟨r1_0, k1_pay1 (View.ld x0 r1_0) (View.ld x1 r1_1) (View.ld x2 r1_2)⟩]

/-- The store covers the buffer. -/
theorem cover1_3 (p0 : Vec F S4096x128 .bf16) (y : S4096x128.Idx) :
    ∃ pc ∈ ([⟨r1_0, p0⟩] : List (View.Piece (Elt F) S4096x128 .bf16)), y ∈ pc.1.set :=
  View.cover_of_tiled [⟨r1_0, p0⟩] S4096x128.size (by rfl) y

/-! ## The body's triple -/

set_option maxHeartbeats 1000000 in
/-- The body on whole staging buffers, the inputs' at contents `x0 x1 x2` and the output's at anything, runs to the
    continuation holding the inputs' as they were and the output's at `out1_3` of them. -/
theorem sound_kernel1 (c : Dev nD) (E : Set ℕ) (i : grid1.Coords) (arg1 : Memref sig .tc .vmem S4096x128 .f32) (harg1 : arg1.IsWhole) (arg2 : Memref sig .tc .vmem S128x128 .f32) (harg2 : arg2.IsWhole) (arg3 : Memref sig .tc .vmem S4096x1 .f32) (harg3 : arg3.IsWhole) (arg4 : Memref sig .tc .vmem S4096x128 .bf16) (harg4 : arg4.IsWhole)
    (x0 : Vec F S4096x128 .f32) (x1 : Vec F S128x128 .f32) (x2 : Vec F S4096x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__support_kernel i arg1 harg1 arg2 harg2 arg3 harg3 arg4 harg4) K := by
  simp only [cc1__support_kernel_eq_skeleton]; unfold cc1__support_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them; after the body at point `t` each
    input's buffer at its block and the output's at `out1_3` of the blocks; the invariant the scoped rest and the
    generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2Runs.lean ====
/-
  The third kernel region: the adjacency times the support, accumulated over the column blocks, then the
  self term added and the rows scaled.

  The grid is 8 row blocks by 8 column blocks of the adjacency, the column block k moving fastest. A scratch
  buffer of 2048 x 128 entries carries the running sum over k: at k = 0 it is set to zero; at every k the product
  of the adjacency block with the k-th block of the support is added to it; at k = 7 the output's staging buffer
  receives (sum + the row block of the support) scaled row by row by the degree column. At the other points the
  body stores nothing into the output's buffer. This file fixes the two conditions in closed form, the memrefs
  the body is called with, and the body's triple in each of the three cases.
-/
import proofs.«112075_j62397284876370_2_alg».proof.Proof.Gen.Kernel.Launch
import proofs.«112075_j62397284876370_2_alg».proof.Proof.Gen.Kernel.Skeleton
import proofs.«112075_j62397284876370_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two conditions: the first and the last column block -/

/-- The column block is the first. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The column block is the last. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
/-- Off the last column block the output is idle and is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last column block the output is live. -/
theorem liveAt2_4 : ∀ t : Fin cfg2.N, cond2_1 (grid2.coords t) → cfg2.idle 4 (grid2.coords t) = false := by decide +kernel

/-! ## The memrefs the body is called with -/

/-- One staging buffer of the output window, through which its contents are stated. -/
abbrev VO2_4 : View sig .tc .vmem S2048x128 .f32 := (Memref.whole cc2_stg4_0 : Memref sig .tc .vmem S2048x128 .f32).view
abbrev ms2_0 (t : Fin cfg2.N) : Memref sig .tc .vmem S2048x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x128 .f32 := win2_4.stage (cfg2.slots t 4)
abbrev hs2_4 (t : Fin cfg2.N) : (ms2_4 t).IsWhole := hstage2_4 ((cfg2.slots t 4).cast nbuf2_4)
/-- The scratch buffer holding the running sum, whole, and its view. -/
abbrev scM2_0 : Memref sig .tc .vmem S2048x128 .f32 := Memref.whole cc2_scratch0
abbrev VS2_0 : View sig .tc .vmem S2048x128 .f32 := scM2_0.view

/-! ## The body's triple, case by case: the stores the run finds -/

set_option maxHeartbeats 1000000 in
/-- First column block: the scratch, whatever it held, is zeroed and the block product added; the output's buffer,
    at contents `xi4`, is handed back as found. -/
noncomputable def kernelRun2_A (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : cond2_0 i) (hc1 : ¬cond2_1 i)
    (x0 : Vec F S2048x2048 .f32) (x1 : Vec F S2048x128 .bf16) (x2 : Vec F S2048x128 .bf16) (x3 : Vec F S2048x1 .f32) :
    { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_kernel i arg2 harg2 arg3 harg3 arg4 harg4 arg5 harg5 arg6 harg6 arg7 harg7) K } := by
  refine ⟨?_, fun xi4 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- A middle column block: the block product is added to what the scratch held, `xs0`; the output's buffer is
    handed back as found. -/
noncomputable def kernelRun2_B (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : ¬cond2_1 i)
    (x0 : Vec F S2048x2048 .f32) (x1 : Vec F S2048x128 .bf16) (x2 : Vec F S2048x128 .bf16) (x3 : Vec F S2048x1 .f32) (xs0 : Vec F S2048x128 .f32) :
    { LS0 : List (View.Piece (Elt F) S2048x128 .f32) //
      ∀ (xi4 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_kernel i arg2 harg2 arg3 harg3 arg4 harg4 arg5 harg5 arg6 harg6 arg7 harg7) K } := by
  refine ⟨?_, fun xi4 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 1000000 in
/-- Last column block: the block product is added to what the scratch held, `xs0`; then the output's buffer,
    whatever it held, receives the sum with the self term added and the rows scaled. -/
noncomputable def kernelRun2_C (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) :
    Σ' (L4 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_kernel i arg2 harg2 arg3 harg3 arg4 harg4 arg5 harg5 arg6 harg6 arg7 harg7) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KRegion2.lean ====
/-
  The third kernel region: its proof data and body obligation.

  What the scratch and the output's staging buffer hold after each grid point is given by recursion on the point
  (`outsAt2`): the three cases of the body, each run at the point's memrefs and input blocks over what the point
  before left in the scratch. The region's invariant names the scratch's contents between points; the output window
  is idle except at the last column block of each row block, where its buffer receives the finished rows and is
  written back.
-/
import proofs.«112075_j62397284876370_2_alg».proof.Proof.KRegion2Runs
import proofs.«112075_j62397284876370_2_alg».proof.Proof.LibWholeBuffer
import proofs.«112075_j62397284876370_2_alg».proof.Proof.LibWholeStores

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the scratch and in the output's buffer -/

/-- The stores of the first column block cover the scratch. -/
theorem scover2_A (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : cond2_0 i) (hc1 : ¬cond2_1 i)
    (x0 : Vec F S2048x2048 .f32) (x1 : Vec F S2048x128 .bf16) (x2 : Vec F S2048x128 .bf16) (x3 : Vec F S2048x1 .f32) (y : S2048x128.Idx) :
    ∃ pc ∈ (kernelRun2_A c i arg2 harg2 arg3 harg3 arg4 harg4 arg5 harg5 arg6 harg6 arg7 harg7 hc0 hc1 x0 x1 x2 x3).1, y ∈ pc.1.set :=
  View.cover_of_tiledL (kernelRun2_A c i arg2 harg2 arg3 harg3 arg4 harg4 arg5 harg5 arg6 harg6 arg7 harg7 hc0 hc1 x0 x1 x2 x3).1 S2048x128.size (by sl_kernel_rfl) y

/-- What the first column block leaves in the scratch: its stores read back. -/
def sout2_A (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : cond2_0 i) (hc1 : ¬cond2_1 i)
    (x0 : Vec F S2048x2048 .f32) (x1 : Vec F S2048x128 .bf16) (x2 : Vec F S2048x128 .bf16) (x3 : Vec F S2048x1 .f32) : Vec F S2048x128 .f32 :=
  VS2_0.read (Elt F) (VS2_0.writes (Elt F) VS2_0.junk (kernelRun2_A c i arg2 harg2 arg3 harg3 arg4 harg4 arg5 harg5 arg6 harg6 arg7 harg7 hc0 hc1 x0 x1 x2 x3).1)

/-- The store of a middle column block covers the scratch. -/
theorem scover2_B (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : ¬cond2_1 i)
    (x0 : Vec F S2048x2048 .f32) (x1 : Vec F S2048x128 .bf16) (x2 : Vec F S2048x128 .bf16) (x3 : Vec F S2048x1 .f32) (xs0 : Vec F S2048x128 .f32) (y : S2048x128.Idx) :
    ∃ pc ∈ (kernelRun2_B c i arg2 harg2 arg3 harg3 arg4 harg4 arg5 harg5 arg6 harg6 arg7 harg7 hc0 hc1 x0 x1 x2 x3 xs0).1, y ∈ pc.1.set :=
  View.cover_of_tiledL (kernelRun2_B c i arg2 harg2 arg3 harg3 arg4 harg4 arg5 harg5 arg6 harg6 arg7 harg7 hc0 hc1 x0 x1 x2 x3 xs0).1 S2048x128.size (by sl_kernel_rfl) y

/-- What a middle column block leaves in the scratch. -/
def sout2_B (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : ¬cond2_1 i)
    (x0 : Vec F S2048x2048 .f32) (x1 : Vec F S2048x128 .bf16) (x2 : Vec F S2048x128 .bf16) (x3 : Vec F S2048x1 .f32) (xs0 : Vec F S2048x128 .f32) : Vec F S2048x128 .f32 :=
  VS2_0.read (Elt F) (VS2_0.writes (Elt F) VS2_0.junk (kernelRun2_B c i arg2 harg2 arg3 harg3 arg4 harg4 arg5 harg5 arg6 harg6 arg7 harg7 hc0 hc1 x0 x1 x2 x3 xs0).1)

/-- The store of the last column block into the output's buffer covers it. -/
theorem cover2_C_4 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) (y : S2048x128.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S2048x128.size (by sl_kernel_rfl) y

/-- What the last column block leaves in the output's buffer. -/
def out2_C_4 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) : Vec F S2048x128 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

/-- Its store into the scratch covers the scratch. -/
theorem scover2_C (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) (y : S2048x128.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S2048x128.size (by sl_kernel_rfl) y

/-- What the last column block leaves in the scratch. -/
def sout2_C (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) : Vec F S2048x128 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-- The output component where the body stores nothing into the output's buffer: a placeholder nothing reads (the
    window is idle and not written back there). -/
def idleOut2 : Vec F S2048x128 .f32 := View.canon (Val := Elt F) []

/-! ## What the output's buffer and the scratch hold after each point -/

/-- The accumulation: the pair (output's buffer, scratch) after the body at position `n`. At the first column block of
    a row block the scratch is the first block product; at the others the block product added to what the point before
    left; at the last the output's buffer receives the finished rows. -/
def outsAt2 (c : Dev nD) : (n : ℕ) → n < cfg2.N → Vec F S2048x128 .f32 × Vec F S2048x128 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 8 = 0 then
      if h1 : (n + 1) % 8 = 7 then
        False.elim (by omega)
      else
        (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 8 = 7 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- At a first column block. -/
theorem outsAt2_A (c : Dev nD) (t : Fin cfg2.N) (h0 : t.val % 8 = 0) (h1 : ¬t.val % 8 = 7) :
    outsAt2 V c t.val t.isLt = (idleOut2, sout2_A c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

/-- At a middle column block: over what the point before left in the scratch. -/
theorem outsAt2_B (c : Dev nD) (t : Fin cfg2.N) (h0 : ¬t.val % 8 = 0) (h1 : ¬t.val % 8 = 7) :
    outsAt2 V c t.val t.isLt = (idleOut2, sout2_B c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column block: over what the point before left in the scratch. -/
theorem outsAt2_C (c : Dev nD) (t : Fin cfg2.N) (h0 : ¬t.val % 8 = 0) (h1 : t.val % 8 = 7) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the scratch carries the running sum -/

/-- The core's scoped buffers the region neither stages through nor accumulates in, each at some contents. -/
def keep2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f))

/-- What the launch hands the region, with the scratch set apart as a memref owned at some contents. -/
theorem PhiA2_eq (c : Dev nD) :
    (Pipeline.ΦA spec2 c : sProp 𝕄)
      = iprop(iprop(keep2 (F := F) c ∗ (∃ d, owns (c : Thread nD τ) scM2_0 fullShare d)) ∗ (∃ r, prngReg c r)) := by
  unfold Pipeline.ΦA keep2; rw [scopedRest2_eq]; simp only [scM2_0, owns_whole]
  refine BI.equiv_iff.mp ⟨?_, ?_⟩
  · show (_ : sProp 𝕄) ⊢ _
    iintro ⟨⟨R0, R1, R2, R3, R4, R5, R6, R7, R8, R9, R10, HS⟩, Hg⟩
    isplitl [R0 R1 R2 R3 R4 R5 R6 R7 R8 R9 R10 HS]
    · isplitl [R0 R1 R2 R3 R4 R5 R6 R7 R8 R9 R10]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        iexact R10
      iexact HS
    iexact Hg
  · show (_ : sProp 𝕄) ⊢ _
    iintro ⟨⟨⟨R0, R1, R2, R3, R4, R5, R6, R7, R8, R9, R10⟩, HS⟩, Hg⟩
    isplitl [R0 R1 R2 R3 R4 R5 R6 R7 R8 R9 R10 HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact HS
    iexact Hg

/-- The invariant before position `n`: before the first point what the launch hands over (the scratch at anything);
    afterwards the scratch at what the point before left in it. -/
def PhiS2 (c : Dev nD) : (n : ℕ) → n ≤ cfg2.N → sProp 𝕄
  | 0, _ => Pipeline.ΦA spec2 c
  | n + 1, hn => iprop(iprop(keep2 (F := F) c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(keep2 (F := F) c ∗ owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(iprop(keep2 (F := F) c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt2`'s first component; the invariant `PhiS2`; nothing owed;
    the support array, which two windows look at, shared between them, full shares of the others. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' buffers hold their blocks; the closed forms of the two conditions say which
    case the point is in; the invariant hands the body the scratch at what the point before left (at anything before
    the first point) and takes it back at this point's contents; where the output is idle its buffer goes back as it
    came, at the last column block it goes back at what the store left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 8 = 0
  · by_cases h1 : t.val % 8 = 7
    · exfalso; omega
    · rw [Dat.leavesExact_idle (dat2 V c) 4 t (idleAt2_4 t (fun h => h1 ((hcond2_1 t).mp h))) (noFlush2_4 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HR, HS0⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_4 sout2_C; (try dsimp only)
      have hz : t.val ≠ 0 := fun hz => h0 (by rw [hz])
      rw [PhiS2_castSucc V c t, PhiS2_pos V c _ _ hz]
      iintro ⟨⟨⟨HR, HS0⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    · rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B; (try dsimp only)
      have hz : t.val ≠ 0 := fun hz => h0 (by rw [hz])
      rw [PhiS2_castSucc V c t, PhiS2_pos V c _ _ hz]
      iintro ⟨⟨⟨HR, HS0⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: what the scratch holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0⟩, Hg⟩
  isplitl [HR HS0]
  · isplitl [HR]; · iexact HR
    iexists _; iexact HS0
  iexact Hg

theorem hout2 (c : Dev nD) : (dat2 V c).Φ (Fin.last cfg2.N) ⊢ Pipeline.ΦA spec2 c :=
  Phi_out2 V c _ (by rw [Fin.val_last]; have : cfg2.N = 64 := N_2; omega)

open Cert.LibWholeBuffer Cert.LibWholeStores

/-! ## What each case leaves, in terms of the body's payloads -/

/-- A middle column block leaves in the scratch the block product added to what it held. -/
theorem sout2_B_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : ¬cond2_1 i)
    (x0 : Vec F S2048x2048 .f32) (x1 : Vec F S2048x128 .bf16) (x2 : Vec F S2048x128 .bf16) (x3 : Vec F S2048x1 .f32) (xs0 : Vec F S2048x128 .f32) :
    sout2_B c i arg2 harg2 arg3 harg3 arg4 harg4 arg5 harg5 arg6 harg6 arg7 harg7 hc0 hc1 x0 x1 x2 x3 xs0 = k2_pay2 x0 xs0 x1 := by
  unfold sout2_B kernelRun2_B; dsimp only
  rw [read_store_whole VS2_0 _ zero2, load_whole harg2 x0 zero2, load_whole harg7 xs0 zero2, load_whole harg3 x1 zero2]

/-- The first column block leaves in the scratch the block product added to zero. -/
theorem sout2_A_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : cond2_0 i) (hc1 : ¬cond2_1 i)
    (x0 : Vec F S2048x2048 .f32) (x1 : Vec F S2048x128 .bf16) (x2 : Vec F S2048x128 .bf16) (x3 : Vec F S2048x1 .f32) :
    sout2_A c i arg2 harg2 arg3 harg3 arg4 harg4 arg5 harg5 arg6 harg6 arg7 harg7 hc0 hc1 x0 x1 x2 x3 = k2_pay2 x0 (k2_pay1 (F := F)) x1 := by
  unfold sout2_A kernelRun2_A; dsimp only
  rw [read_store_last VS2_0 _ zero2, load_whole harg2 x0 zero2, load_whole harg3 x1 zero2]
  sl_unfold_run_names
  rw [View.readCov_unit_zero arg7.view zero2]

/-- The last column block leaves in the scratch the block product added to what it held, -/
theorem sout2_C_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) :
    sout2_C c i arg2 harg2 arg3 harg3 arg4 harg4 arg5 harg5 arg6 harg6 arg7 harg7 hc0 hc1 x0 x1 x2 x3 xs0 = k2_pay2 x0 xs0 x1 := by
  unfold sout2_C kernelRun2_C; dsimp only
  sl_unfold_run_names
  rw [read_store_whole VS2_0 _ zero2, load_whole harg2 x0 zero2, load_whole harg7 xs0 zero2, load_whole harg3 x1 zero2]

/-- and in the output's buffer that sum with the self term added and the rows scaled. -/
theorem out2_C_4_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x1 .f32) (harg5 : arg5.IsWhole) (arg6 : Memref sig .tc .vmem S2048x128 .f32) (harg6 : arg6.IsWhole) (arg7 : Memref sig .tc .vmem S2048x128 .f32) (harg7 : arg7.IsWhole) (hc0 : ¬cond2_0 i) (hc1 : cond2_1 i)
    (x0 : Vec F S2048x2048 .f32) (x1 : Vec F S2048x128 .bf16) (x2 : Vec F S2048x128 .bf16) (x3 : Vec F S2048x1 .f32) (xs0 : Vec F S2048x128 .f32) :
    out2_C_4 c i arg2 harg2 arg3 harg3 arg4 harg4 arg5 harg5 arg6 harg6 arg7 harg7 hc0 hc1 x0 x1 x2 x3 xs0 = k2_pay3 (k2_pay2 x0 xs0 x1) x2 x3 := by
  unfold out2_C_4 kernelRun2_C; dsimp only
  rw [read_store_whole VO2_4 _ zero2, load_whole harg4 x2 zero2, load_whole harg5 x3 zero2]
  sl_unfold_run_names
  rw [View.readCov_unit_zero arg7.view zero2, load_whole harg2 x0 zero2, load_whole harg7 xs0 zero2, load_whole harg3 x1 zero2]

end Cert.Kernel.Hand

end
-- ==== Proof.KSegs.lean ====
/-
  The program as host stretches and kernel regions.

  Between two items a core holds every unscoped buffer at a known valuation: the launch contents, then what the
  host operations before the first kernel compute, then — after each kernel region — the same with the region's
  output array at what the region's write-backs leave (`Dat.arrAt … N`), and the transposition between the first
  two kernels applied. Each region takes the buffers behind its windows' arrays out of that state and puts them
  back; the second and third windows of the last region look at one array, whose share is dealt between them.
-/
import proofs.«112075_j62397284876370_2_alg».proof.Proof.KRegion0
import proofs.«112075_j62397284876370_2_alg».proof.Proof.KRegion1
import proofs.«112075_j62397284876370_2_alg».proof.Proof.KRegion2
import proofs.«112075_j62397284876370_2_alg».proof.Proof.Gen.Kernel.Regions
import proofs.«112075_j62397284876370_2_alg».proof.Proof.LibRegionShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents between items -/

/-- A valuation read at the TensorCore's references. -/
abbrev atTc (W : Dev nD → Valuation τ sig (Elt F)) : (c : Dev nD) → (b : Ref sig .tc) → Buf (Elt F) ((c : Thread nD τ).loc b) :=
  fun c b => W c b

/-- After the host operations before the first kernel: the adjacency is scattered. -/
abbrev Z1 (c : Dev nD) : Valuation τ sig (Elt F) := Gen.V1 m c
/-- What the first kernel leaves in its output array. -/
def o2 (c : Dev nD) : Buf (Elt F) ((c : Thread nD τ).loc main_v19) := (dat0 (atTc (Z1 m)) c).arrAt 1 cfg0.N
/-- After the first kernel. -/
def Z2 (c : Dev nD) : Valuation τ sig (Elt F) := Function.update (Z1 m c) main_v19 (o2 m c)
/-- After the transposition. -/
def Z3 (c : Dev nD) : Valuation τ sig (Elt F) := StableHlo.after hostOps1 (Z2 m c)
/-- What the second kernel leaves in its output array. -/
def o4 (c : Dev nD) : Buf (Elt F) ((c : Thread nD τ).loc main_v21) := (dat1 (atTc (Z3 m)) c).arrAt 3 cfg1.N
/-- After the second kernel. -/
def Z4 (c : Dev nD) : Valuation τ sig (Elt F) := Function.update (Z3 m c) main_v21 (o4 m c)
/-- What the third kernel leaves in its output array. -/
def o5 (c : Dev nD) : Buf (Elt F) ((c : Thread nD τ).loc main_v22) := (dat2 (atTc (Z4 m)) c).arrAt 4 cfg2.N
/-- After the third kernel. -/
def Z5 (c : Dev nD) : Valuation τ sig (Elt F) := Function.update (Z4 m c) main_v22 (o5 m c)

/-- What the regions leave, as the unknowns the generated valuations are written over. -/
def outs : Gen.Outs (F := F) := fun J r c =>
  match J with
  | 2 => Z2 m c r
  | 4 => Z4 m c r
  | 5 => Z5 m c r
  | _ => Gen.V0 m c r

theorem V2_eq (c : Dev nD) : Gen.V2 m (outs m) c = Z2 m c := by
  show Function.update (Gen.V1 m c) main_v19 (Z2 m c main_v19) = Z2 m c
  unfold Z2; rw [Function.update_self]
theorem V3_eq (c : Dev nD) : Gen.V3 m (outs m) c = Z3 m c := by
  show StableHlo.after hostOps1 (Gen.V2 m (outs m) c) = Z3 m c
  rw [V2_eq]; rfl
theorem V4_eq (c : Dev nD) : Gen.V4 m (outs m) c = Z4 m c := by
  show Function.update (Gen.V3 m (outs m) c) main_v21 (Z4 m c main_v21) = Z4 m c
  rw [V3_eq]; unfold Z4; rw [Function.update_self]
theorem V5_eq (c : Dev nD) : Gen.V5 m (outs m) c = Z5 m c := by
  show Function.update (Gen.V4 m (outs m) c) main_v22 (Z5 m c main_v22) = Z5 m c
  rw [V4_eq]; unfold Z5; rw [Function.update_self]

/-! ## The proof data family -/

def pdats : (p : Fin 3) → (c : Dev nD) → Dat τ (Elt F) Unit ℕ (Pipeline.UD sig nD τ) ℕ (cfgs p) c
  | ⟨0, _⟩ => fun c => dat0 (atTc (Z1 m)) c
  | ⟨1, _⟩ => fun c => dat1 (atTc (Z3 m)) c
  | ⟨2, _⟩ => fun c => dat2 (atTc (Z4 m)) c

abbrev 𝒱₀ : Variants := Variants.none
abbrev L : GSem nD τ sig → Finset Unit := fun _ => ∅
abbrev lv : GSem nD τ sig → Unit → ℕ := fun _ _ => 0

/-- What rides beside the buffers through every item: the generator register at some state, and the core owing nothing. -/
abbrev X (c : Dev nD) : sProp 𝕄 := iprop(∃ r, prngReg c r)
abbrev Rest (c : Dev nD) : sProp 𝕄 := iprop(X (F := F) c ∗ ∃ W, owes (c : Thread nD τ) (0 : CellTallies nD τ sig Unit) W)

/-! ## The buffers behind a region's arrays and the region's arrays -/

omit [FloatOps F] in
/-- For windows on distinct arrays, each held at the full share, the buffers behind the arrays at a valuation are the
    region's arrays at the same contents. -/
theorem arrBufs_eq_arrays {cfg : Cfg sig Λ₀} {c : Dev nD} (dat : Dat τ (Elt F) Unit ℕ (Pipeline.UD sig nD τ) ℕ cfg c)
    (hinj : Function.Injective (Pipeline.arrRef cfg.spec)) (harr : ∀ w, (cfg.spec w).arr.IsWhole)
    (hshare : ∀ w, dat.share w = fullShare) (V : (b : Ref sig .tc) → Buf (Elt F) ((c.tc : Thread nD τ).loc b))
    (G : (w : Fin cfg.W) → Buf (Elt F) ((cfg.win w).arr.view.loc (c.tc : Thread nD τ))) (hG : ∀ w, G w = V (Pipeline.arrRef cfg.spec w)) :
    (Pipeline.arrBufs cfg.spec c V : sProp 𝕄) = dat.arrays G := by
  classical
  unfold Dat.arrays Pipeline.arrBufs
  rw [show Finset.univ.image (Pipeline.arrRef cfg.spec) = Finset.univ.map ⟨Pipeline.arrRef cfg.spec, hinj⟩ from (Finset.map_eq_image ⟨Pipeline.arrRef cfg.spec, hinj⟩ Finset.univ).symm,
    bigSep_map]
  exact bigSep_congr fun w _ => by rw [(harr w).set_eq_univ, hshare, hG]; rfl

/-! ## What the valuations hold at the references the regions touch -/

theorem Z2_v18 (c : Dev nD) : Z2 m c (Proc.devRef .tc main_v18) = Z1 m c (Proc.devRef .tc main_v18) := by
  unfold Z2; exact Function.update_of_ne (StableHlo.devRef_ne_of_ne (by decide)) _ _
theorem Z2_v19 (c : Dev nD) : Z2 m c (Proc.devRef .tc main_v19) = o2 m c := by
  unfold Z2; exact Function.update_self _ _ _
theorem Z2_of_ne (c : Dev nD) (b : Ref sig .tc) (hb : b ≠ main_v19) : Z2 m c (Proc.devRef .tc b) = Z1 m c (Proc.devRef .tc b) := by
  unfold Z2; exact Function.update_of_ne (StableHlo.devRef_ne_of_ne hb) _ _

/-! ## The regions as segments -/

/-- No region has a prefetched table. -/
theorem notab (p : Fin 3) (c : Dev nD) :
    (Pipeline.prefHeld (pcfgs (F := F) p).pre c (fun _ => fullShare) (Gen.adm p).1 : sProp 𝕄) = BI.emp := by
  unfold Pipeline.prefHeld; rw [show (Finset.univ : Finset (Fin 0)) = ∅ from rfl, BI.bigSep_empty]

/-- At the first region's exit each of its arrays holds what the write-backs leave. -/
theorem hG0 (c : Dev nD) (w : Fin cfg0.W) : (dat0 (atTc (Z1 m)) c).arrAt w cfg0.N = Z2 m c (Proc.devRef .tc (Pipeline.arrRef spec0 w)) := by
  match w with
  | ⟨0, _⟩ => exact ((dat0 (atTc (Z1 m)) c).arrAt_in 0 rfl _).trans ((A_eq0 (atTc (Z1 m)) c 0).trans (Z2_v18 m c).symm)
  | ⟨1, _⟩ => exact (Z2_v19 m c).symm

set_option backward.isDefEq.respectTransparency.types false in
/-- THE FIRST REGION: entered from the valuation after the scatter, left at the same with the degree row written. -/
def reg0 : RegionSeg (pcfgs (F := F)) Gen.adm (pdats m) () defs₀ 𝒱₀ L lv 0 :=
  Cert.LibRegionShared.region (pcfgs (F := F)) Gen.adm (pdats m) () defs₀ 𝒱₀ L lv 0
    launch0.win.to₀ launch0.block_pos launch0.stage_whole
    (fun c => (body_obligation0 (atTc (Z1 m)) c).loose) (fun _ _ => rfl) (fun _ => rfl) (notab 0)
    (fun c => Z1 m c) (fun c => Z2 m c) X X
    (fun c => Entails.of_eq (arrBufs_eq_arrays (dat0 (atTc (Z1 m)) c) launch0.win.arr_inj launch0.arr_whole
      ((dat0 (atTc (Z1 m)) c).share_full fun _ => rfl) _ _ (fun w => A_eq0 (atTc (Z1 m)) c w)))
    (fun c => Entails.of_eq (arrBufs_eq_arrays (dat0 (atTc (Z1 m)) c) launch0.win.arr_inj launch0.arr_whole
      ((dat0 (atTc (Z1 m)) c).share_full fun _ => rfl) (fun b => Z2 m c b) _ (hG0 m c)).symm)
    (fun c b hb => Z2_of_ne m c b (fun e => hb (Finset.mem_image.mpr ⟨1, Finset.mem_univ _, e.symm⟩)))
    (fun c => by
      rw [show (pdats m 0 c).Φ 0 = Pipeline.ΦA spec0 c from rfl]; unfold Pipeline.ΦA
      iintro ⟨Hp, Hr⟩
      isplitl [Hr]; · iexact Hr
      iexact Hp)
    (fun c => by
      rw [show (pdats m 0 c).Φ (Fin.last _) = Pipeline.ΦA spec0 c from rfl]; unfold Pipeline.ΦA
      iintro ⟨Hr, Hp⟩
      isplitl [Hp]; · iexact Hp
      iexact Hr)

theorem Z4_of_ne (c : Dev nD) (b : Ref sig .tc) (hb : b ≠ main_v21) : Z4 m c (Proc.devRef .tc b) = Z3 m c (Proc.devRef .tc b) := by
  unfold Z4; exact Function.update_of_ne (StableHlo.devRef_ne_of_ne hb) _ _
theorem Z4_v21 (c : Dev nD) : Z4 m c (Proc.devRef .tc main_v21) = o4 m c := by
  unfold Z4; exact Function.update_self _ _ _

/-- At the second region's exit each of its arrays holds what the write-backs leave. -/
theorem hG1 (c : Dev nD) (w : Fin cfg1.W) : (dat1 (atTc (Z3 m)) c).arrAt w cfg1.N = Z4 m c (Proc.devRef .tc (Pipeline.arrRef spec1 w)) := by
  match w with
  | ⟨0, _⟩ => exact ((dat1 (atTc (Z3 m)) c).arrAt_in 0 rfl _).trans ((A_eq1 (atTc (Z3 m)) c 0).trans (Z4_of_ne m c main_arg0 (by decide)).symm)
  | ⟨1, _⟩ => exact ((dat1 (atTc (Z3 m)) c).arrAt_in 1 rfl _).trans ((A_eq1 (atTc (Z3 m)) c 1).trans (Z4_of_ne m c main_arg3 (by decide)).symm)
  | ⟨2, _⟩ => exact ((dat1 (atTc (Z3 m)) c).arrAt_in 2 rfl _).trans ((A_eq1 (atTc (Z3 m)) c 2).trans (Z4_of_ne m c main_v20 (by decide)).symm)
  | ⟨3, _⟩ => exact (Z4_v21 m c).symm

set_option backward.isDefEq.respectTransparency.types false in
/-- THE SECOND REGION: entered after the transposition, left with the scaled support written. -/
def reg1 : RegionSeg (pcfgs (F := F)) Gen.adm (pdats m) () defs₀ 𝒱₀ L lv 1 :=
  Cert.LibRegionShared.region (pcfgs (F := F)) Gen.adm (pdats m) () defs₀ 𝒱₀ L lv 1
    launch1.win.to₀ launch1.block_pos launch1.stage_whole
    (fun c => (body_obligation1 (atTc (Z3 m)) c).loose) (fun _ _ => rfl) (fun _ => rfl) (notab 1)
    (fun c => Z3 m c) (fun c => Z4 m c) X X
    (fun c => Entails.of_eq (arrBufs_eq_arrays (dat1 (atTc (Z3 m)) c) launch1.win.arr_inj launch1.arr_whole
      ((dat1 (atTc (Z3 m)) c).share_full fun _ => rfl) _ _ (fun w => A_eq1 (atTc (Z3 m)) c w)))
    (fun c => Entails.of_eq (arrBufs_eq_arrays (dat1 (atTc (Z3 m)) c) launch1.win.arr_inj launch1.arr_whole
      ((dat1 (atTc (Z3 m)) c).share_full fun _ => rfl) (fun b => Z4 m c b) _ (hG1 m c)).symm)
    (fun c b hb => Z4_of_ne m c b (fun e => hb (Finset.mem_image.mpr ⟨3, Finset.mem_univ _, e.symm⟩)))
    (fun c => by
      rw [show (pdats m 1 c).Φ 0 = Pipeline.ΦA spec1 c from rfl]; unfold Pipeline.ΦA
      iintro ⟨Hp, Hr⟩
      isplitl [Hr]; · iexact Hr
      iexact Hp)
    (fun c => by
      rw [show (pdats m 1 c).Φ (Fin.last _) = Pipeline.ΦA spec1 c from rfl]; unfold Pipeline.ΦA
      iintro ⟨Hr, Hp⟩
      isplitl [Hp]; · iexact Hp
      iexact Hr)

theorem Z5_of_ne (c : Dev nD) (b : Ref sig .tc) (hb : b ≠ main_v22) : Z5 m c (Proc.devRef .tc b) = Z4 m c (Proc.devRef .tc b) := by
  unfold Z5; exact Function.update_of_ne (StableHlo.devRef_ne_of_ne hb) _ _
theorem Z5_v22 (c : Dev nD) : Z5 m c (Proc.devRef .tc main_v22) = o5 m c := by
  unfold Z5; exact Function.update_self _ _ _

/-! ## The last region: two windows on one array -/

/-- The distinct arrays behind the last region's five windows. -/
theorem img2 : Finset.univ.image (Pipeline.arrRef spec2) = ({main_v18, main_v21, main_v20, main_v22} : Finset (Ref sig .tc)) := by decide

/-- The buffers behind them, one by one. -/
theorem arrBufs2_eq (c : Dev nD) (W : (b : Ref sig .tc) → Buf (Elt F) ((c.tc : Thread nD τ).loc b)) :
    (Pipeline.arrBufs spec2 c W : sProp 𝕄)
      = iprop((((c.tc : Thread nD τ).loc main_v18) ↦{fullShare} W main_v18) ∗ (((c.tc : Thread nD τ).loc main_v21) ↦{fullShare} W main_v21)
          ∗ (((c.tc : Thread nD τ).loc main_v20) ↦{fullShare} W main_v20) ∗ (((c.tc : Thread nD τ).loc main_v22) ↦{fullShare} W main_v22)) := by
  unfold Pipeline.arrBufs
  rw [img2, bigSep_insert (by decide), bigSep_insert (by decide), bigSep_insert (by decide), bigSep_singleton]
  rfl

/-- The region's arrays, window by window: the support array's share is dealt between the second and third windows. -/
theorem arrays2_eq (Vv : (c : Dev nD) → (b : Ref sig .tc) → Buf (Elt F) ((c : Thread nD τ).loc b)) (c : Dev nD)
    (G : (w : Fin cfg2.W) → Buf (Elt F) ((cfg2.win w).arr.view.loc (c.tc : Thread nD τ))) :
    ((dat2 Vv c).arrays G : sProp 𝕄)
      = iprop((((c.tc : Thread nD τ).loc main_v18) ↦{fullShare} G 0) ∗ (((c.tc : Thread nD τ).loc main_v21) ↦{(fullShare : PosShare TreeShare).left} G 1)
          ∗ (((c.tc : Thread nD τ).loc main_v21) ↦{(fullShare : PosShare TreeShare).right} G 2)
          ∗ (((c.tc : Thread nD τ).loc main_v20) ↦{fullShare} G 3) ∗ (((c.tc : Thread nD τ).loc main_v22) ↦{fullShare} G 4)) := by
  have h0 : (cfg2.win 0).arr.IsWhole := arr_whole2 0
  have h1 : (cfg2.win 1).arr.IsWhole := arr_whole2 1
  have h2 : (cfg2.win 2).arr.IsWhole := arr_whole2 2
  have h3 : (cfg2.win 3).arr.IsWhole := arr_whole2 3
  have h4 : (cfg2.win 4).arr.IsWhole := arr_whole2 4
  unfold Dat.arrays
  rw [bigSep_W2, h0.set_eq_univ, h1.set_eq_univ, h3.set_eq_univ, h4.set_eq_univ]
  rfl

/-- Entry: the support array's buffer, held whole, is dealt to the two windows on it. -/
theorem hsplit2 (c : Dev nD) :
    (Pipeline.arrBufs spec2 c (fun b => Z4 m c b) : sProp 𝕄) ⊢ (dat2 (atTc (Z4 m)) c).arrays ((dat2 (atTc (Z4 m)) c).arrAt · 0) := by
  rw [arrBufs2_eq, arrays2_eq]
  have e0 : (dat2 (atTc (Z4 m)) c).arrAt 0 0 = Z4 m c (Proc.devRef .tc main_v18) := A_eq2 (atTc (Z4 m)) c 0
  have e1 : (dat2 (atTc (Z4 m)) c).arrAt 1 0 = Z4 m c (Proc.devRef .tc main_v21) := A_eq2 (atTc (Z4 m)) c 1
  have e2 : (dat2 (atTc (Z4 m)) c).arrAt 2 0 = Z4 m c (Proc.devRef .tc main_v21) := A_eq2 (atTc (Z4 m)) c 2
  have e3 : (dat2 (atTc (Z4 m)) c).arrAt 3 0 = Z4 m c (Proc.devRef .tc main_v20) := A_eq2 (atTc (Z4 m)) c 3
  have e4 : (dat2 (atTc (Z4 m)) c).arrAt 4 0 = Z4 m c (Proc.devRef .tc main_v22) := A_eq2 (atTc (Z4 m)) c 4
  rw [e0, e1, e2, e3, e4]
  iintro ⟨H18, H21, H20, H22⟩
  ihave H := (pointsTo_share (PosShare.mem_left_op_right fullShare)).1 $$ H21
  icases H with ⟨Hl, Hr⟩
  isplitl [H18]; · iexact H18
  isplitl [Hl]; · iexact Hl
  isplitl [Hr]; · iexact Hr
  isplitl [H20]; · iexact H20
  iexact H22

/-- Exit: the two windows' halves of the support array, unchanged, make the whole again; the output array holds what
    the write-backs left. -/
theorem hjoin2 (c : Dev nD) :
    (dat2 (atTc (Z4 m)) c).arrays ((dat2 (atTc (Z4 m)) c).arrAt · cfg2.N) ⊢ (Pipeline.arrBufs spec2 c (fun b => Z5 m c b) : sProp 𝕄) := by
  rw [arrBufs2_eq, arrays2_eq]
  have e0 : (dat2 (atTc (Z4 m)) c).arrAt 0 cfg2.N = Z5 m c (Proc.devRef .tc main_v18) :=
    ((dat2 (atTc (Z4 m)) c).arrAt_in 0 rfl _).trans ((A_eq2 (atTc (Z4 m)) c 0).trans (Z5_of_ne m c main_v18 (by decide)).symm)
  have e1 : (dat2 (atTc (Z4 m)) c).arrAt 1 cfg2.N = Z5 m c (Proc.devRef .tc main_v21) :=
    ((dat2 (atTc (Z4 m)) c).arrAt_in 1 rfl _).trans ((A_eq2 (atTc (Z4 m)) c 1).trans (Z5_of_ne m c main_v21 (by decide)).symm)
  have e2 : (dat2 (atTc (Z4 m)) c).arrAt 2 cfg2.N = Z5 m c (Proc.devRef .tc main_v21) :=
    ((dat2 (atTc (Z4 m)) c).arrAt_in 2 rfl _).trans ((A_eq2 (atTc (Z4 m)) c 2).trans (Z5_of_ne m c main_v21 (by decide)).symm)
  have e3 : (dat2 (atTc (Z4 m)) c).arrAt 3 cfg2.N = Z5 m c (Proc.devRef .tc main_v20) :=
    ((dat2 (atTc (Z4 m)) c).arrAt_in 3 rfl _).trans ((A_eq2 (atTc (Z4 m)) c 3).trans (Z5_of_ne m c main_v20 (by decide)).symm)
  have e4 : (dat2 (atTc (Z4 m)) c).arrAt 4 cfg2.N = Z5 m c (Proc.devRef .tc main_v22) := (Z5_v22 m c).symm
  rw [e0, e1, e2, e3, e4]
  iintro ⟨H18, Hl, Hr, H20, H22⟩
  isplitl [H18]; · iexact H18
  isplitl [Hl Hr]
  · iapply (pointsTo_share (PosShare.mem_left_op_right fullShare)).2
    isplitl [Hl]; · iexact Hl
    iexact Hr
  isplitl [H20]; · iexact H20
  iexact H22

set_option backward.isDefEq.respectTransparency.types false in
/-- THE THIRD REGION: entered after the second kernel, left with the result written. -/
def reg2 : RegionSeg (pcfgs (F := F)) Gen.adm (pdats m) () defs₀ 𝒱₀ L lv 2 :=
  Cert.LibRegionShared.region (pcfgs (F := F)) Gen.adm (pdats m) () defs₀ 𝒱₀ L lv 2
    winFacts₀2 block_pos2 stage_whole2
    (fun c => (body_obligation2 (atTc (Z4 m)) c).loose) (fun _ _ => rfl) (fun _ => rfl) (notab 2)
    (fun c => Z4 m c) (fun c => Z5 m c) X X
    (hsplit2 m) (hjoin2 m)
    (fun c b hb => Z5_of_ne m c b (fun e => hb (Finset.mem_image.mpr ⟨4, Finset.mem_univ _, e.symm⟩)))
    (fun c => BIBase.Entails.trans (by
      unfold Pipeline.ΦA
      iintro ⟨Hp, Hr⟩
      isplitl [Hr]; · iexact Hr
      iexact Hp) (hin2 (atTc (Z4 m)) c))
    (fun c => by
      refine (hout2 (atTc (Z4 m)) c).trans ?_
      unfold Pipeline.ΦA
      iintro ⟨Hr, Hp⟩
      isplitl [Hp]; · iexact Hp
      iexact Hr)

/-! ## The run -/

abbrev E : Fin 4 → Dev nD → sProp 𝕄 := fun _ c => Rest c

-- the launch theorem's implicit arguments are found by unifying its conclusion with this one
set_option backward.isDefEq.respectTransparency.types false in
/-- THE RUN. From any memory with zero counters every weakly fair execution of the program terminates, nothing
    faulting; the result array ends at what the third region's write-backs leave and every argument as launched. -/
theorem run_main : θ_run defs (onTc (τ := τ) (main (F := F))) ⟨m, fun _ => 0, ρ⟩ (fun r => ∀ c : Dev nD,
      r.2.mem ((c.tc : Thread nD τ).loc main_v22) = o5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj embL defs₀ 𝒱₀ L lv m ρ main
    (Gen.segs m (outs m) 𝒱₀ L lv E () (pdats m) (reg0 m) (reg1 m) (reg2 m))
    (fun c Q => by
      rewrite [main_chain c, Seg.run_eq_chain,
        show (Gen.segs m (outs m) 𝒱₀ L lv E () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()) ] from rfl]
      exact .rfl)
    (fun c => by simp only [Gen.segs, Seg.pipes_host, Seg.pipes_region, Seg.pipes_nil]; decide)
    (O₀ := fun _ => 0) (hL := fun _ _ => rfl) (G := fun _ => (iprop(emp) : sProp 𝕄))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m (outs m) c))
    (hch := fun c => ⟨.rfl, .rfl,
      (by
        show (reg0 m).post c ⊢ iprop(StableHlo.held (c : Thread nD τ) (Pipeline.ucRefs τ sig) (Gen.V2 m (outs m) c) ∗ E 1 c)
        rw [V2_eq]; exact .rfl),
      (by
        show iprop(StableHlo.held (c : Thread nD τ) (Pipeline.ucRefs τ sig) (StableHlo.after hostOps1 (Gen.V2 m (outs m) c)) ∗ E 1 c) ⊢ (reg1 m).pre c
        rw [V2_eq]; exact .rfl),
      .rfl,
      (by
        show (reg2 m).post c ⊢ iprop(StableHlo.held (c : Thread nD τ) (Pipeline.ucRefs τ sig) (Gen.V5 m (outs m) c) ∗ ∃ W, owes (c : Thread nD τ) (0 : CellTallies nD τ sig Unit) W)
        rw [V5_eq]
        show iprop(StableHlo.held (c : Thread nD τ) (Pipeline.ucRefs τ sig) (Z5 m c) ∗ X c ∗ ∃ W, owes (c : Thread nD τ) (0 : CellTallies nD τ sig Unit) W) ⊢ _
        iintro ⟨Hh, -, HO⟩
        isplitl [Hh]; · iexact Hh
        iexact HO)⟩)
    (hinit := ?_) (QY := fun c s => s.mem ((c.tc : Thread nD τ).loc main_v22) = o5 m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: every core's unscoped buffers are held at the launch contents; the register and the empty dues ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨(h (Proc.devRef .tc main_v22) (Finset.mem_filter.mpr ⟨StableHlo.devRef_mem_tcRefs main_v22, by decide⟩)).trans ((congrFun (V5_eq m c) _).trans (Z5_v22 m c)),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c)⟩
    · iexact HSI

end Cert.Kernel.Hand

end
-- ==== Proof.LibRealSums.lean ====
/-
  The extended reals that are real numbers. They are closed under the operations of the ideal instance that a
  sum-and-scale computation uses (sum, product, maximum, finite sums, the quotient of one by a real that is at least one),
  the bit patterns of zero and of one denote them, and over them a scaled aggregate of matrix products is the matrix
  product of the scaled aggregate: the distributive law, which fails over the extended reals at large (a sum that meets
  both infinities) and holds as soon as every entry is a real number.
-/
import Idealize.ShloMosaic.PureOps.Ideal
import Idealize.ShloMosaic.PureOps.Ideal.Laws
import Idealize.ShloMosaic.Lib.IdealHost
import Mathlib.Algebra.BigOperators.Ring.Finset
import Mathlib.Tactic.Ring
import Mathlib.Tactic.Linarith

namespace Cert.LibRealSums

open Idealize.ShloMosaic

/-- An extended real that is a real number: neither infinity. -/
def IsReal (x : EReal) : Prop := ∃ r : ℝ, x = (r : EReal)

/-- A real number, seen as an extended real, is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem isReal_max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The single-precision pattern of zero denotes zero. -/
theorem ofBits_zero : Ideal.ofBits .f32 0x00000000#32 = 0 := Ideal.ofBits_zero_f32

/-- The single-precision pattern `0x3F800000` denotes one. -/
theorem ofBits_one : Ideal.ofBits .f32 0x3F800000#32 = 1 := Ideal.ofBits_one_f32

/-- The single-precision pattern of zero denotes a real number. -/
theorem isReal_ofBits_zero : IsReal (Ideal.ofBits .f32 0x00000000#32) := by
  rw [ofBits_zero]; exact isReal_zero

/-- The single-precision pattern of one denotes a real number. -/
theorem isReal_ofBits_one : IsReal (Ideal.ofBits .f32 0x3F800000#32) := by
  rw [ofBits_one]; exact isReal_one

/-- The inverse degree: the quotient of one by the larger of a real number and one is a real number. The divisor is a
    real that is at least one, so it is not zero, and the quotient is the product with its reciprocal. -/
theorem isReal_invDeg (d : EReal) (hd : IsReal d) : IsReal (Ideal.div 1 (max d 1)) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, one_mul]
  exact isReal_coe _

/-- The distributive law of the aggregation. Over real entries, the sum over a set `S` of rows of the matrix products
    `∑ k, a e k * w k`, scaled by `v`, is the matrix product of the scaled sum of the rows: both are the double sum of
    `a e k * v * w k`. The leading zeros are the initial values the two sums start from. -/
theorem agg_law {ι κ : Type} [Fintype κ] (S : Finset ι) (a : ι → κ → EReal) (w : κ → EReal) (v : EReal)
    (ha : ∀ e k, IsReal (a e k)) (hw : ∀ k, IsReal (w k)) (hv : IsReal v) :
    (0 + ∑ e ∈ S, ∑ k, a e k * w k) * v = ∑ k, ((0 + ∑ e ∈ S, a e k) * v) * w k := by
  choose ar har using ha
  choose wr hwr using hw
  obtain ⟨vr, rfl⟩ := hv
  obtain rfl : a = fun e k => (ar e k : EReal) := funext fun e => funext fun k => har e k
  obtain rfl : w = fun k => (wr k : EReal) := funext hwr
  simp only [zero_add, ← EReal.coe_mul, ← coe_sum]
  congr 1
  simp only [Finset.sum_mul]
  rw [Finset.sum_comm]
  exact Finset.sum_congr rfl fun k _ => Finset.sum_congr rfl fun e _ => by ring

end Cert.LibRealSums
-- ==== Proof.LibSelfLoopNorm.lean ====
/-
  The normalised aggregation, rearranged.

  Row `i` of `D^{-1/2} (A + I) D^{-1/2}` applied to a column `x`: the entry `(i, k)` of the normalised matrix is
  `(d k * (a k + δ_ik)) * d i`, where `a` is row `i` of the adjacency and `d` the inverse square roots of the
  degrees. Summed against `x`, the identity's term leaves the sum:

      Σ_k ((d k * (a k + δ_ik)) * d i) * x k  =  (Σ_j a j * (x j * d j) + x i * d i) * d i.

  Over the real numbers this is distributivity. Over the extended reals it holds as soon as every entry is a real
  number; the extended-real form below is the one the layer's two arrangements meet at.
-/
import proofs.«112075_j62397284876370_2_alg».proof.Proof.LibRealSums

namespace Cert.Gcn.Alg

open Cert.LibRealSums

/-- The rearrangement over the real numbers. -/
theorem row_law_real {ι : Type} [Fintype ι] [DecidableEq ι] (a d x : ι → ℝ) (i : ι) :
    ∑ k, ((d k * (a k + if i = k then 1 else 0)) * d i) * x k
      = (∑ j, a j * (x j * d j) + x i * d i) * d i := by
  have e : ∀ k, ((d k * (a k + if i = k then (1 : ℝ) else 0)) * d i) * x k
      = (a k * (x k * d k)) * d i + (if i = k then x k * d k * d i else 0) := by
    intro k
    split_ifs <;> ring
  simp only [e]
  rw [Finset.sum_add_distrib, Finset.sum_ite_eq, if_pos (Finset.mem_univ _), ← Finset.sum_mul]
  ring

/-- The rearrangement over extended reals that are real numbers. -/
theorem row_law {ι : Type} [Fintype ι] [DecidableEq ι] (A D X : ι → EReal)
    (hA : ∀ k, IsReal (A k)) (hD : ∀ k, IsReal (D k)) (hX : ∀ k, IsReal (X k)) (i : ι) :
    ∑ k, ((D k * (A k + if i = k then (1 : EReal) else 0)) * D i) * X k
      = (∑ j, A j * (X j * D j) + X i * D i) * D i := by
  choose a ha using hA
  choose d hd using hD
  choose x hx using hX
  obtain rfl : A = fun k => (a k : EReal) := funext ha
  obtain rfl : D = fun k => (d k : EReal) := funext hd
  obtain rfl : X = fun k => (x k : EReal) := funext hx
  have e : ∀ k, (if i = k then (1 : EReal) else 0) = ((if i = k then (1 : ℝ) else 0 : ℝ) : EReal) := by
    intro k
    split_ifs
    · exact EReal.coe_one.symm
    · exact EReal.coe_zero.symm
  simp only [e, ← EReal.coe_mul, ← EReal.coe_add, ← coe_sum]
  exact congrArg _ (row_law_real a d x i)

/-- The column sums: adding the identity adds one to every column sum, with no condition on the entries. -/
theorem colsum_add_eye {ι : Type} [Fintype ι] [DecidableEq ι] (A : ι → EReal) (j : ι) :
    ∑ k, (A k + if k = j then (1 : EReal) else 0) = ∑ k, A k + 1 := by
  rw [Finset.sum_add_distrib, Finset.sum_ite_eq', if_pos (Finset.mem_univ _)]

end Cert.Gcn.Alg
-- ==== Proof.LibScatterPred.lean ====
/-
  An overwriting scatter keeps every entry inside any set that holds the operand's entries and the updates'.

  A scatter whose body returns the update is a left fold over the update indices: each step either leaves the array
  as it is or replaces one entry by an update. So a property that every entry of the operand has and every update
  has, every entry of the result has, whatever the scatter indices are (repeated, out of range, in any order).
-/
import Idealize.ShloMosaic.PureOps

namespace Cert.Gcn.Ref

open Idealize.ShloMosaic

/-- An overwriting scatter's entries are the operand's or the updates'. -/
theorem scatter_set_pred {s si u : Shape} {α : Type} {w : Nat} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  generalize List.finRange u.numel = l
  induction l generalizing x with
  | nil => exact hx i
  | cons n l ih =>
    rw [List.foldl_cons]
    refine ih _ fun i' => ?_
    cases d.resultIdx? (u.rowMajor.symm n) idx with
    | none => exact hx i'
    | some i0 =>
      dsimp only
      split_ifs
      · exact hu _
      · exact hx _

end Cert.Gcn.Ref
-- ==== Proof.RefScatterReal.lean ====
/-
  The dense adjacency holds real numbers.

  It is scattered, by a scatter that overwrites, onto an array of zeros; such a scatter's entries are the operand's
  or the updates'. So when every edge weight is a real number every entry of the adjacency is.
-/
import proofs.«112075_j62397284876370_2_alg».proof.Proof.Gen.ReferenceIdeal.Read
import proofs.«112075_j62397284876370_2_alg».proof.Proof.LibRealSums
import proofs.«112075_j62397284876370_2_alg».proof.Proof.LibScatterPred

noncomputable section

namespace Cert.Gcn.Ref

open Idealize.ShloMosaic Cert.LibRealSums

/-- The array of zeros the adjacency is scattered onto holds real numbers. -/
theorem zeros_real (i : Cert.ReferenceIdeal.S16384x16384.Idx) :
    IsReal (Cert.ReferenceIdeal.Read.val_main_v4 (F := Ideal) i) := by
  rw [Cert.ReferenceIdeal.Read.val_main_v4_apply, Cert.ReferenceIdeal.Read.val_main_cst_apply, Ideal.ofBits_def]
  exact isReal_ofBits_zero

/-- Every entry of the dense adjacency is a real number when every edge weight is. -/
theorem adj_real [Cert.ReferenceIdeal.Facts]
    (x1 : (⟨Cert.ReferenceIdeal.S2x524288, .i32⟩ : BufTy).Contents (Elt Ideal))
    (x2 : (⟨Cert.ReferenceIdeal.S524288, .f32⟩ : BufTy).Contents (Elt Ideal))
    (h2 : ∀ e, IsReal (x2 e)) (i : Cert.ReferenceIdeal.S16384x16384.Idx) :
    IsReal (Cert.ReferenceIdeal.Read.val_main_v18 (F := Ideal) x1 x2 i) := by
  unfold Cert.ReferenceIdeal.Read.val_main_v18
  exact scatter_set_pred _ IsReal _ _ _ zeros_real h2 i

end Cert.Gcn.Ref

end
-- ==== Proof.LibPreDecode.lean ====
/-
  A precondition's conjuncts read back, element by element.

  A precondition written as a conjunction of `jnp.all` tests prints as a chain of `and`s of whole-array reductions by
  `and`, and the claim says the chain is 1. Each reduction that is 1 met only 1s (the library's `Host.reduce_andi_all`);
  what an element being 1 says depends on the test:

  * `|x| < +inf` on a float array, read at the extended reals: the entry is a real number (the only extended reals
    whose absolute value is not the top element) — `all_real`;
  * `(m == 0) | (m == 1)` on an integer array: the entry is the word 0 or the word 1 — `all_zero_or_one` —, and such a
    word converted to a float is the real 0 or 1 — `sitofp_zero_or_one` —, so that it is its own square
    (`mask_idem`).

  Everything is stated over any shapes, the compared constants as arrays with their entries given, so that a
  printed `broadcast_in_dim` of a scalar constant is supplied by `fun _ => rfl`.
-/
import Idealize.ShloMosaic.Lib.ReduceAll
import Idealize.ShloMosaic.PureOps.Ideal
import Idealize.ShloMosaic.PureOps.Ideal.Laws

noncomputable section

namespace Cert.LibPreDecode

open Idealize.ShloMosaic

/-- The f32 word of +inf denotes the top extended real. -/
theorem ofBits_inf : FloatOps.ofBits (F := Ideal) .f32 0x7F800000#32 = (⊤ : EReal) := by
  simp [Ideal.ofBits, Ideal.ieee]

/-- An extended real whose absolute value lies strictly below the top is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry of the test `|x| < +inf` being 1 says the entry is a real number. -/
theorem real_of_abs_lt_inf (x y : Ideal .f32) (hy : y = FloatOps.ofBits (F := Ideal) .f32 0x7F800000#32)
    (h : FloatOps.cmpf (F := Ideal) .olt (FloatOps.hostAbsf x) y = 1#1) : ∃ r : ℝ, x = (r : EReal) := by
  rw [hy, ofBits_inf, Ideal.hostAbsf_def, Ideal.cmpf_def, Ideal.absf_def] at h
  refine exists_real_of_abs_lt_top x ?_
  by_contra hlt
  simp [Ideal.cmp, hlt] at h

/-- `jnp.all(|x| < inf)` is 1: every entry of `x` is a real number. -/
theorem all_real {s t u : Shape} {axes : List (Fin s.rank)} [Subsingleton t.Idx]
    (x inf : FVec Ideal s .f32) (hinf : ∀ i, inf i = FloatOps.ofBits (F := Ideal) .f32 0x7F800000#32)
    (init : u.Idx → BitVec 1) (h : s.ReducesTo axes t) (hu : 0 < u.numel) (j : t.Idx)
    (e : Host.reduce IntOp.andi (cmpf .olt (Host.absf x) inf) init h hu j = 1#1) (i : s.Idx) :
    ∃ r : ℝ, x i = (r : EReal) :=
  real_of_abs_lt_inf (x i) (inf i) (hinf i) (Host.reduce_andi_all _ init h hu j e i)

/-- `jnp.all((m == 0) | (m == 1))` is 1: every entry of `m` is the word 0 or the word 1. -/
theorem all_zero_or_one {s t u : Shape} {axes : List (Fin s.rank)} [Subsingleton t.Idx] {w : Nat}
    (m z o : IVec s w) (a b : BitVec w) (hz : ∀ i, z i = a) (ho : ∀ i, o i = b)
    (init : u.Idx → BitVec 1) (h : s.ReducesTo axes t) (hu : 0 < u.numel) (j : t.Idx)
    (e : Host.reduce IntOp.andi (ori (cmpi .eq m z) (cmpi .eq m o)) init h hu j = 1#1) (i : s.Idx) :
    m i = a ∨ m i = b := by
  have h1 : IntOp.ori (IntOp.cmpi .eq (m i) (z i)) (IntOp.cmpi .eq (m i) (o i)) = 1#1 :=
    Host.reduce_andi_all _ init h hu j e i
  rcases IntOp.ori_eq_one.1 h1 with h2 | h2
  · exact Or.inl ((IntOp.cmpi_eq.1 h2).trans (hz i))
  · exact Or.inr ((IntOp.cmpi_eq.1 h2).trans (ho i))

/-- A 32-bit word that is 0 or 1, converted to a float, is the real 0 or the real 1. -/
theorem sitofp_zero_or_one (b : BitVec 32) (h : b = 0#32 ∨ b = 1#32) :
    FloatOps.sitofp (F := Ideal) .f32 b = ((0 : ℝ) : EReal) ∨ FloatOps.sitofp (F := Ideal) .f32 b = ((1 : ℝ) : EReal) := by
  rcases h with rfl | rfl
  · left; show (((0#32 : BitVec 32).toInt : ℝ) : EReal) = _; norm_num
  · right; show (((1#32 : BitVec 32).toInt : ℝ) : EReal) = _; norm_num

/-- A mask entry that is the real 0 or 1 is its own square. -/
theorem mask_idem (x : EReal) (h : x = ((0 : ℝ) : EReal) ∨ x = ((1 : ℝ) : EReal)) : x * x = x := by
  rcases h with rfl | rfl <;> simp

end Cert.LibPreDecode

end
-- ==== Proof.PreSide.lean ====
/-
  The precondition, read back.

  The precondition is a conjunction of four tests, each a `jnp.all`: every entry of the features, of the edge weights
  and of the weights has absolute value below +inf, and every column sum of the adjacency with its self loops is
  positive. Each test that is 1 met only 1s. An entry whose absolute value is below the top element is a real
  number; and the column sums the precondition tests are the reference's own degrees, the same operations on the
  same arguments.
-/
import proofs.«112075_j62397284876370_2_alg».proof.Proof.Gen.ReferenceIdeal.Read
import proofs.«112075_j62397284876370_2_alg».proof.Proof.Gen.Pre_finite_inputs
import proofs.«112075_j62397284876370_2_alg».proof.Proof.LibPreDecode
import proofs.«112075_j62397284876370_2_alg».proof.Proof.LibRealSums
import Idealize.ShloMosaic.Lib.ReduceAll

noncomputable section

namespace Cert.Gcn.Ref

open Idealize.ShloMosaic Idealize.ShloMosaic.ValueIdx Cert.LibRealSums

variable [Cert.ReferenceIdeal.Facts] [Cert.Pre_finite_inputs.Facts]

/-- The scalar shape has one index. -/
instance subsingleton_scalar_idx : Subsingleton Cert.Pre_finite_inputs.S_.Idx :=
  ⟨fun _ _ => funext fun d => d.elim0⟩

/-- A comparison `x > 0` that is 1 says `0 < x`. -/
theorem pos_of_cmp_ogt (x : EReal) (h : Ideal.cmp .ogt x 0 = 1#1) : 0 < x := by
  by_contra hlt
  simp [Ideal.cmp, hlt] at h

/-- The precondition's four conjuncts: the three float inputs hold real numbers, and every degree is positive. -/
theorem pre_decode
    (x0 : (⟨Cert.ReferenceIdeal.S16384x128, .f32⟩ : BufTy).Contents (Elt Ideal))
    (x1 : (⟨Cert.ReferenceIdeal.S2x524288, .i32⟩ : BufTy).Contents (Elt Ideal))
    (x2 : (⟨Cert.ReferenceIdeal.S524288, .f32⟩ : BufTy).Contents (Elt Ideal))
    (x3 : (⟨Cert.ReferenceIdeal.S128x128, .f32⟩ : BufTy).Contents (Elt Ideal))
    (hpre : Cert.Pre_finite_inputs.fn (F := Ideal) x0 x1 x2 x3 = fun _ => 1#1) :
    (∀ i, IsReal (x0 i)) ∧ (∀ e, IsReal (x2 e)) ∧ (∀ i, IsReal (x3 i)) ∧
      ∀ j, (0 : EReal) < Cert.ReferenceIdeal.Read.val_main_v26 (F := Ideal) x1 x2 j := by
  have h := congrFun hpre ix0
  dsimp only [Cert.Pre_finite_inputs.fn, Cert.Pre_finite_inputs.fn_part1, Cert.Pre_finite_inputs.fn_part2] at h
  obtain ⟨h012, hdeg⟩ := IntOp.andi_eq_one.1 h
  obtain ⟨h01, h3⟩ := IntOp.andi_eq_one.1 h012
  obtain ⟨h0, h2⟩ := IntOp.andi_eq_one.1 h01
  refine ⟨fun i => ?_, fun e => ?_, fun i => ?_, fun j => ?_⟩
  · exact Cert.LibPreDecode.all_real x0 _ (fun _ => rfl) _ _ _ ix0 h0 i
  · exact Cert.LibPreDecode.all_real x2 _ (fun _ => rfl) _ _ _ ix0 h2 e
  · exact Cert.LibPreDecode.all_real x3 _ (fun _ => rfl) _ _ _ ix0 h3 i
  · have hj := Host.reduce_andi_all _ _ _ _ ix0 hdeg j
    -- the tested column sums are the reference's degrees: the same operations, printed twice
    have hj' : FloatOps.cmpf (F := Ideal) .ogt (Cert.ReferenceIdeal.Read.val_main_v26 (F := Ideal) x1 x2 j)
        (FloatOps.ofBits (F := Ideal) .f32 0x00000000#32) = 1#1 := hj
    rw [Ideal.cmpf_def, Ideal.ofBits_def, Ideal.ofBits_zero_f32] at hj'
    exact pos_of_cmp_ogt _ hj'

end Cert.Gcn.Ref

end
-- ==== Proof.RefDeg.lean ====
/-
  The reference's degrees and their inverse square roots.

  The adjacency with self loops is `A + I`, where `I` is printed as the comparison of the row number with the column
  number turned into a float: 1 on the diagonal and 0 off it. Its column sums are therefore those of `A` plus one.
  The reference raises them to the power `-1/2`; on a positive real number that is the inverse square root.
-/
import proofs.«112075_j62397284876370_2_alg».proof.Proof.Gen.ReferenceIdeal.Read
import proofs.«112075_j62397284876370_2_alg».proof.Proof.Spec
import proofs.«112075_j62397284876370_2_alg».proof.Proof.LibSelfLoopNorm
import proofs.«112075_j62397284876370_2_alg».proof.Proof.LibRealSums

noncomputable section

namespace Cert.Gcn.Ref

open Idealize.ShloMosaic Idealize.ShloMosaic.ValueIdx Cert.LibRealSums Cert.ReferenceIdeal Cert.ReferenceIdeal.Read

variable [Cert.ReferenceIdeal.Facts]

/-- The identity matrix: 1 where the row number is the column number, 0 elsewhere. -/
theorem eye_apply (a b : Fin 16384) :
    val_main_v24 (F := Ideal) (ix2 a b) = if a = b then (1 : EReal) else 0 := by
  rw [val_main_v24_apply, val_main_v23_apply, val_main_v22_apply, val_main_v19_apply, val_main_v20_apply,
    val_main_v21_apply, val_main_c_3_apply]
  show FloatOps.uitofp (F := Ideal) .f32
    (IntOp.cmpi .eq (IntOp.addi (BitVec.ofNat 32 a.val) 0#32) (BitVec.ofNat 32 b.val)) = _
  have h0 : IntOp.addi (BitVec.ofNat 32 a.val) 0#32 = BitVec.ofNat 32 a.val := BitVec.add_zero _
  rw [h0]
  by_cases hab : a = b
  · subst hab
    rw [if_pos rfl, IntOp.cmpi_eq.2 rfl]
    show (((1#1 : BitVec 1).toNat : ℝ) : EReal) = 1
    norm_num
  · rw [if_neg hab]
    have hne : ¬ IntOp.cmpi .eq (BitVec.ofNat 32 a.val) (BitVec.ofNat 32 b.val) = 1#1 := by
      intro h
      have h' := congrArg BitVec.toNat (IntOp.cmpi_eq.1 h)
      rw [BitVec.toNat_ofNat, BitVec.toNat_ofNat, Nat.mod_eq_of_lt (by have := a.isLt; omega),
        Nat.mod_eq_of_lt (by have := b.isLt; omega)] at h'
      exact hab (Fin.ext h')
    rw [eq_zero_of_ne_one hne]
    show (((0#1 : BitVec 1).toNat : ℝ) : EReal) = 0
    norm_num

/-- The adjacency with self loops at `(a, b)`. -/
theorem adjI_apply
    (x1 : (⟨S2x524288, .i32⟩ : BufTy).Contents (Elt Ideal)) (x2 : (⟨S524288, .f32⟩ : BufTy).Contents (Elt Ideal))
    (a b : Fin 16384) :
    val_main_v25 (F := Ideal) x1 x2 (ix2 a b)
      = val_main_v18 (F := Ideal) x1 x2 (ix2 a b) + if a = b then (1 : EReal) else 0 := by
  rw [val_main_v25_apply, Ideal.addf_def, eye_apply]

/-- The column sum of node `j` runs over the entries `(k, j)`. -/
theorem idx_deg (j k : Fin 16384) : idx_main_v26 (ix1 j) k = ix2 k j :=
  funext fun a => Fin.ext (by match a with | ⟨0, _⟩ => rfl | ⟨1, _⟩ => rfl)

/-- The degree of node `j`: the column sum of the adjacency, plus one for the self loop. -/
theorem deg_eq
    (x1 : (⟨S2x524288, .i32⟩ : BufTy).Contents (Elt Ideal)) (x2 : (⟨S524288, .f32⟩ : BufTy).Contents (Elt Ideal))
    (j : Fin 16384) :
    val_main_v26 (F := Ideal) x1 x2 (ix1 j) = Cert.Gcn.colsum (val_main_v18 (F := Ideal) x1 x2) j + 1 := by
  rw [val_main_v26_apply, val_main_cst_4_apply, Ideal.ofBits_def, Ideal.ofBits_zero_f32, zero_add]
  simp only [idx_deg, adjI_apply]
  unfold Cert.Gcn.colsum
  exact Cert.Gcn.Alg.colsum_add_eye (fun k => val_main_v18 (F := Ideal) x1 x2 (ix2 k j)) j

/-- The single-precision pattern `0xBF000000` denotes minus one half. -/
theorem ofBits_neg_half : Ideal.ofBits .f32 0xBF000000#32 = ((-(1 / 2) : ℝ) : EReal) := by
  simp [Ideal.ofBits, Ideal.ieee, -EReal.coe_mul, -EReal.coe_neg]; norm_num

/-- A positive real number to the power minus one half is its inverse square root. -/
theorem pow_neg_half (x : EReal) (hx : IsReal x) (hpos : 0 < x) :
    Ideal.pow x (Ideal.ofBits .f32 0xBF000000#32) = Ideal.rsqrt x := by
  obtain ⟨r, rfl⟩ := hx
  have hr : 0 < r := EReal.coe_pos.1 hpos
  rw [ofBits_neg_half, Ideal.pow_coe_coe, Ideal.rsqrt_coe, if_neg (not_lt.2 hr.le), if_neg hr.ne']
  congr 1
  rw [Real.rpow_eq_pow, Real.rpow_neg hr.le, Real.sqrt_eq_rpow]

/-- The inverse square root of a positive real number is a real number. -/
theorem rsqrt_real (x : EReal) (hx : IsReal x) (hpos : 0 < x) : IsReal (Ideal.rsqrt x) := by
  obtain ⟨r, rfl⟩ := hx
  have hr : 0 < r := EReal.coe_pos.1 hpos
  rw [Ideal.rsqrt_coe, if_neg (not_lt.2 hr.le), if_neg hr.ne']
  exact isReal_coe _

section Degrees

variable (x1 : (⟨S2x524288, .i32⟩ : BufTy).Contents (Elt Ideal)) (x2 : (⟨S524288, .f32⟩ : BufTy).Contents (Elt Ideal))
  (hA : ∀ i, IsReal (val_main_v18 (F := Ideal) x1 x2 i))
  (hdeg : ∀ j, (0 : EReal) < val_main_v26 (F := Ideal) x1 x2 j)

include hA in
/-- With a real adjacency every degree is a real number. -/
theorem deg_real (j : Fin 16384) : IsReal (Cert.Gcn.colsum (val_main_v18 (F := Ideal) x1 x2) j + 1) := by
  unfold Cert.Gcn.colsum
  exact isReal_add (isReal_sum _ _ fun i _ => hA _) isReal_one

include hA hdeg in
/-- The reference's `deg ** -0.5` at node `j` is the inverse square root of the column sum plus one. -/
theorem dis_eq (j : Fin 16384) :
    val_main_v28 (F := Ideal) x1 x2 (ix1 j) = Cert.Gcn.dinv (val_main_v18 (F := Ideal) x1 x2) j := by
  have hd := deg_eq x1 x2 j
  have hp := hdeg (ix1 j)
  rw [val_main_v28_apply, val_main_v27_apply, val_main_cst_5_apply, Ideal.hostPowf_def, Ideal.ofBits_def]
  rw [hd] at hp ⊢
  rw [pow_neg_half _ (deg_real x1 x2 hA j) hp]
  rfl

include hA hdeg in
/-- It is a real number. -/
theorem dinv_real (j : Fin 16384) : IsReal (Cert.Gcn.dinv (val_main_v18 (F := Ideal) x1 x2) j) := by
  have hp := hdeg (ix1 j)
  rw [deg_eq x1 x2 j] at hp
  exact rsqrt_real _ (deg_real x1 x2 hA j) hp

end Degrees

end Cert.Gcn.Ref

end
-- ==== Proof.RefSide.lean ====
/-
  The reference's result, read entry by entry.

  The reference forms the normalised adjacency `M(i,k) = (dis k * (A + I)(i,k)) * dis i` and multiplies it by `x w`.
  Under the precondition every input entry is a real number and every degree is positive, so `dis` is the inverse
  square root of the column sums plus one, every quantity is a real number, and the sum over `k` rearranges into the
  specification's form: the identity's term leaves the sum and the common factor `dis i` moves outside.
-/
import proofs.«112075_j62397284876370_2_alg».proof.Proof.Gen.ReferenceIdeal.Read
import proofs.«112075_j62397284876370_2_alg».proof.Proof.Gen.Pre_finite_inputs
import proofs.«112075_j62397284876370_2_alg».proof.Proof.Spec
import proofs.«112075_j62397284876370_2_alg».proof.Proof.LibSelfLoopNorm
import proofs.«112075_j62397284876370_2_alg».proof.Proof.RefScatterReal
import proofs.«112075_j62397284876370_2_alg».proof.Proof.PreSide
import proofs.«112075_j62397284876370_2_alg».proof.Proof.RefDeg

noncomputable section

namespace Cert.Gcn.Ref

open Idealize.ShloMosaic Idealize.ShloMosaic.ValueIdx Cert.LibRealSums Cert.ReferenceIdeal Cert.ReferenceIdeal.Read

variable [Cert.ReferenceIdeal.Facts] [Cert.Pre_finite_inputs.Facts]

/-- The product `x w` at `(j, f)`. -/
theorem xw_apply
    (x0 : (⟨S16384x128, .f32⟩ : BufTy).Contents (Elt Ideal)) (x3 : (⟨S128x128, .f32⟩ : BufTy).Contents (Elt Ideal))
    (j : Fin 16384) (f : Fin 128) :
    val_main_v35 (F := Ideal) x0 x3 (ix2 j f) = Cert.Gcn.xw x0 x3 j f := by
  rw [val_main_v35_apply]
  unfold Cert.Gcn.xw
  refine Finset.sum_congr rfl fun k _ => ?_
  have el : lidx_main_v35 (ix2 j f) k = ix2 j k :=
    funext fun a => Fin.ext (by match a with | ⟨0, _⟩ => rfl | ⟨1, _⟩ => rfl)
  have er : ridx_main_v35 (ix2 j f) k = ix2 k f :=
    funext fun a => Fin.ext (by match a with | ⟨0, _⟩ => rfl | ⟨1, _⟩ => rfl)
  rw [el, er]

/-- Every entry of `x w` is a real number when the features and the weights are. -/
theorem xw_real
    (x0 : (⟨S16384x128, .f32⟩ : BufTy).Contents (Elt Ideal)) (x3 : (⟨S128x128, .f32⟩ : BufTy).Contents (Elt Ideal))
    (h0 : ∀ i, IsReal (x0 i)) (h3 : ∀ i, IsReal (x3 i)) (j : Fin 16384) (f : Fin 128) :
    IsReal (Cert.Gcn.xw x0 x3 j f) := by
  unfold Cert.Gcn.xw
  exact isReal_sum _ _ fun k _ => isReal_mul (h0 _) (h3 _)

/-- The normalised adjacency at `(i, k)`. -/
theorem norm_apply
    (x1 : (⟨S2x524288, .i32⟩ : BufTy).Contents (Elt Ideal)) (x2 : (⟨S524288, .f32⟩ : BufTy).Contents (Elt Ideal))
    (hA : ∀ i, IsReal (val_main_v18 (F := Ideal) x1 x2 i))
    (hdeg : ∀ j, (0 : EReal) < val_main_v26 (F := Ideal) x1 x2 j) (i k : Fin 16384) :
    val_main_v34 (F := Ideal) x1 x2 (ix2 i k)
      = (Cert.Gcn.dinv (val_main_v18 (F := Ideal) x1 x2) k
          * (val_main_v18 (F := Ideal) x1 x2 (ix2 i k) + if i = k then (1 : EReal) else 0))
        * Cert.Gcn.dinv (val_main_v18 (F := Ideal) x1 x2) i := by
  have ec : idx_main_v29 (idx_main_v30 (ix2 i k)) = ix1 k :=
    funext fun a => Fin.ext (by match a with | ⟨0, _⟩ => rfl)
  have er : idx_main_v32 (idx_main_v33 (ix2 i k)) = ix1 i :=
    funext fun a => Fin.ext (by match a with | ⟨0, _⟩ => rfl)
  rw [val_main_v34_apply, val_main_v31_apply, val_main_v30_apply, val_main_v29_apply, val_main_v33_apply,
    val_main_v32_apply, Ideal.mulf_def, Ideal.mulf_def, adjI_apply, ec, er, dis_eq x1 x2 hA hdeg k,
    dis_eq x1 x2 hA hdeg i]

/-- Under the precondition the reference's result is the layer's specification applied to the scattered adjacency. -/
theorem ref_is_spec
    (x0 : (⟨Cert.ReferenceIdeal.S16384x128, .f32⟩ : BufTy).Contents (Elt Ideal))
    (x1 : (⟨Cert.ReferenceIdeal.S2x524288, .i32⟩ : BufTy).Contents (Elt Ideal))
    (x2 : (⟨Cert.ReferenceIdeal.S524288, .f32⟩ : BufTy).Contents (Elt Ideal))
    (x3 : (⟨Cert.ReferenceIdeal.S128x128, .f32⟩ : BufTy).Contents (Elt Ideal))
    (hpre : Cert.Pre_finite_inputs.fn (F := Ideal) x0 x1 x2 x3 = fun _ => 1#1) :
    Cert.ReferenceIdeal.Read.val_main_v36 (F := Ideal) x0 x1 x2 x3
      = Cert.Gcn.outArr (Cert.ReferenceIdeal.Read.val_main_v18 (F := Ideal) x1 x2) x0 x3 := by
  obtain ⟨h0, h2, h3, hdeg⟩ := pre_decode x0 x1 x2 x3 hpre
  have hA := adj_real x1 x2 h2
  funext idx
  obtain ⟨i, f, rfl⟩ : ∃ (i : Fin 16384) (f : Fin 128), idx = ix2 i f := ⟨idx 0, idx 1, eq_ix2 idx⟩
  rw [val_main_v36_apply]
  have el : ∀ k : Fin 16384, lidx_main_v36 (ix2 i f) k = ix2 i k := fun k =>
    funext fun a => Fin.ext (by match a with | ⟨0, _⟩ => rfl | ⟨1, _⟩ => rfl)
  have er : ∀ k : Fin 16384, ridx_main_v36 (ix2 i f) k = ix2 k f := fun k =>
    funext fun a => Fin.ext (by match a with | ⟨0, _⟩ => rfl | ⟨1, _⟩ => rfl)
  simp only [el, er, norm_apply x1 x2 hA hdeg, xw_apply]
  exact Cert.Gcn.Alg.row_law (fun k => val_main_v18 (F := Ideal) x1 x2 (ix2 i k))
    (fun k => Cert.Gcn.dinv (val_main_v18 (F := Ideal) x1 x2) k) (fun k => Cert.Gcn.xw x0 x3 k f)
    (fun k => hA _) (fun k => dinv_real x1 x2 hA hdeg k) (fun k => xw_real x0 x3 h0 h3 k f) i

end Cert.Gcn.Ref

end
-- ==== Proof.Parts.lean ====
/-
  The claims: the three frames, the (empty) idealization ledger, and the equality of the two results.

  Under the precondition — every float input a real number and every degree the reference raises to the power -1/2
  positive — the kernel's result array and the reference's both end at `Cert.Gcn.outArr A x w`, A the scattered dense
  adjacency both programs build by the same host operations.
-/
import proofs.«112075_j62397284876370_2_alg».proof.Defs
import proofs.«112075_j62397284876370_2_alg».proof.Proof.Gen.Kernel
import proofs.«112075_j62397284876370_2_alg».proof.Proof.Gen.KernelIdeal
import proofs.«112075_j62397284876370_2_alg».proof.Proof.Gen.ReferenceIdeal
import proofs.«112075_j62397284876370_2_alg».proof.Proof.Gen.Pre_finite_inputs
import proofs.«112075_j62397284876370_2_alg».proof.Proof.KiResult
import proofs.«112075_j62397284876370_2_alg».proof.Proof.KSegs
import proofs.«112075_j62397284876370_2_alg».proof.Proof.RefSide

set_option maxRecDepth 16384

noncomputable section

open Idealize.ShloMosaic Idealize.ShloMosaic.TcCoe Idealize.SL.Sem

namespace Cert.Proof.Parts

/-- The kernel's program runs to the end with its arguments unchanged, at the word level. -/
theorem frame_k : Cert.frame_Kernel := fun m g _ =>
  (θ_run (Cert.Kernel.defs (F := Bits)) _ _).mono (fun _ h c => (h c).2) (Cert.Kernel.Hand.run_main (F := Bits) m g)

/-- The same at the extended reals. -/
theorem frame_ki : Cert.frame_KernelIdeal := fun m g _ =>
  (θ_run (Cert.KernelIdeal.defs (F := Ideal)) _ _).mono (fun _ h c => (h c).2) (Cert.KernelIdeal.Hand.run_main (F := Ideal) m g)

/-- The reference runs to the end with its arguments unchanged. -/
theorem frame_r : Cert.frame_ReferenceIdeal := fun m g _ =>
  (θ_run (Cert.ReferenceIdeal.defs (F := Ideal)) _ _).mono (fun _ h c => (h c).2) (Cert.ReferenceIdeal.Value.run (F := Ideal) m g)

set_option maxHeartbeats 4000000 in
/-- Both programs scatter the edge weights into the dense adjacency by the same host operations. -/
theorem adj_eq (m : (ℓ : Loc Cert.KernelIdeal.nD Cert.KernelIdeal.τ Cert.KernelIdeal.sig) → Buf (Elt Ideal) ℓ) (c : Dev Cert.KernelIdeal.nD) :
    Cert.KernelIdeal.Hand.adjOf m c
      = Cert.ReferenceIdeal.Read.val_main_v18 (F := Ideal) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  show StableHlo.after Cert.KernelIdeal.Gen.hostOps0 (fun b => m (c, b)) (Proc.devRef .tc Cert.KernelIdeal.main_v18) = _
  after_results_simp <;> rfl

/-- The two results are one array. -/
theorem algebraic : Cert.algebraic_KernelIdeal_ReferenceIdeal := by
  intro m g m' g' hpre hagree
  refine ⟨fun c => Cert.Gcn.outArr
      (Cert.ReferenceIdeal.Read.val_main_v18 (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3)), ?_, ?_⟩
  · refine (θ_run (Cert.KernelIdeal.defs (F := Ideal)) _ _).mono (fun _ h c => ⟨(h c).1.trans ?_, (h c).2⟩)
      (Cert.KernelIdeal.Hand.run_main (F := Ideal) m g)
    rw [Cert.KernelIdeal.Hand.o5_eq, adj_eq]
  · refine (θ_run (Cert.ReferenceIdeal.defs (F := Ideal)) _ _).mono (fun _ h c => ⟨(h c).1.trans ?_, (h c).2⟩)
      (Cert.ReferenceIdeal.Value.run (F := Ideal) m' g')
    rw [Cert.ReferenceIdeal.Read.val_main_v36_eq, (hagree c).1, (hagree c).2.1, (hagree c).2.2.1, (hagree c).2.2.2]
    exact Cert.Gcn.Ref.ref_is_spec _ _ _ _ (hpre c)

end Cert.Proof.Parts

end
-- ==== Proof.lean ====
/-
  A graph-convolution layer over a dense scattered adjacency, computed by three tiled kernels (the degrees, the
  scaled support, the aggregation), against its plain formulation D^{-1/2} (A + I) D^{-1/2} (x w).

  The frames of the kernel's program (at the word level and at the extended reals) come from one run of the program
  as host stretches and kernel regions; the reference's frame from its run. The idealization rewrote nothing. The
  two results are equal entry by entry wherever every float input is a real number and every degree is positive:
  there the two arrangements of the same sums and products agree by the distributive law.
-/
import proofs.«112075_j62397284876370_2_alg».proof.Proof.Parts

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Parts.frame_k, Cert.Proof.Parts.frame_ki, Cert.Proof.Parts.frame_r, trivial, Cert.Proof.Parts.algebraic⟩

end Cert.Proof

end
